-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S11264x2048 : Shape := ⟨2, ![11264, 2048]⟩
abbrev S2048x5632 : Shape := ⟨2, ![2048, 5632]⟩
abbrev S5632 : Shape := ⟨1, ![5632]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S11264x2048 : S_.BroadcastsInDim S11264x2048 (![] : Fin 0 → Fin S11264x2048.rank)
  reducesTo_S11264x2048_S_d0_1 : S11264x2048.ReducesTo [0, 1] S_
  bcast_S_S2048x5632 : S_.BroadcastsInDim S2048x5632 (![] : Fin 0 → Fin S2048x5632.rank)
  reducesTo_S2048x5632_S_d0_1 : S2048x5632.ReducesTo [0, 1] S_
  bcast_S_S5632 : S_.BroadcastsInDim S5632 (![] : Fin 0 → Fin S5632.rank)
  reducesTo_S5632_S_d0 : S5632.ReducesTo [0] S_

variable [Facts]

def fn_part1 {F : FTy → Type} [FloatOps F] (main_v13 : IVec S_ 1) (main_v16 : IVec S5632 1) : IVec S_ 1 :=
  let main_c_5 : IVec S_ 1 := constantI S_ 1 1#1
  let main_v17 : IVec S_ 1 := (fun x v => Host.reduce IntOp.andi x v reducesTo_S5632_S_d0 h_S_) main_v16 main_c_5
  let main_v18 : IVec S_ 1 := andi main_v13 main_v17
  main_v18

def fn {F : FTy → Type} [FloatOps F] (main_arg0 : FVec F S4x2048x2048 .f32) (main_arg1 : FVec F S11264x2048 .f32) (main_arg2 : FVec F S2048x5632 .f32) (main_arg3 : FVec F S5632 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S11264x2048 .f32 := Host.absf main_arg1
  let main_cst_0 : FVec F S_ .f32 := constant S_ .f32 0x7F800000#32
  let main_v5 : FVec F S11264x2048 .f32 := broadcastInDim S11264x2048 ![] bcast_S_S11264x2048 main_cst_0
  let main_v6 : IVec S11264x2048 1 := cmpf .olt main_v4 main_v5
  let main_c_1 : IVec S_ 1 := constantI S_ 1 1#1
  let main_v7 : IVec S_ 1 := (fun x v => Host.reduce IntOp.andi x v reducesTo_S11264x2048_S_d0_1 h_S_) main_v6 main_c_1
  let main_v8 : IVec S_ 1 := andi main_v3 main_v7
  let main_v9 : FVec F S2048x5632 .f32 := Host.absf main_arg2
  let main_cst_2 : FVec F S_ .f32 := constant S_ .f32 0x7F800000#32
  let main_v10 : FVec F S2048x5632 .f32 := broadcastInDim S2048x5632 ![] bcast_S_S2048x5632 main_cst_2
  let main_v11 : IVec S2048x5632 1 := cmpf .olt main_v9 main_v10
  let main_c_3 : IVec S_ 1 := constantI S_ 1 1#1
  let main_v12 : IVec S_ 1 := (fun x v => Host.reduce IntOp.andi x v reducesTo_S2048x5632_S_d0_1 h_S_) main_v11 main_c_3
  let main_v13 : IVec S_ 1 := andi main_v8 main_v12
  let main_v14 : FVec F S5632 .f32 := Host.absf main_arg3
  let main_cst_4 : FVec F S_ .f32 := constant S_ .f32 0x7F800000#32
  let main_v15 : FVec F S5632 .f32 := broadcastInDim S5632 ![] bcast_S_S5632 main_cst_4
  let main_v16 : IVec S5632 1 := cmpf .olt main_v14 main_v15
  fn_part1 (F := F) main_v13 main_v16
-- ==== Kernel.lean ====
abbrev S4x2048x2048 : Shape := ⟨3, ![4, 2048, 2048]⟩
abbrev S11264x2048 : Shape := ⟨2, ![11264, 2048]⟩
abbrev S2048x5632 : Shape := ⟨2, ![2048, 5632]⟩
abbrev S5632 : Shape := ⟨1, ![5632]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩
abbrev S8192x5632 : Shape := ⟨2, ![8192, 5632]⟩
abbrev S2048x2048 : Shape := ⟨2, ![2048, 2048]⟩
abbrev S256x2048 : Shape := ⟨2, ![256, 2048]⟩
abbrev S2048x256 : Shape := ⟨2, ![2048, 256]⟩
abbrev S256x5632 : Shape := ⟨2, ![256, 5632]⟩
abbrev S256x256 : Shape := ⟨2, ![256, 256]⟩
abbrev S256 : Shape := ⟨1, ![256]⟩
abbrev S256x1 : Shape := ⟨2, ![256, 1]⟩
abbrev S1x5632 : Shape := ⟨2, ![1, 5632]⟩

abbrev nBuf : Space → Nat
  | .hbm => 11
  | .vmem => 20
  | .smem => 0
  | _ => 0

abbrev bufTy : (tb : Table) → Fin (tcTables nBuf tb) → BufTy
  | .hbm, ⟨0, _⟩ => ⟨S4x2048x2048, .f32⟩
  | .hbm, ⟨1, _⟩ => ⟨S11264x2048, .f32⟩
  | .hbm, ⟨2, _⟩ => ⟨S2048x5632, .f32⟩
  | .hbm, ⟨3, _⟩ => ⟨S5632, .f32⟩
  | .hbm, ⟨4, _⟩ => ⟨S8192x2048, .f32⟩
  | .hbm, ⟨5, _⟩ => ⟨S11264x2048, .bf16⟩
  | .hbm, ⟨6, _⟩ => ⟨S2048x5632, .bf16⟩
  | .hbm, ⟨7, _⟩ => ⟨S8192x2048, .bf16⟩
  | .hbm, ⟨8, _⟩ => ⟨S8192x5632, .f32⟩
  | .hbm, ⟨9, _⟩ => ⟨S8192x2048, .f32⟩
  | .hbm, ⟨10, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S2048x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S2048x256, .f32⟩
  | .local _ .vmem, ⟨11, _⟩ => ⟨S2048x256, .f32⟩
  | .local _ .vmem, ⟨12, _⟩ => ⟨S256x5632, .f32⟩
  | .local _ .vmem, ⟨13, _⟩ => ⟨S256x5632, .f32⟩
  | .local _ .vmem, ⟨14, _⟩ => ⟨S5632, .f32⟩
  | .local _ .vmem, ⟨15, _⟩ => ⟨S256x5632, .bf16⟩
  | .local _ .vmem, ⟨16, _⟩ => ⟨S256x5632, .bf16⟩
  | .local _ .vmem, ⟨17, _⟩ => ⟨S256x256, .f32⟩
  | .local _ .vmem, ⟨18, _⟩ => ⟨S256x256, .f32⟩
  | .local _ .vmem, ⟨19, _⟩ => ⟨S256x5632, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 22], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg1 c22_i32
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![32, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S256x5632 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S5632 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S256x5632 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S256x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S4x2048x2048_S8192x2048 : S4x2048x2048.ShapeCasts S8192x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  packedbf16_S512x2048_S512x2048_0_0 : (Rect.unit (s := S512x2048) ![0, 0] S512x2048.size inb_S512x2048_S512x2048_0_0).PackedRows (EltTy.packing .bf16)
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x256_S2048x256_0_0 : ∀ a, (![0, 0] : Fin 2 → Nat) a + S2048x256.size a ≤ S2048x256.size a
  h_S2048x256 : 0 < S2048x256.numel
  inb_S256x5632_S256x5632_0_0 : ∀ a, (![0, 0] : Fin 2 → Nat) a + S256x5632.size a ≤ S256x5632.size a
  h_S256x5632 : 0 < S256x5632.numel
  shapeCasts_S256x5632_S256x5632 : S256x5632.ShapeCasts S256x5632
  inb_S5632_S5632_0 : ∀ a, (![0] : Fin 1 → Nat) a + S5632.size a ≤ S5632.size a
  h_S5632 : 0 < S5632.numel
  reduces_S256x5632_S256 : S256x5632.Reduces [1] S256
  shapeCasts_S256_S256x1 : S256.ShapeCasts S256x1
  broadcasts_S256x1_S256x5632 : S256x1.Broadcasts S256x5632
  shapeCasts_S5632_S1x5632 : S5632.ShapeCasts S1x5632
  broadcasts_S1x5632_S256x5632 : S1x5632.Broadcasts S256x5632
  packedbf16_S256x5632_S256x5632_0_0 : (Rect.unit (s := S256x5632) ![0, 0] S256x5632.size inb_S256x5632_S256x5632_0_0).PackedRows (EltTy.packing .bf16)
  inb_S256x256_S256x256_0_0 : ∀ a, (![0, 0] : Fin 2 → Nat) a + S256x256.size a ≤ S256x256.size a
  h_S256x256 : 0 < S256x256.numel
  shapeCasts_S8192x2048_S4x2048x2048 : S8192x2048.ShapeCasts S4x2048x2048
  dot_S2048x2048_S256x2048_S2048x256_1_1_0_0_n_n_wf : DotDims.WF S2048x2048 S256x2048 S2048x256 [1] [1] [0] [0] [] []
  dot_S256x5632_S256x5632_S256x256_1_1_0_0_n_n_wf : DotDims.WF S256x5632 S256x5632 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x2048.size a
  hwx1_0 : ∀ i : grid1.Coords, EltTy.bits .bf16 = 32 ∨ (Rect.block (s := S8192x2048) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S11264x2048.size a
  hwx1_1 : ∀ i : grid1.Coords, EltTy.bits .bf16 = 32 ∨ (Rect.block (s := S11264x2048) S256x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S11264x2048.size a
  hwx1_2 : ∀ i : grid1.Coords, EltTy.bits .bf16 = 32 ∨ (Rect.block (s := S11264x2048) S256x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S8192x5632.size a
  hwx1_3 : ∀ i : grid1.Coords, EltTy.bits .f32 = 32 ∨ (Rect.block (s := S8192x5632) S2048x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x5632.size a ≤ S8192x5632.size a
  hwx2_0 : ∀ i : grid2.Coords, EltTy.bits .f32 = 32 ∨ (Rect.block (s := S8192x5632) S256x5632.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S5632.size a ≤ S5632.size a
  hwx2_1 : ∀ i : grid2.Coords, EltTy.bits .f32 = 32 ∨ (Rect.block (s := S5632) S5632.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x5632.size a ≤ S2048x5632.size a
  hwx2_2 : ∀ i : grid2.Coords, EltTy.bits .bf16 = 32 ∨ (Rect.block (s := S2048x5632) S256x5632.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S8192x2048.size a
  hwx2_3 : ∀ i : grid2.Coords, EltTy.bits .f32 = 32 ∨ (Rect.block (s := S8192x2048) S256x256.size (cc2_transform_3 i) (hinb2_3 i)).WholeWords (EltTy.packing .f32)

variable [Facts₀]

def dot_S2048x2048_S256x2048_S2048x256_1_1_0_0_n_n : DotDims S2048x2048 S256x2048 S2048x256 where
  lhsContracting := [1]
  rhsContracting := [1]
  lhsNonContracting := [0]
  rhsNonContracting := [0]
  lhsBatch := []
  rhsBatch := []
  wf := dot_S2048x2048_S256x2048_S2048x256_1_1_0_0_n_n_wf
def dot_S256x5632_S256x5632_S256x256_1_1_0_0_n_n : DotDims S256x5632 S256x5632 S256x256 where
  lhsContracting := [1]
  rhsContracting := [1]
  lhsNonContracting := [0]
  rhsNonContracting := [0]
  lhsBatch := []
  rhsBatch := []
  wf := dot_S256x5632_S256x5632_S256x256_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v3) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S256x5632.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S5632.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S256x5632.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S256x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x2048 : Shape := ⟨3, ![4, 2048, 2048]⟩
abbrev S11264x2048 : Shape := ⟨2, ![11264, 2048]⟩
abbrev S2048x5632 : Shape := ⟨2, ![2048, 5632]⟩
abbrev S5632 : Shape := ⟨1, ![5632]⟩
abbrev S_ : Shape := ⟨0, ![]⟩
abbrev S4x2048 : Shape := ⟨2, ![4, 2048]⟩
abbrev S4x2048x1 : Shape := ⟨3, ![4, 2048, 1]⟩
abbrev S4x2048x11264 : Shape := ⟨3, ![4, 2048, 11264]⟩
abbrev S4x2048x5632 : Shape := ⟨3, ![4, 2048, 5632]⟩
abbrev S1x1x5632 : Shape := ⟨3, ![1, 1, 5632]⟩

abbrev nBuf : Space → Nat
  | .hbm => 77
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S11264x2048, .f32⟩
  | .hbm, ⟨2, _⟩ => ⟨S2048x5632, .f32⟩
  | .hbm, ⟨3, _⟩ => ⟨S5632, .f32⟩
  | .hbm, ⟨4, _⟩ => ⟨S4x2048x2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S4x2048x11264, .f32⟩
  | .hbm, ⟨29, _⟩ => ⟨S4x2048x5632, .f32⟩
  | .hbm, ⟨30, _⟩ => ⟨S4x2048x5632, .f32⟩
  | .hbm, ⟨31, _⟩ => ⟨S_, .f32⟩
  | .hbm, ⟨32, _⟩ => ⟨S4x2048x5632, .f32⟩
  | .hbm, ⟨33, _⟩ => ⟨S4x2048x5632, .f32⟩
  | .hbm, ⟨34, _⟩ => ⟨S4x2048x5632, .f32⟩
  | .hbm, ⟨35, _⟩ => ⟨S4x2048x5632, .f32⟩
  | .hbm, ⟨36, _⟩ => ⟨S4x2048x5632, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S_, .f32⟩
  | .hbm, ⟨41, _⟩ => ⟨S4x2048x1, .f32⟩
  | .hbm, ⟨42, _⟩ => ⟨S4x2048x1, .f32⟩
  | .hbm, ⟨43, _⟩ => ⟨S_, .f32⟩
  | .hbm, ⟨44, _⟩ => ⟨S4x2048x1, .f32⟩
  | .hbm, ⟨45, _⟩ => ⟨S4x2048x1, .f32⟩
  | .hbm, ⟨46, _⟩ => ⟨S4x2048x1, .f32⟩
  | .hbm, ⟨47, _⟩ => ⟨S4x2048x5632, .f32⟩
  | .hbm, ⟨48, _⟩ => ⟨S4x2048x5632, .f32⟩
  | .hbm, ⟨49, _⟩ => ⟨S1x1x5632, .f32⟩
  | .hbm, ⟨50, _⟩ => ⟨S4x2048x5632, .f32⟩
  | .hbm, ⟨51, _⟩ => ⟨S4x2048x5632, .f32⟩
  | .hbm, ⟨52, _⟩ => ⟨S4x2048x5632, .f32⟩
  | .hbm, ⟨53, _⟩ => ⟨S_, .f32⟩
  | .hbm, ⟨54, _⟩ => ⟨S4x2048, .f32⟩
  | .hbm, ⟨55, _⟩ => ⟨S4x2048x1, .f32⟩
  | .hbm, ⟨56, _⟩ => ⟨S_, .f32⟩
  | .hbm, ⟨57, _⟩ => ⟨S_, .f32⟩
  | .hbm, ⟨58, _⟩ => ⟨S4x2048x1, .f32⟩
  | .hbm, ⟨59, _⟩ => ⟨S4x2048x1, .f32⟩
  | .hbm, ⟨60, _⟩ => ⟨S_, .f32⟩
  | .hbm, ⟨61, _⟩ => ⟨S4x2048x1, .f32⟩
  | .hbm, ⟨62, _⟩ => ⟨S4x2048x1, .f32⟩
  | .hbm, ⟨63, _⟩ => ⟨S4x2048x5632, .f32⟩
  | .hbm, ⟨64, _⟩ => ⟨S4x2048x5632, .f32⟩
  | .hbm, ⟨65, _⟩ => ⟨S4x2048x5632, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S4x2048x5632, .f32⟩
  | .hbm, ⟨70, _⟩ => ⟨S4x2048x5632, .f32⟩
  | .hbm, ⟨71, _⟩ => ⟨S_, .f32⟩
  | .hbm, ⟨72, _⟩ => ⟨S4x2048x5632, .f32⟩
  | .hbm, ⟨73, _⟩ => ⟨S4x2048x5632, .f32⟩
  | .hbm, ⟨74, _⟩ => ⟨S4x2048x5632, .f32⟩
  | .hbm, ⟨75, _⟩ => ⟨S4x2048x5632, .f32⟩
  | .hbm, ⟨76, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_cst_3 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call3_cst : Ref sig .tc := ⟨.hbm, 31, rfl⟩
abbrev main_call3_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_cst_5 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_call4_v0 : Ref sig .tc := ⟨.hbm, 57, rfl⟩
abbrev main_call4_v1 : Ref sig .tc := ⟨.hbm, 58, rfl⟩
abbrev main_v34 : Ref sig .tc := ⟨.hbm, 59, rfl⟩
abbrev main_cst_9 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_10 : Ref sig .tc := ⟨.hbm, 66, rfl⟩
abbrev main_cst_11 : Ref sig .tc := ⟨.hbm, 67, rfl⟩
abbrev main_call6_v0 : Ref sig .tc := ⟨.hbm, 68, rfl⟩
abbrev main_call6_v1 : Ref sig .tc := ⟨.hbm, 69, rfl⟩
abbrev main_call6_v2 : Ref sig .tc := ⟨.hbm, 70, rfl⟩
abbrev main_call6_v3 : Ref sig .tc := ⟨.hbm, 71, rfl⟩
abbrev main_call6_v4 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩

abbrev nD : Nat := 1
abbrev τ : Topo := Topo.v7x

variable {F : FTy → Type} [FloatOps F]

class Facts₀ : Prop where
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S_S4x2048x2048 : S_.BroadcastsInDim S4x2048x2048 (![] : Fin 0 → Fin S4x2048x2048.rank)
  slices_S4x2048x11264_S4x2048x5632_0_0_0 : S4x2048x11264.Slices ![0, 0, 0] S4x2048x5632
  slices_S4x2048x11264_S4x2048x5632_0_0_5632 : S4x2048x11264.Slices ![0, 0, 5632] S4x2048x5632
  bcast_S_S4x2048x5632 : S_.BroadcastsInDim S4x2048x5632 (![] : Fin 0 → Fin S4x2048x5632.rank)
  reducesTo_S4x2048x5632_S4x2048_d2 : S4x2048x5632.ReducesTo [2] S4x2048
  bcast_S4x2048x1_S4x2048x5632_0_1_2 : S4x2048x1.BroadcastsInDim S4x2048x5632 (![0, 1, 2] : Fin 3 → Fin S4x2048x5632.rank)
  bcast_S5632_S1x1x5632_2 : S5632.BroadcastsInDim S1x1x5632 (![2] : Fin 1 → Fin S1x1x5632.rank)
  bcast_S1x1x5632_S4x2048x5632_0_1_2 : S1x1x5632.BroadcastsInDim S4x2048x5632 (![0, 1, 2] : Fin 3 → Fin S4x2048x5632.rank)
  dot_S4x2048x2048_S11264x2048_S4x2048x11264_2_1_01_0_n_n_wf : DotDims.WF S4x2048x2048 S11264x2048 S4x2048x11264 [2] [1] [0, 1] [0] [] []
  dot_S4x2048x5632_S2048x5632_S4x2048x2048_2_1_01_0_n_n_wf : DotDims.WF S4x2048x5632 S2048x5632 S4x2048x2048 [2] [1] [0, 1] [0] [] []

variable [Facts₀]

def dot_S4x2048x2048_S11264x2048_S4x2048x11264_2_1_01_0_n_n : DotDims S4x2048x2048 S11264x2048 S4x2048x11264 where
  lhsContracting := [2]
  rhsContracting := [1]
  lhsNonContracting := [0, 1]
  rhsNonContracting := [0]
  lhsBatch := []
  rhsBatch := []
  wf := dot_S4x2048x2048_S11264x2048_S4x2048x11264_2_1_01_0_n_n_wf
def dot_S4x2048x5632_S2048x5632_S4x2048x2048_2_1_01_0_n_n : DotDims S4x2048x5632 S2048x5632 S4x2048x2048 where
  lhsContracting := [2]
  rhsContracting := [1]
  lhsNonContracting := [0, 1]
  rhsNonContracting := [0]
  lhsBatch := []
  rhsBatch := []
  wf := dot_S4x2048x5632_S2048x5632_S4x2048x2048_2_1_01_0_n_n_wf

class Facts : Prop extends Facts₀ where

variable [Facts]
-- ==== Proof.BitsRun.Region0.lean ====
/-
  The first kernel call: per-token fake quantization of the activations, sixteen blocks of 512 rows.
  What the body leaves in the output block is a pure function of the input block; the proof data say so at every
  grid point, for any contents V the buffers hold when the call is entered.
-/
import proofs.«143260_j32478542693202_2_alg».proof.Proof.Gen.Kernel.Launch
import proofs.«143260_j32478542693202_2_alg».proof.Proof.Gen.Kernel.Skeleton
import proofs.«143260_j32478542693202_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds block `t` of the array at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 512 × 2048 rectangle: the body's one load and one store. -/
abbrev whole0 : Rect S512x2048 := Rect.unit (s := S512x2048) ![0, 0] S512x2048.size inb_S512x2048_S512x2048_0_0

/-- The output block after the body: the quantized rows of the input block, stored through the whole rectangle. -/
def out0 (x0 : Vec F S512x2048 .f32) : Vec F S512x2048 .bf16 :=
  View.canon [⟨whole0, k0_pay1 (View.ld x0 whole0)⟩]

theorem cover0 (p0 : Vec F S512x2048 .bf16) (y : S512x2048.Idx) :
    ∃ pc ∈ ([⟨whole0, p0⟩] : List (View.Piece (Elt F) S512x2048 .bf16)), y ∈ pc.1.set :=
  View.cover_of_tiled [⟨whole0, p0⟩] S512x2048.size (by rfl) y

set_option maxHeartbeats 1000000 in
/-- The body on whole buffers: the input's kept, the output's left at `out0` of the input's. -/
theorem sound_kernel0 (c : Dev nD) (E : Set ℕ) (i : grid0.Coords) (arg1 : Memref sig .tc .vmem S512x2048 .f32) (harg1 : arg1.IsWhole)
    (arg2 : Memref sig .tc .vmem S512x2048 .bf16) (harg2 : arg2.IsWhole)
    (x0 : Vec F S512x2048 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0 x0)) -∗ K ⟨⟩))
      ⊢ wp frame (wpE (defs₀ (F := F)) Variants.none c none) E (cc0__quant_kernel i arg1 harg1 arg2 harg2) K := by
  simp only [cc0__quant_kernel_eq_skeleton]; unfold cc0__quant_kernel_skel
  unfold owns
  iintro ⟨⟨%f0, %hf0, H0⟩, ⟨%d1, %f1, %hf1, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0 _)

/-- The proof data of the first call on core `c`: the arrays as the call finds them; after the body at point `t` the
    input's buffer still at block `t` and the output's at the quantized block; the invariant is the buffers the call
    does not stage and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRun.Region1.lean ====
/-
  The second kernel call: the quantized activations times both halves of the first weight matrix, gated.
  A grid of 4 × 22 points; point (i, n) reads rows 2048·i … of the activations and weight rows 256·n … and
  5632 + 256·n …, and writes the 2048 × 256 tile (i, n) of the gated matrix.
-/
import proofs.«143260_j32478542693202_2_alg».proof.Proof.Gen.Kernel.Launch
import proofs.«143260_j32478542693202_2_alg».proof.Proof.Gen.Kernel.Skeleton
import proofs.«143260_j32478542693202_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds block `t` of its array at every point, fetched there or not: where it is
    not fetched its block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles of the three block shapes. -/
abbrev wholeX : Rect S2048x2048 := Rect.unit (s := S2048x2048) ![0, 0] S2048x2048.size inb_S2048x2048_S2048x2048_0_0
abbrev wholeW : Rect S256x2048 := Rect.unit (s := S256x2048) ![0, 0] S256x2048.size inb_S256x2048_S256x2048_0_0
abbrev wholeG : Rect S2048x256 := Rect.unit (s := S2048x256) ![0, 0] S2048x256.size inb_S2048x256_S2048x256_0_0

/-- The output tile after the body: the gated products of the activation block with the two weight blocks. -/
def out1 (x0 : Vec F S2048x2048 .bf16) (x1 x2 : Vec F S256x2048 .bf16) : Vec F S2048x256 .f32 :=
  View.canon [⟨wholeG, k1_pay1 (View.ld x0 wholeX) (View.ld x1 wholeW) (View.ld x2 wholeW)⟩]

theorem cover1 (p0 : Vec F S2048x256 .f32) (y : S2048x256.Idx) :
    ∃ pc ∈ ([⟨wholeG, p0⟩] : List (View.Piece (Elt F) S2048x256 .f32)), y ∈ pc.1.set :=
  View.cover_of_tiled [⟨wholeG, p0⟩] S2048x256.size (by rfl) y

set_option maxHeartbeats 1000000 in
/-- The body on whole buffers: the inputs' kept, the output's left at `out1` of the inputs'. -/
theorem sound_kernel1 (c : Dev nD) (E : Set ℕ) (i : grid1.Coords) (arg2 : Memref sig .tc .vmem S2048x2048 .bf16) (harg2 : arg2.IsWhole)
    (arg3 : Memref sig .tc .vmem S256x2048 .bf16) (harg3 : arg3.IsWhole) (arg4 : Memref sig .tc .vmem S256x2048 .bf16) (harg4 : arg4.IsWhole)
    (arg5 : Memref sig .tc .vmem S2048x256 .f32) (harg5 : arg5.IsWhole)
    (x0 : Vec F S2048x2048 .bf16) (x1 x2 : Vec F S256x2048 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1 x0 x1 x2)) -∗ K ⟨⟩))
      ⊢ wp frame (wpE (defs₀ (F := F)) Variants.none c none) E (cc1__mm1_gate_kernel i arg2 harg2 arg3 harg3 arg4 harg4 arg5 harg5) K := by
  simp only [cc1__mm1_gate_kernel_eq_skeleton]; unfold cc1__mm1_gate_kernel_skel
  unfold owns
  iintro ⟨⟨%f0, %hf0, H0⟩, ⟨%f1, %hf1, H1⟩, ⟨%f2, %hf2, H2⟩, ⟨%d3, %f3, %hf3, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The proof data of the second call on core `c`. The two weight windows look at ONE array, each holding half of
    it; the activations' and the output's arrays are held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.Region2Body.lean ====
/-
  The third kernel call: RMS-normalize and re-quantize a block of 256 gated rows ONCE, at the first of the eight
  column tiles of its row tile, keep the result in a scratch block, and at every column tile multiply the kept block
  against 256 rows of the second weight matrix. A grid of 32 × 8 points.
-/
import proofs.«143260_j32478542693202_2_alg».proof.Proof.Gen.Kernel.Launch
import proofs.«143260_j32478542693202_2_alg».proof.Proof.Gen.Kernel.Skeleton
import proofs.«143260_j32478542693202_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's branch: taken exactly when the column-tile coordinate is zero. -/
abbrev cond2 (i : grid2.Coords) : Prop := (Scalar.cmpi .ne (Scalar.extui (Scalar.cmpi .eq (BitVec.ofNat 32 (i 1).val) 0#32)) 0#32) = 1#1
/-- It is taken at the points ≡ 0 (mod 8) — decided over the grid. -/
theorem hcond2 : ∀ t : Fin cfg2.N, cond2 (grid2.coords t) ↔ t.val % 8 = 0 :=
  (by decide +kernel : ∀ t : Fin grid2.N, cond2 (grid2.coords t) ↔ t.val % 8 = 0)

/-- The whole rectangles of the block shapes. -/
abbrev wholeS : Rect S256x5632 := Rect.unit (s := S256x5632) ![0, 0] S256x5632.size inb_S256x5632_S256x5632_0_0
abbrev wholeN : Rect S5632 := Rect.unit (s := S5632) ![0] S5632.size inb_S5632_S5632_0
abbrev wholeO : Rect S256x256 := Rect.unit (s := S256x256) ![0, 0] S256x256.size inb_S256x256_S256x256_0_0

/-- The scratch block after a storing point: the normalized, weighted, re-quantized rows of the gated block. -/
def scOf (x0 : Vec F S256x5632 .f32) (x1 : Vec F S5632 .f32) : Vec F S256x5632 .bf16 :=
  View.canon [⟨wholeS, k2_pay1 (View.ld x0 wholeS) (View.ld x1 wholeN)⟩]

/-- The output tile after the body: the kept block times the weight block. -/
def outOf (xs x2 : Vec F S256x5632 .bf16) : Vec F S256x256 .f32 :=
  View.canon [⟨wholeO, k2_pay2 (View.ld xs wholeS) (View.ld x2 wholeS)⟩]

theorem coverS (p0 : Vec F S256x5632 .bf16) (y : S256x5632.Idx) :
    ∃ pc ∈ ([⟨wholeS, p0⟩] : List (View.Piece (Elt F) S256x5632 .bf16)), y ∈ pc.1.set :=
  View.cover_of_tiled [⟨wholeS, p0⟩] S256x5632.size (by rfl) y

theorem coverO (p0 : Vec F S256x256 .f32) (y : S256x256.Idx) :
    ∃ pc ∈ ([⟨wholeO, p0⟩] : List (View.Piece (Elt F) S256x256 .f32)), y ∈ pc.1.set :=
  View.cover_of_tiled [⟨wholeO, p0⟩] S256x256.size (by rfl) y

set_option maxHeartbeats 2000000 in
/-- The body at a STORING point, on whole buffers: the inputs' kept, the scratch left at `scOf` of the gated block and
    the weights, the output's at `outOf` of that and the weight block. -/
theorem sound_kernel2A (c : Dev nD) (E : Set ℕ) (i : grid2.Coords) (arg2 : Memref sig .tc .vmem S256x5632 .f32) (harg2 : arg2.IsWhole)
    (arg3 : Memref sig .tc .vmem S5632 .f32) (harg3 : arg3.IsWhole) (arg4 : Memref sig .tc .vmem S256x5632 .bf16) (harg4 : arg4.IsWhole)
    (arg5 : Memref sig .tc .vmem S256x256 .f32) (harg5 : arg5.IsWhole) (arg6 : Memref sig .tc .vmem S256x5632 .bf16) (harg6 : arg6.IsWhole)
    (hc : cond2 i)
    (x0 : Vec F S256x5632 .f32) (x1 : Vec F S5632 .f32) (x2 : Vec F S256x5632 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outOf (scOf x0 x1) x2) ∗ owns (c : Thread nD τ) arg6 fullShare (scOf x0 x1)) -∗ K ⟨⟩))
      ⊢ wp frame (wpE (defs₀ (F := F)) Variants.none c none) E (cc2__mm2_normquant_kernel i arg2 harg2 arg3 harg3 arg4 harg4 arg5 harg5 arg6 harg6) K := by
  simp only [cc2__mm2_normquant_kernel_eq_skeleton]; unfold cc2__mm2_normquant_kernel_skel
  unfold owns
  iintro ⟨⟨%f0, %hf0, H0⟩, ⟨%f1, %hf1, H1⟩, ⟨%f2, %hf2, H2⟩, ⟨%d3, %f3, %hf3, H3⟩, ⟨%d4, %f4, %hf4, H4⟩, Hk⟩
  subst hf0; subst hf1; subst hf2
  sl_exec (disch := exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (coverO _)).trans ?_
    unfold outOf scOf
    rw [View.readCov_eq_canon _ _ _ (fun j => coverS _ _)]
    rfl
  iexists _; isplitr
  swap; · iexact H4
  ipureintro
  exact View.read_writes_eq_canon _ _ _ (coverS _)

set_option maxHeartbeats 2000000 in
/-- The body at a NON-storing point: the scratch is only read. -/
theorem sound_kernel2B (c : Dev nD) (E : Set ℕ) (i : grid2.Coords) (arg2 : Memref sig .tc .vmem S256x5632 .f32) (harg2 : arg2.IsWhole)
    (arg3 : Memref sig .tc .vmem S5632 .f32) (harg3 : arg3.IsWhole) (arg4 : Memref sig .tc .vmem S256x5632 .bf16) (harg4 : arg4.IsWhole)
    (arg5 : Memref sig .tc .vmem S256x256 .f32) (harg5 : arg5.IsWhole) (arg6 : Memref sig .tc .vmem S256x5632 .bf16) (harg6 : arg6.IsWhole)
    (hc : ¬ cond2 i)
    (x0 : Vec F S256x5632 .f32) (x1 : Vec F S5632 .f32) (x2 xs : Vec F S256x5632 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (outOf xs x2) ∗ owns (c : Thread nD τ) arg6 fullShare xs) -∗ K ⟨⟩))
      ⊢ wp frame (wpE (defs₀ (F := F)) Variants.none c none) E (cc2__mm2_normquant_kernel i arg2 harg2 arg3 harg3 arg4 harg4 arg5 harg5 arg6 harg6) K := by
  simp only [cc2__mm2_normquant_kernel_eq_skeleton]; unfold cc2__mm2_normquant_kernel_skel
  unfold owns
  iintro ⟨⟨%f0, %hf0, H0⟩, ⟨%f1, %hf1, H1⟩, ⟨%f2, %hf2, H2⟩, ⟨%d3, %f3, %hf3, H3⟩, ⟨%f4, %hf4, H4⟩, Hk⟩
  subst hf0; subst hf1; subst hf2; subst hf4
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverO _)
  iexists f4; isplitr; · ipureintro; rfl
  iexact H4

end Cert.Kernel.Hand

end
-- ==== Proof.BitsRun.Region2.lean ====
/-
  The third kernel call's proof data. The scratch block is carried between grid points: after ANY point t it holds the
  normalized, re-quantized rows of the gated block of t's row tile — stored at the first column tile, kept at the other
  seven, where the gated block (and the weight vector) the windows show have not moved.
-/
import proofs.«143260_j32478542693202_2_alg».proof.Proof.Gen.Kernel.Launch
import proofs.«143260_j32478542693202_2_alg».proof.Proof.Gen.Kernel.Skeleton
import proofs.«143260_j32478542693202_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«143260_j32478542693202_2_alg».proof.Proof.BitsRun.Region2Body
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The scratch block, as a memref. -/
abbrev scM : Memref sig .tc .vmem S256x5632 .bf16 := Memref.whole cc2_scratch0

/-- What the scratch holds after point `t`. -/
def scAt (c : Dev nD) (t : Fin cfg2.N) : Vec F S256x5632 .bf16 := scOf (iblk2 V c 0 t) (iblk2 V c 1 t)

/-- The scoped buffers the call does not stage, the scratch apart, each at some contents. -/
def restOf2 (c : Dev nD) : sProp 𝕄 :=
  bigSep (((Finset.univ.filter fun b : Ref sig .tc => b.isScoped) \ Finset.univ.image (Pipeline.stageRef spec2)).erase cc2_scratch0)
    fun b => iprop(∃ f : Buf (Elt F) ((c : Thread nD τ).loc b), ((c : Thread nD τ).loc b) ↦{fullShare} f)

theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ restOf2 c) := by
  unfold Pipeline.scopedRest restOf2
  exact BI.bigSep_erase (by decide)

/-- The invariant before position `n`: before the first point every scoped buffer at anything; afterwards the scratch at
    what the point before left, the others at anything; the generator register at some state throughout. -/
def PhiS (c : Dev nD) : (n : ℕ) → n ≤ cfg2.N → sProp 𝕄
  | 0, _ => Pipeline.ΦA spec2 c
  | n + 1, hn => iprop(owns (c : Thread nD τ) scM fullShare (scAt V c ⟨n, hn⟩) ∗ restOf2 c ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(owns (c : Thread nD τ) scM fullShare (scAt V c ⟨n, hn⟩) ∗ restOf2 c ∗ (∃ r, prngReg c r)) := rfl
theorem PhiS_pos (c : Dev nD) (n : ℕ) (h : n ≤ cfg2.N) (hz : n ≠ 0) :
    PhiS V c n h = iprop(owns (c : Thread nD τ) scM fullShare (scAt V c ⟨n - 1, by omega⟩) ∗ restOf2 c ∗ (∃ r, prngReg c r)) := by
  cases n with
  | zero => exact absurd rfl hz
  | succ n => rfl

/-- The proof data of the third call on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outOf (scAt V c t) (iblk2 V c 2 t)
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outOf (scAt V c t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

theorem fetched2_0 (c : Dev nD) (t : Fin cfg2.N) (d) : (dat2 V c).fetched 0 t d = iblk2 V c 0 t := by
  unfold Dat.fetched Dat.blockOf iblk2; rw [A_eq2]; try rfl
theorem fetched2_1 (c : Dev nD) (t : Fin cfg2.N) (d) : (dat2 V c).fetched 1 t d = iblk2 V c 1 t := by
  unfold Dat.fetched Dat.blockOf iblk2; rw [A_eq2]; try rfl

/-- An input window not fetched at a point shows there the block it showed at the point before: the gated block, -/
theorem iblk2_prev0 (c : Dev nD) (t : Fin cfg2.N) (hf : (cfg2.win 0).fetch t = false) :
    (iblk2 V c 0 ⟨t.val - 1, Nat.lt_of_le_of_lt (Nat.sub_le _ _) t.isLt⟩ : Vec F S256x5632 .f32) = (iblk2 V c 0 t : Vec F S256x5632 .f32) := by
  obtain ⟨ht, hix⟩ := (cfg2.win 0).index_eq_of_fetch rfl t hf
  have h := (dat2 V c).fetched_congr 0 hix.symm rfl (iblk2 V c 0 t : Vec F S256x5632 .f32)
  rw [fetched2_0, fetched2_0] at h
  exact h

/-- and the weight vector. -/
theorem iblk2_prev1 (c : Dev nD) (t : Fin cfg2.N) (hf : (cfg2.win 1).fetch t = false) :
    (iblk2 V c 1 ⟨t.val - 1, Nat.lt_of_le_of_lt (Nat.sub_le _ _) t.isLt⟩ : Vec F S5632 .f32) = (iblk2 V c 1 t : Vec F S5632 .f32) := by
  obtain ⟨ht, hix⟩ := (cfg2.win 1).index_eq_of_fetch rfl t hf
  have h := (dat2 V c).fetched_congr 1 hix.symm rfl (iblk2 V c 1 t : Vec F S5632 .f32)
  rw [fetched2_1, fetched2_1] at h
  exact h

/-- At a point that is not a first column tile the scratch's contents are the previous point's. -/
theorem scAt_prev (c : Dev nD) (t : Fin cfg2.N) (h : ¬ t.val % 8 = 0) :
    scAt V c ⟨t.val - 1, Nat.lt_of_le_of_lt (Nat.sub_le _ _) t.isLt⟩ = scAt V c t := by
  have hf0 : (cfg2.win 0).fetch t = false := by
    rw [Bool.eq_false_iff]; exact fun e => h ((fetch2_0 t).mp e)
  have hf1 : (cfg2.win 1).fetch t = false := by
    rw [Bool.eq_false_iff]; exact fun e => h (by have := (fetch2_1 t).mp e; omega)
  unfold scAt
  rw [iblk2_prev0 V c t hf0, iblk2_prev1 V c t hf1]

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 2000000 in
/-- The body at any point. At a first column tile the scratch comes in at anything and goes out at this point's
    contents; elsewhere it comes in at the previous point's contents, which are this point's, and is only read. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = PhiS V c (t.val + 1) t.isLt from rfl, PhiS_succ,
    after2_0, after2_1, after2_2, after2_3, PhiS_castSucc]
  by_cases h0 : t.val % 8 = 0
  · by_cases hz : t.val = 0
    · rw [PhiS_zero V c _ _ hz]; unfold Pipeline.ΦA; rw [scopedRest2_split]
      iintro ⟨⟨⟨⟨%fs, HS⟩, HR⟩, Hg⟩, Ho, ⟨%d0, H0⟩, ⟨%d1, H1⟩, ⟨%d2, H2⟩, ⟨%d3, H3⟩⟩
      iapply (sound_kernel2A c Set.univ _ _ _ _ _ _ _ _ _ _ _ ((hcond2 t).mpr h0) (iblk2 V c 0 t) (iblk2 V c 1 t) (iblk2 V c 2 t) _)
      isplitl [H0]; · iexact H0
      isplitl [H1]; · iexact H1
      isplitl [H2]; · iexact H2
      isplitl [H3]; · iexists _; iexact H3
      isplitl [HS]
      · iexists fs; rw [owns_whole]; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [PhiS_pos V c _ _ hz]
      iintro ⟨⟨HS, HR, Hg⟩, Ho, ⟨%d0, H0⟩, ⟨%d1, H1⟩, ⟨%d2, H2⟩, ⟨%d3, H3⟩⟩
      iapply (sound_kernel2A c Set.univ _ _ _ _ _ _ _ _ _ _ _ ((hcond2 t).mpr h0) (iblk2 V c 0 t) (iblk2 V c 1 t) (iblk2 V c 2 t) _)
      isplitl [H0]; · iexact H0
      isplitl [H1]; · iexact H1
      isplitl [H2]; · iexact H2
      isplitl [H3]; · iexists _; iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
  · have hz : t.val ≠ 0 := fun e => h0 (by rw [e])
    rw [PhiS_pos V c _ _ hz, scAt_prev V c t h0]
    iintro ⟨⟨HS, HR, Hg⟩, Ho, ⟨%d0, H0⟩, ⟨%d1, H1⟩, ⟨%d2, H2⟩, ⟨%d3, H3⟩⟩
    iapply (sound_kernel2B c Set.univ _ _ _ _ _ _ _ _ _ _ _ (fun hc => h0 ((hcond2 t).mp hc)) (iblk2 V c 0 t) (iblk2 V c 1 t) (iblk2 V c 2 t) (scAt V c t) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsRun.Run.lean ====
/-
  The whole program as a chain of segments: two host stretches around three kernel calls. Between two segments the
  unscoped buffers hold known contents: the launch memory, then each host stretch applied, then each call's output array
  at what its write-backs leave (every other buffer as the call found it). The second call reads one array through
  two windows; at its entry that array is dealt to them in halves and at its exit the halves rejoin, unchanged.
-/
import proofs.«143260_j32478542693202_2_alg».proof.Proof.Gen.Kernel.Launch
import proofs.«143260_j32478542693202_2_alg».proof.Proof.Gen.Kernel.Skeleton
import proofs.«143260_j32478542693202_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«143260_j32478542693202_2_alg».proof.Proof.Gen.Kernel.Regions
import proofs.«143260_j32478542693202_2_alg».proof.Proof.BitsRun.Region0
import proofs.«143260_j32478542693202_2_alg».proof.Proof.BitsRun.Region1
import proofs.«143260_j32478542693202_2_alg».proof.Proof.BitsRun.Region2
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
/-- After the first host stretch (the first call's entry). -/
abbrev B1 : Dev nD → Valuation τ sig (Elt F) := fun c => StableHlo.after hostOps0 (B0 m ρ c)
abbrev U1 : (c : Dev nD) → (b : Ref sig .tc) → Buf (Elt F) ((c : Thread nD τ).loc b) := fun c b => B1 m ρ c b
/-- After the first call: its arrays at what the pipeline leaves. -/
def B2 (c : Dev nD) : Valuation τ sig (Elt F) :=
  Pipeline.withArrays spec0 c (B1 m ρ c) fun w => (dat0 (U1 m ρ) c).arrAt w cfg0.N
theorem B2_arr (c : Dev nD) (w : Fin cfg0.W) :
    B2 m ρ c (Proc.devRef .tc (Pipeline.arrRef spec0 w)) = (dat0 (U1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev U2 : (c : Dev nD) → (b : Ref sig .tc) → Buf (Elt F) ((c : Thread nD τ).loc b) := fun c b => B2 m ρ c b
theorem hF0 (c : Dev nD) (w : Fin cfg0.W) : (dat0 (U1 m ρ) c).arrAt w cfg0.N = U2 m ρ c (Pipeline.arrRef spec0 w) :=
  (B2_arr m ρ c w).symm
theorem hrest0 (c : Dev nD) : ∀ b, b ∉ Finset.univ.image (Pipeline.arrRef spec0) → U2 m ρ c b = U1 m ρ c b :=
  fun b hb => B2_of_ne m ρ c b fun w e => hb (Finset.mem_image.mpr ⟨w, Finset.mem_univ _, e⟩)

/-- After the second call: the gated matrix at what the pipeline leaves, every other buffer as the call found it
    (its three input windows read two arrays and change neither). -/
def B3 (c : Dev nD) : Valuation τ sig (Elt F) :=
  Function.update (B2 m ρ c) (Proc.devRef .tc main_v4) ((dat1 (U2 m ρ) c).arrAt 3 cfg1.N)
abbrev U3 : (c : Dev nD) → (b : Ref sig .tc) → Buf (Elt F) ((c : Thread nD τ).loc b) := fun c b => B3 m ρ c b
theorem B3_v4 (c : Dev nD) : U3 m ρ c main_v4 = (dat1 (U2 m ρ) c).arrAt 3 cfg1.N := by
  unfold U3 B3; exact Function.update_self _ _ _
theorem B3_of_ne (c : Dev nD) (b : Ref sig .tc) (hb : b ≠ main_v4) : U3 m ρ c b = U2 m ρ c b := by
  unfold U3 B3
  exact Function.update_of_ne (StableHlo.devRef_ne_of_ne hb : (Proc.devRef .tc b : DevRef τ sig) ≠ Proc.devRef .tc main_v4) _ _

/-- After the third call. -/
def B4 (c : Dev nD) : Valuation τ sig (Elt F) :=
  Pipeline.withArrays spec2 c (B3 m ρ c) fun w => (dat2 (U3 m ρ) c).arrAt w cfg2.N
theorem B4_arr (c : Dev nD) (w : Fin cfg2.W) :
    B4 m ρ c (Proc.devRef .tc (Pipeline.arrRef spec2 w)) = (dat2 (U3 m ρ) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 m ρ c (Proc.devRef .tc b) = B3 m ρ c (Proc.devRef .tc b) := by
  unfold B4; exact Pipeline.withArrays_of_ne spec2 c _ _ b hb
abbrev U4 : (c : Dev nD) → (b : Ref sig .tc) → Buf (Elt F) ((c : Thread nD τ).loc b) := fun c b => B4 m ρ c b
theorem hF2 (c : Dev nD) (w : Fin cfg2.W) : (dat2 (U3 m ρ) c).arrAt w cfg2.N = U4 m ρ c (Pipeline.arrRef spec2 w) :=
  (B4_arr m ρ c w).symm
theorem hrest2 (c : Dev nD) : ∀ b, b ∉ Finset.univ.image (Pipeline.arrRef spec2) → U4 m ρ c b = U3 m ρ c b :=
  fun b hb => B4_of_ne m ρ c b fun w e => hb (Finset.mem_image.mpr ⟨w, Finset.mem_univ _, e⟩)

/-- After the last host stretch: the program's end. -/
abbrev B5 : Dev nD → Valuation τ sig (Elt F) := fun c => StableHlo.after hostOps3 (B4 m ρ c)

/-! ## The second call's arrays, in and out of the unscoped buffers -/

section Shared

variable (V : (c : Dev nD) → (b : Ref sig .tc) → Buf (Elt F) ((c : Thread nD τ).loc b))

/-- The three distinct buffers behind the second call's four windows. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v3) ↦{fullShare} W main_v3) ∗ (((c : Thread nD τ).loc main_v1) ↦{fullShare} W main_v1)
          ∗ (((c : Thread nD τ).loc main_v4) ↦{fullShare} W main_v4)) := by
  unfold Pipeline.arrBufs
  rw [show Finset.univ.image (Pipeline.arrRef spec1) = insert main_v3 (insert main_v1 {main_v4}) from by decide,
    BI.bigSep_insert (by decide), BI.bigSep_insert (by decide), BI.bigSep_singleton]
  rfl

/-- The second call's windowed arrays: the activations' whole, the weights' in two halves, the output's whole. -/
theorem arrays1_eq (c : Dev nD) (Fw : (w : Fin cfg1.W) → Buf (Elt F) ((cfg1.win w).arr.view.loc (c.tc : Thread nD τ))) :
    ((dat1 V c).arrays Fw : sProp 𝕄)
      = iprop((((c : Thread nD τ).loc main_v3) ↦{fullShare} Fw 0) ∗ (((c : Thread nD τ).loc main_v1) ↦{fullShare.left} Fw 1)
          ∗ (((c : Thread nD τ).loc main_v1) ↦{fullShare.right} Fw 2) ∗ (((c : Thread nD τ).loc main_v4) ↦{fullShare} Fw 3)) := by
  unfold Dat.arrays
  rw [bigSep_W1]
  rw [(arr_whole1 0).set_eq_univ]
  try rw [(arr_whole1 1).set_eq_univ]
  try rw [(arr_whole1 2).set_eq_univ]
  try rw [(arr_whole1 3).set_eq_univ]
  rfl

end Shared

section Shared2

variable (V : (c : Dev nD) → (b : Ref sig .tc) → Buf (Elt F) ((c : Thread nD τ).loc b))

/-- A core's unscoped buffers are the buffers behind the second call's arrays and the rest. -/
theorem split1 (c : Dev nD) (W : (b : Ref sig .tc) → Buf (Elt F) ((c : Thread nD τ).loc b)) :
    (unscopedBufs c W : sProp 𝕄)
      = iprop((Pipeline.arrBufs (Ix := Unit) (Name := ℕ) (U := UR sig nD τ) (Lvl := ℕ) spec1 c W : sProp 𝕄) ∗ Pipeline.unscopedRest spec1 c W) :=
  Pipeline.unscopedBufs_split₀ cfgs (1 : Fin 3) winFacts₀1.arr_unscoped c W

/-- ENTRY of the second call: the unscoped buffers are its windowed arrays — the weights' array dealt in two halves —
    and the rest. -/
theorem entry1 (c : Dev nD) :
    (unscopedBufs c (V c) : sProp 𝕄)
      ⊢ iprop((dat1 V c).arrays ((dat1 V c).arrAt · 0) ∗ Pipeline.unscopedRest spec1 c (V c)) := by
  rw [split1 c (V c), arrBufs1_eq, arrays1_eq]
  iintro ⟨⟨H3, H1, H4⟩, Hrest⟩
  ihave H1' := (pointsTo_share (PosShare.mem_left_op_right fullShare)).1 $$ H1
  icases H1' with ⟨H1l, H1r⟩
  isplitr [Hrest]
  swap; · iexact Hrest
  isplitl [H3]; · iexact H3
  isplitl [H1l]; · iexact H1l
  isplitl [H1r]; · iexact H1r
  iexact H4

/-- EXIT of the second call: the halves rejoin (the input arrays are as found), the output array is what the
    pipeline leaves, and with the rest they are the unscoped buffers at any valuation that says so. -/
theorem exit1 (c : Dev nD) (W' : (b : Ref sig .tc) → Buf (Elt F) ((c : Thread nD τ).loc b))
    (h4 : W' main_v4 = (dat1 V c).arrAt 3 cfg1.N) (hrest : ∀ b, b ≠ main_v4 → W' b = V c b) :
    iprop((dat1 V c).arrays ((dat1 V c).arrAt · cfg1.N) ∗ Pipeline.unscopedRest spec1 c (V c))
      ⊢ (unscopedBufs c W' : sProp 𝕄) := by
  have hr : (Pipeline.unscopedRest (Ix := Unit) (Name := ℕ) (U := UR sig nD τ) (Lvl := ℕ) spec1 c W' : sProp 𝕄)
      = Pipeline.unscopedRest spec1 c (V c) := by
    unfold Pipeline.unscopedRest
    exact bigSep_congr fun b hb => by
      rw [hrest b (fun e => (Finset.mem_sdiff.mp hb).2 (Finset.mem_image.mpr ⟨3, Finset.mem_univ _, e.symm⟩))]
  rw [split1 c W', arrBufs1_eq, arrays1_eq, hr,
    h4, hrest main_v3 (by decide), hrest main_v1 (by decide)]
  beta_reduce
  rw [(dat1 V c).arrAt_in 0 rfl, (dat1 V c).arrAt_in 1 rfl, (dat1 V c).arrAt_in 2 rfl]
  iintro ⟨⟨H3, H1l, H1r, H4⟩, Hrest⟩
  isplitr [Hrest]
  swap; · iexact Hrest
  isplitl [H3]; · iexact H3
  isplitl [H1l H1r]
  · iapply (pointsTo_share (PosShare.mem_left_op_right fullShare)).2
    isplitl [H1l]; · iexact H1l
    iexact H1r
  iexact H4

end Shared2

end Cert.Kernel.Hand

end
-- ==== Proof.BitsRun.ArgsKept.lean ====
/-
  The four argument arrays end as launched. No host operation writes one; the first two calls do not touch them; the
  third reads the normalization weights through an input window, which is never written back. So the contents of an
  argument's buffer at the program's end walk back, boundary by boundary, to the launch memory.
-/
import proofs.«143260_j32478542693202_2_alg».proof.Proof.BitsRun.Run

set_option maxRecDepth 16384

noncomputable section

namespace Cert.Kernel.Hand

open Idealize.ShloMosaic Idealize.ShloMosaic.TcCoe Idealize.SL.Sem
open Idealize.ShloMosaic.Pipeline (Dat)
open Cert.Kernel Cert.Kernel.Gen

variable {F : FTy → Type} [FloatOps F]
variable (m : (ℓ : Loc nD τ sig) → Buf (Elt F) ℓ) (ρ : Dev nD → PrngReg)

/-- The activations: read only by the first host operation. -/
theorem B5_arg0 (c : Dev nD) : B5 (F := F) m ρ c (Proc.devRef .tc main_arg0) = m ((c : Thread nD τ).loc main_arg0) :=
  calc B5 (F := F) m ρ c (Proc.devRef .tc main_arg0)
    _ = B4 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = B3 m ρ c (Proc.devRef .tc main_arg0) := B4_of_ne m ρ c main_arg0 (by decide)
    _ = B2 m ρ c (Proc.devRef .tc main_arg0) := B3_of_ne m ρ c main_arg0 (by decide)
    _ = B1 m ρ c (Proc.devRef .tc main_arg0) := B2_of_ne m ρ c main_arg0 (by decide)
    _ = B0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = m ((c : Thread nD τ).loc main_arg0) := rfl

/-- The first weight matrix: read only by the second host operation. -/
theorem B5_arg1 (c : Dev nD) : B5 (F := F) m ρ c (Proc.devRef .tc main_arg1) = m ((c : Thread nD τ).loc main_arg1) :=
  calc B5 (F := F) m ρ c (Proc.devRef .tc main_arg1)
    _ = B4 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = B3 m ρ c (Proc.devRef .tc main_arg1) := B4_of_ne m ρ c main_arg1 (by decide)
    _ = B2 m ρ c (Proc.devRef .tc main_arg1) := B3_of_ne m ρ c main_arg1 (by decide)
    _ = B1 m ρ c (Proc.devRef .tc main_arg1) := B2_of_ne m ρ c main_arg1 (by decide)
    _ = B0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = m ((c : Thread nD τ).loc main_arg1) := rfl

/-- The second weight matrix: read only by the third host operation. -/
theorem B5_arg2 (c : Dev nD) : B5 (F := F) m ρ c (Proc.devRef .tc main_arg2) = m ((c : Thread nD τ).loc main_arg2) :=
  calc B5 (F := F) m ρ c (Proc.devRef .tc main_arg2)
    _ = B4 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = B3 m ρ c (Proc.devRef .tc main_arg2) := B4_of_ne m ρ c main_arg2 (by decide)
    _ = B2 m ρ c (Proc.devRef .tc main_arg2) := B3_of_ne m ρ c main_arg2 (by decide)
    _ = B1 m ρ c (Proc.devRef .tc main_arg2) := B2_of_ne m ρ c main_arg2 (by decide)
    _ = B0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = m ((c : Thread nD τ).loc main_arg2) := rfl

/-- The normalization weights: the third call's second window shows them and never writes them back. -/
theorem B5_arg3 (c : Dev nD) : B5 (F := F) m ρ c (Proc.devRef .tc main_arg3) = m ((c : Thread nD τ).loc main_arg3) :=
  calc B5 (F := F) m ρ c (Proc.devRef .tc main_arg3)
    _ = B4 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = B3 m ρ c (Proc.devRef .tc main_arg3) :=
          (B4_arr m ρ c 1).trans (((dat2 (U3 m ρ) c).arrAt_in 1 rfl _).trans (A_eq2 (U3 m ρ) c 1))
    _ = B2 m ρ c (Proc.devRef .tc main_arg3) := B3_of_ne m ρ c main_arg3 (by decide)
    _ = B1 m ρ c (Proc.devRef .tc main_arg3) := B2_of_ne m ρ c main_arg3 (by decide)
    _ = B0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = m ((c : Thread nD τ).loc main_arg3) := rfl

end Cert.Kernel.Hand

end
-- ==== Proof.BitsRun.RunMain.lean ====
/-
  The launch: the program's five segments run from the launch memory to the return, and every weakly fair execution
  ends with each unscoped buffer at the last boundary's contents.
-/
import proofs.«143260_j32478542693202_2_alg».proof.Proof.Gen.Kernel.Launch
import proofs.«143260_j32478542693202_2_alg».proof.Proof.Gen.Kernel.Skeleton
import proofs.«143260_j32478542693202_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«143260_j32478542693202_2_alg».proof.Proof.BitsRun.Run
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U2 m ρ) c
  | ⟨2, _⟩ => fun c => dat2 (U3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The first call over the thread state: entered from every unscoped buffer at `B1`, left at `B2`. Its arrays are split out of the unscoped buffers at entry and put back at the exit contents; the generator register goes into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from `B2`, left at `B3`. The weights' array, which two of its windows read, is dealt to them in halves at entry and rejoined at exit (`entry1`, `exit1`). -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit : (unscopedBufs c (U2 m ρ c) : sProp 𝕄)
        ⊢ iprop((pdats m ρ 1 c).arrays ((pdats m ρ 1 c).arrAt · 0) ∗ Pipeline.unscopedRest spec1 c (U2 m ρ c)) := entry1 (U2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (U2 m ρ c))
        ⊢ (unscopedBufs c (U3 m ρ c) : sProp 𝕄) := exit1 (U2 m ρ) c (U3 m ρ c) (B3_v4 m ρ c) (fun b hb => B3_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third call: entered from `B3`, left at `B4`. Its invariant names the scratch's contents after the first point; at the exit they are forgotten. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m ρ) c).loose
  hwaits := Pipeline.hwaits_of_owed_zero _ _ _ _ L lv 2 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec2 c (U3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = PhiS (U3 m ρ) c cfg2.N (le_refl _) from rfl,
      PhiS_pos (U3 m ρ) c _ _ (by rw [show cfg2.N = 256 from N_2]; decide),
      show (Pipeline.scopedRest (Ix := Unit) (Name := ℕ) (U := UR sig nD τ) (Lvl := ℕ) (Val := Elt F) (Pipeline.pin (pcfgs (F := F)) adm 2).spec c : sProp 𝕄)
        = iprop((∃ f : Buf (Elt F) ((c : Thread nD τ).loc cc2_scratch0), ((c : Thread nD τ).loc cc2_scratch0) ↦{fullShare} f) ∗ restOf2 c)
        from scopedRest2_split c, owns_whole]
    iintro ⟨HS, HR, Hp⟩
    isplitl [Hp]; · iexact Hp
    isplitr; · iempintro
    isplitl [HS]; · iexists _; iexact HS
    iexact HR
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U3 m ρ c) (U4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's five segments in order. -/
abbrev segs : List (Pipeline.Seg (pcfgs (F := F)) adm (pdats m ρ) () defs₀ 𝒱₀ L lv) :=
  [ .host (hseg hostOps0 hostOps0_sub hostOps0_fresh (B0 m ρ)),
    .region (reg0 m ρ),
    .region (reg1 m ρ),
    .region (reg2 m ρ),
    .host (hseg hostOps3 hostOps3_sub hostOps3_fresh (B4 m ρ)) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and the final memory holds every unscoped buffer at the last boundary's contents `B5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c))
    (Tₙ := fun c => iprop(StableHlo.held (c : Thread nD τ) (Pipeline.ucRefs τ sig) (B5 m ρ c) ∗ ∃ r, prngReg c r))
    (hch := ⟨fun _ => .rfl, fun _ => .rfl, fun _ => .rfl, fun _ => .rfl, fun _ => .rfl, fun c => by
      show iprop(StableHlo.held (c : Thread nD τ) (Pipeline.ucRefs τ sig) (B5 m ρ c) ∗ R c)
        ⊢ iprop(iprop(StableHlo.held (c : Thread nD τ) (Pipeline.ucRefs τ sig) (B5 m ρ c) ∗ ∃ r, prngReg c r)
            ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c => h c)

end Cert.Kernel.Hand

end
-- ==== Proof.IdealRun.Region0.lean ====
/-
  The first kernel call: per-token fake quantization of the activations, sixteen blocks of 512 rows.
  What the body leaves in the output block is a pure function of the input block; the proof data say so at every
  grid point, for any contents V the buffers hold when the call is entered.
-/
import proofs.«143260_j32478542693202_2_alg».proof.Proof.Gen.KernelIdeal.Launch
import proofs.«143260_j32478542693202_2_alg».proof.Proof.Gen.KernelIdeal.Skeleton
import proofs.«143260_j32478542693202_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds block `t` of the array at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 512 × 2048 rectangle: the body's one load and one store. -/
abbrev whole0 : Rect S512x2048 := Rect.unit (s := S512x2048) ![0, 0] S512x2048.size inb_S512x2048_S512x2048_0_0

/-- The output block after the body: the quantized rows of the input block, stored through the whole rectangle. -/
def out0 (x0 : Vec F S512x2048 .f32) : Vec F S512x2048 .bf16 :=
  View.canon [⟨whole0, k0_pay1 (View.ld x0 whole0)⟩]

theorem cover0 (p0 : Vec F S512x2048 .bf16) (y : S512x2048.Idx) :
    ∃ pc ∈ ([⟨whole0, p0⟩] : List (View.Piece (Elt F) S512x2048 .bf16)), y ∈ pc.1.set :=
  View.cover_of_tiled [⟨whole0, p0⟩] S512x2048.size (by rfl) y

set_option maxHeartbeats 1000000 in
/-- The body on whole buffers: the input's kept, the output's left at `out0` of the input's. -/
theorem sound_kernel0 (c : Dev nD) (E : Set ℕ) (i : grid0.Coords) (arg1 : Memref sig .tc .vmem S512x2048 .f32) (harg1 : arg1.IsWhole)
    (arg2 : Memref sig .tc .vmem S512x2048 .bf16) (harg2 : arg2.IsWhole)
    (x0 : Vec F S512x2048 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0 x0)) -∗ K ⟨⟩))
      ⊢ wp frame (wpE (defs₀ (F := F)) Variants.none c none) E (cc0__quant_kernel i arg1 harg1 arg2 harg2) K := by
  simp only [cc0__quant_kernel_eq_skeleton]; unfold cc0__quant_kernel_skel
  unfold owns
  iintro ⟨⟨%f0, %hf0, H0⟩, ⟨%d1, %f1, %hf1, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0 _)

/-- The proof data of the first call on core `c`: the arrays as the call finds them; after the body at point `t` the
    input's buffer still at block `t` and the output's at the quantized block; the invariant is the buffers the call
    does not stage and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealRun.Region1.lean ====
/-
  The second kernel call: the quantized activations times both halves of the first weight matrix, gated.
  A grid of 4 × 22 points; point (i, n) reads rows 2048·i … of the activations and weight rows 256·n … and
  5632 + 256·n …, and writes the 2048 × 256 tile (i, n) of the gated matrix.
-/
import proofs.«143260_j32478542693202_2_alg».proof.Proof.Gen.KernelIdeal.Launch
import proofs.«143260_j32478542693202_2_alg».proof.Proof.Gen.KernelIdeal.Skeleton
import proofs.«143260_j32478542693202_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds block `t` of its array at every point, fetched there or not: where it is
    not fetched its block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles of the three block shapes. -/
abbrev wholeX : Rect S2048x2048 := Rect.unit (s := S2048x2048) ![0, 0] S2048x2048.size inb_S2048x2048_S2048x2048_0_0
abbrev wholeW : Rect S256x2048 := Rect.unit (s := S256x2048) ![0, 0] S256x2048.size inb_S256x2048_S256x2048_0_0
abbrev wholeG : Rect S2048x256 := Rect.unit (s := S2048x256) ![0, 0] S2048x256.size inb_S2048x256_S2048x256_0_0

/-- The output tile after the body: the gated products of the activation block with the two weight blocks. -/
def out1 (x0 : Vec F S2048x2048 .bf16) (x1 x2 : Vec F S256x2048 .bf16) : Vec F S2048x256 .f32 :=
  View.canon [⟨wholeG, k1_pay1 (View.ld x0 wholeX) (View.ld x1 wholeW) (View.ld x2 wholeW)⟩]

theorem cover1 (p0 : Vec F S2048x256 .f32) (y : S2048x256.Idx) :
    ∃ pc ∈ ([⟨wholeG, p0⟩] : List (View.Piece (Elt F) S2048x256 .f32)), y ∈ pc.1.set :=
  View.cover_of_tiled [⟨wholeG, p0⟩] S2048x256.size (by rfl) y

set_option maxHeartbeats 1000000 in
/-- The body on whole buffers: the inputs' kept, the output's left at `out1` of the inputs'. -/
theorem sound_kernel1 (c : Dev nD) (E : Set ℕ) (i : grid1.Coords) (arg2 : Memref sig .tc .vmem S2048x2048 .bf16) (harg2 : arg2.IsWhole)
    (arg3 : Memref sig .tc .vmem S256x2048 .bf16) (harg3 : arg3.IsWhole) (arg4 : Memref sig .tc .vmem S256x2048 .bf16) (harg4 : arg4.IsWhole)
    (arg5 : Memref sig .tc .vmem S2048x256 .f32) (harg5 : arg5.IsWhole)
    (x0 : Vec F S2048x2048 .bf16) (x1 x2 : Vec F S256x2048 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1 x0 x1 x2)) -∗ K ⟨⟩))
      ⊢ wp frame (wpE (defs₀ (F := F)) Variants.none c none) E (cc1__mm1_gate_kernel i arg2 harg2 arg3 harg3 arg4 harg4 arg5 harg5) K := by
  simp only [cc1__mm1_gate_kernel_eq_skeleton]; unfold cc1__mm1_gate_kernel_skel
  unfold owns
  iintro ⟨⟨%f0, %hf0, H0⟩, ⟨%f1, %hf1, H1⟩, ⟨%f2, %hf2, H2⟩, ⟨%d3, %f3, %hf3, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The proof data of the second call on core `c`. The two weight windows look at ONE array, each holding half of
    it; the activations' and the output's arrays are held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q w := match w with
    | ⟨0, _⟩ => fullShare
    | ⟨1, _⟩ => fullShare.left
    | ⟨2, _⟩ => fullShare.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.Region2Body.lean ====
/-
  The third kernel call: RMS-normalize and re-quantize a block of 256 gated rows ONCE, at the first of the eight
  column tiles of its row tile, keep the result in a scratch block, and at every column tile multiply the kept block
  against 256 rows of the second weight matrix. A grid of 32 × 8 points.
-/
import proofs.«143260_j32478542693202_2_alg».proof.Proof.Gen.KernelIdeal.Launch
import proofs.«143260_j32478542693202_2_alg».proof.Proof.Gen.KernelIdeal.Skeleton
import proofs.«143260_j32478542693202_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's branch: taken exactly when the column-tile coordinate is zero. -/
abbrev cond2 (i : grid2.Coords) : Prop := (Scalar.cmpi .ne (Scalar.extui (Scalar.cmpi .eq (BitVec.ofNat 32 (i 1).val) 0#32)) 0#32) = 1#1
/-- It is taken at the points ≡ 0 (mod 8) — decided over the grid. -/
theorem hcond2 : ∀ t : Fin cfg2.N, cond2 (grid2.coords t) ↔ t.val % 8 = 0 :=
  (by decide +kernel : ∀ t : Fin grid2.N, cond2 (grid2.coords t) ↔ t.val % 8 = 0)

/-- The whole rectangles of the block shapes. -/
abbrev wholeS : Rect S256x5632 := Rect.unit (s := S256x5632) ![0, 0] S256x5632.size inb_S256x5632_S256x5632_0_0
abbrev wholeN : Rect S5632 := Rect.unit (s := S5632) ![0] S5632.size inb_S5632_S5632_0
abbrev wholeO : Rect S256x256 := Rect.unit (s := S256x256) ![0, 0] S256x256.size inb_S256x256_S256x256_0_0

/-- The scratch block after a storing point: the normalized, weighted, re-quantized rows of the gated block. -/
def scOf (x0 : Vec F S256x5632 .f32) (x1 : Vec F S5632 .f32) : Vec F S256x5632 .bf16 :=
  View.canon [⟨wholeS, k2_pay1 (View.ld x0 wholeS) (View.ld x1 wholeN)⟩]

/-- The output tile after the body: the kept block times the weight block. -/
def outOf (xs x2 : Vec F S256x5632 .bf16) : Vec F S256x256 .f32 :=
  View.canon [⟨wholeO, k2_pay2 (View.ld xs wholeS) (View.ld x2 wholeS)⟩]

theorem coverS (p0 : Vec F S256x5632 .bf16) (y : S256x5632.Idx) :
    ∃ pc ∈ ([⟨wholeS, p0⟩] : List (View.Piece (Elt F) S256x5632 .bf16)), y ∈ pc.1.set :=
  View.cover_of_tiled [⟨wholeS, p0⟩] S256x5632.size (by rfl) y

theorem coverO (p0 : Vec F S256x256 .f32) (y : S256x256.Idx) :
    ∃ pc ∈ ([⟨wholeO, p0⟩] : List (View.Piece (Elt F) S256x256 .f32)), y ∈ pc.1.set :=
  View.cover_of_tiled [⟨wholeO, p0⟩] S256x256.size (by rfl) y

set_option maxHeartbeats 2000000 in
/-- The body at a STORING point, on whole buffers: the inputs' kept, the scratch left at `scOf` of the gated block and
    the weights, the output's at `outOf` of that and the weight block. -/
theorem sound_kernel2A (c : Dev nD) (E : Set ℕ) (i : grid2.Coords) (arg2 : Memref sig .tc .vmem S256x5632 .f32) (harg2 : arg2.IsWhole)
    (arg3 : Memref sig .tc .vmem S5632 .f32) (harg3 : arg3.IsWhole) (arg4 : Memref sig .tc .vmem S256x5632 .bf16) (harg4 : arg4.IsWhole)
    (arg5 : Memref sig .tc .vmem S256x256 .f32) (harg5 : arg5.IsWhole) (arg6 : Memref sig .tc .vmem S256x5632 .bf16) (harg6 : arg6.IsWhole)
    (hc : cond2 i)
    (x0 : Vec F S256x5632 .f32) (x1 : Vec F S5632 .f32) (x2 : Vec F S256x5632 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outOf (scOf x0 x1) x2) ∗ owns (c : Thread nD τ) arg6 fullShare (scOf x0 x1)) -∗ K ⟨⟩))
      ⊢ wp frame (wpE (defs₀ (F := F)) Variants.none c none) E (cc2__mm2_normquant_kernel i arg2 harg2 arg3 harg3 arg4 harg4 arg5 harg5 arg6 harg6) K := by
  simp only [cc2__mm2_normquant_kernel_eq_skeleton]; unfold cc2__mm2_normquant_kernel_skel
  unfold owns
  iintro ⟨⟨%f0, %hf0, H0⟩, ⟨%f1, %hf1, H1⟩, ⟨%f2, %hf2, H2⟩, ⟨%d3, %f3, %hf3, H3⟩, ⟨%d4, %f4, %hf4, H4⟩, Hk⟩
  subst hf0; subst hf1; subst hf2
  sl_exec (disch := exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (coverO _)).trans ?_
    unfold outOf scOf
    rw [View.readCov_eq_canon _ _ _ (fun j => coverS _ _)]
    rfl
  iexists _; isplitr
  swap; · iexact H4
  ipureintro
  exact View.read_writes_eq_canon _ _ _ (coverS _)

set_option maxHeartbeats 2000000 in
/-- The body at a NON-storing point: the scratch is only read. -/
theorem sound_kernel2B (c : Dev nD) (E : Set ℕ) (i : grid2.Coords) (arg2 : Memref sig .tc .vmem S256x5632 .f32) (harg2 : arg2.IsWhole)
    (arg3 : Memref sig .tc .vmem S5632 .f32) (harg3 : arg3.IsWhole) (arg4 : Memref sig .tc .vmem S256x5632 .bf16) (harg4 : arg4.IsWhole)
    (arg5 : Memref sig .tc .vmem S256x256 .f32) (harg5 : arg5.IsWhole) (arg6 : Memref sig .tc .vmem S256x5632 .bf16) (harg6 : arg6.IsWhole)
    (hc : ¬ cond2 i)
    (x0 : Vec F S256x5632 .f32) (x1 : Vec F S5632 .f32) (x2 xs : Vec F S256x5632 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (outOf xs x2) ∗ owns (c : Thread nD τ) arg6 fullShare xs) -∗ K ⟨⟩))
      ⊢ wp frame (wpE (defs₀ (F := F)) Variants.none c none) E (cc2__mm2_normquant_kernel i arg2 harg2 arg3 harg3 arg4 harg4 arg5 harg5 arg6 harg6) K := by
  simp only [cc2__mm2_normquant_kernel_eq_skeleton]; unfold cc2__mm2_normquant_kernel_skel
  unfold owns
  iintro ⟨⟨%f0, %hf0, H0⟩, ⟨%f1, %hf1, H1⟩, ⟨%f2, %hf2, H2⟩, ⟨%d3, %f3, %hf3, H3⟩, ⟨%f4, %hf4, H4⟩, Hk⟩
  subst hf0; subst hf1; subst hf2; subst hf4
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverO _)
  iexists f4; isplitr; · ipureintro; rfl
  iexact H4

end Cert.KernelIdeal.Hand

end
-- ==== Proof.IdealRun.Region2.lean ====
/-
  The third kernel call's proof data. The scratch block is carried between grid points: after ANY point t it holds the
  normalized, re-quantized rows of the gated block of t's row tile — stored at the first column tile, kept at the other
  seven, where the gated block (and the weight vector) the windows show have not moved.
-/
import proofs.«143260_j32478542693202_2_alg».proof.Proof.Gen.KernelIdeal.Launch
import proofs.«143260_j32478542693202_2_alg».proof.Proof.Gen.KernelIdeal.Skeleton
import proofs.«143260_j32478542693202_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«143260_j32478542693202_2_alg».proof.Proof.IdealRun.Region2Body
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The scratch block, as a memref. -/
abbrev scM : Memref sig .tc .vmem S256x5632 .bf16 := Memref.whole cc2_scratch0

/-- What the scratch holds after point `t`. -/
def scAt (c : Dev nD) (t : Fin cfg2.N) : Vec F S256x5632 .bf16 := scOf (iblk2 V c 0 t) (iblk2 V c 1 t)

/-- The scoped buffers the call does not stage, the scratch apart, each at some contents. -/
def restOf2 (c : Dev nD) : sProp 𝕄 :=
  bigSep (((Finset.univ.filter fun b : Ref sig .tc => b.isScoped) \ Finset.univ.image (Pipeline.stageRef spec2)).erase cc2_scratch0)
    fun b => iprop(∃ f : Buf (Elt F) ((c : Thread nD τ).loc b), ((c : Thread nD τ).loc b) ↦{fullShare} f)

theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ restOf2 c) := by
  unfold Pipeline.scopedRest restOf2
  exact BI.bigSep_erase (by decide)

/-- The invariant before position `n`: before the first point every scoped buffer at anything; afterwards the scratch at
    what the point before left, the others at anything; the generator register at some state throughout. -/
def PhiS (c : Dev nD) : (n : ℕ) → n ≤ cfg2.N → sProp 𝕄
  | 0, _ => Pipeline.ΦA spec2 c
  | n + 1, hn => iprop(owns (c : Thread nD τ) scM fullShare (scAt V c ⟨n, hn⟩) ∗ restOf2 c ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(owns (c : Thread nD τ) scM fullShare (scAt V c ⟨n, hn⟩) ∗ restOf2 c ∗ (∃ r, prngReg c r)) := rfl
theorem PhiS_pos (c : Dev nD) (n : ℕ) (h : n ≤ cfg2.N) (hz : n ≠ 0) :
    PhiS V c n h = iprop(owns (c : Thread nD τ) scM fullShare (scAt V c ⟨n - 1, by omega⟩) ∗ restOf2 c ∗ (∃ r, prngReg c r)) := by
  cases n with
  | zero => exact absurd rfl hz
  | succ n => rfl

/-- The proof data of the third call on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outOf (scAt V c t) (iblk2 V c 2 t)
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outOf (scAt V c t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

theorem fetched2_0 (c : Dev nD) (t : Fin cfg2.N) (d) : (dat2 V c).fetched 0 t d = iblk2 V c 0 t := by
  unfold Dat.fetched Dat.blockOf iblk2; rw [A_eq2]; try rfl
theorem fetched2_1 (c : Dev nD) (t : Fin cfg2.N) (d) : (dat2 V c).fetched 1 t d = iblk2 V c 1 t := by
  unfold Dat.fetched Dat.blockOf iblk2; rw [A_eq2]; try rfl

/-- An input window not fetched at a point shows there the block it showed at the point before: the gated block, -/
theorem iblk2_prev0 (c : Dev nD) (t : Fin cfg2.N) (hf : (cfg2.win 0).fetch t = false) :
    (iblk2 V c 0 ⟨t.val - 1, Nat.lt_of_le_of_lt (Nat.sub_le _ _) t.isLt⟩ : Vec F S256x5632 .f32) = (iblk2 V c 0 t : Vec F S256x5632 .f32) := by
  obtain ⟨ht, hix⟩ := (cfg2.win 0).index_eq_of_fetch rfl t hf
  have h := (dat2 V c).fetched_congr 0 hix.symm rfl (iblk2 V c 0 t : Vec F S256x5632 .f32)
  rw [fetched2_0, fetched2_0] at h
  exact h

/-- and the weight vector. -/
theorem iblk2_prev1 (c : Dev nD) (t : Fin cfg2.N) (hf : (cfg2.win 1).fetch t = false) :
    (iblk2 V c 1 ⟨t.val - 1, Nat.lt_of_le_of_lt (Nat.sub_le _ _) t.isLt⟩ : Vec F S5632 .f32) = (iblk2 V c 1 t : Vec F S5632 .f32) := by
  obtain ⟨ht, hix⟩ := (cfg2.win 1).index_eq_of_fetch rfl t hf
  have h := (dat2 V c).fetched_congr 1 hix.symm rfl (iblk2 V c 1 t : Vec F S5632 .f32)
  rw [fetched2_1, fetched2_1] at h
  exact h

/-- At a point that is not a first column tile the scratch's contents are the previous point's. -/
theorem scAt_prev (c : Dev nD) (t : Fin cfg2.N) (h : ¬ t.val % 8 = 0) :
    scAt V c ⟨t.val - 1, Nat.lt_of_le_of_lt (Nat.sub_le _ _) t.isLt⟩ = scAt V c t := by
  have hf0 : (cfg2.win 0).fetch t = false := by
    rw [Bool.eq_false_iff]; exact fun e => h ((fetch2_0 t).mp e)
  have hf1 : (cfg2.win 1).fetch t = false := by
    rw [Bool.eq_false_iff]; exact fun e => h (by have := (fetch2_1 t).mp e; omega)
  unfold scAt
  rw [iblk2_prev0 V c t hf0, iblk2_prev1 V c t hf1]

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 2000000 in
/-- The body at any point. At a first column tile the scratch comes in at anything and goes out at this point's
    contents; elsewhere it comes in at the previous point's contents, which are this point's, and is only read. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = PhiS V c (t.val + 1) t.isLt from rfl, PhiS_succ,
    after2_0, after2_1, after2_2, after2_3, PhiS_castSucc]
  by_cases h0 : t.val % 8 = 0
  · by_cases hz : t.val = 0
    · rw [PhiS_zero V c _ _ hz]; unfold Pipeline.ΦA; rw [scopedRest2_split]
      iintro ⟨⟨⟨⟨%fs, HS⟩, HR⟩, Hg⟩, Ho, ⟨%d0, H0⟩, ⟨%d1, H1⟩, ⟨%d2, H2⟩, ⟨%d3, H3⟩⟩
      iapply (sound_kernel2A c Set.univ _ _ _ _ _ _ _ _ _ _ _ ((hcond2 t).mpr h0) (iblk2 V c 0 t) (iblk2 V c 1 t) (iblk2 V c 2 t) _)
      isplitl [H0]; · iexact H0
      isplitl [H1]; · iexact H1
      isplitl [H2]; · iexact H2
      isplitl [H3]; · iexists _; iexact H3
      isplitl [HS]
      · iexists fs; rw [owns_whole]; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [PhiS_pos V c _ _ hz]
      iintro ⟨⟨HS, HR, Hg⟩, Ho, ⟨%d0, H0⟩, ⟨%d1, H1⟩, ⟨%d2, H2⟩, ⟨%d3, H3⟩⟩
      iapply (sound_kernel2A c Set.univ _ _ _ _ _ _ _ _ _ _ _ ((hcond2 t).mpr h0) (iblk2 V c 0 t) (iblk2 V c 1 t) (iblk2 V c 2 t) _)
      isplitl [H0]; · iexact H0
      isplitl [H1]; · iexact H1
      isplitl [H2]; · iexact H2
      isplitl [H3]; · iexists _; iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
  · have hz : t.val ≠ 0 := fun e => h0 (by rw [e])
    rw [PhiS_pos V c _ _ hz, scAt_prev V c t h0]
    iintro ⟨⟨HS, HR, Hg⟩, Ho, ⟨%d0, H0⟩, ⟨%d1, H1⟩, ⟨%d2, H2⟩, ⟨%d3, H3⟩⟩
    iapply (sound_kernel2B c Set.univ _ _ _ _ _ _ _ _ _ _ _ (fun hc => h0 ((hcond2 t).mp hc)) (iblk2 V c 0 t) (iblk2 V c 1 t) (iblk2 V c 2 t) (scAt V c t) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IdealRun.Run.lean ====
/-
  The whole program as a chain of segments: two host stretches around three kernel calls. Between two segments the
  unscoped buffers hold known contents: the launch memory, then each host stretch applied, then each call's output array
  at what its write-backs leave (every other buffer as the call found it). The second call reads one array through
  two windows; at its entry that array is dealt to them in halves and at its exit the halves rejoin, unchanged.
-/
import proofs.«143260_j32478542693202_2_alg».proof.Proof.Gen.KernelIdeal.Launch
import proofs.«143260_j32478542693202_2_alg».proof.Proof.Gen.KernelIdeal.Skeleton
import proofs.«143260_j32478542693202_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«143260_j32478542693202_2_alg».proof.Proof.Gen.KernelIdeal.Regions
import proofs.«143260_j32478542693202_2_alg».proof.Proof.IdealRun.Region0
import proofs.«143260_j32478542693202_2_alg».proof.Proof.IdealRun.Region1
import proofs.«143260_j32478542693202_2_alg».proof.Proof.IdealRun.Region2
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
/-- After the first host stretch (the first call's entry). -/
abbrev B1 : Dev nD → Valuation τ sig (Elt F) := fun c => StableHlo.after hostOps0 (B0 m ρ c)
abbrev U1 : (c : Dev nD) → (b : Ref sig .tc) → Buf (Elt F) ((c : Thread nD τ).loc b) := fun c b => B1 m ρ c b
/-- After the first call: its arrays at what the pipeline leaves. -/
def B2 (c : Dev nD) : Valuation τ sig (Elt F) :=
  Pipeline.withArrays spec0 c (B1 m ρ c) fun w => (dat0 (U1 m ρ) c).arrAt w cfg0.N
theorem B2_arr (c : Dev nD) (w : Fin cfg0.W) :
    B2 m ρ c (Proc.devRef .tc (Pipeline.arrRef spec0 w)) = (dat0 (U1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev U2 : (c : Dev nD) → (b : Ref sig .tc) → Buf (Elt F) ((c : Thread nD τ).loc b) := fun c b => B2 m ρ c b
theorem hF0 (c : Dev nD) (w : Fin cfg0.W) : (dat0 (U1 m ρ) c).arrAt w cfg0.N = U2 m ρ c (Pipeline.arrRef spec0 w) :=
  (B2_arr m ρ c w).symm
theorem hrest0 (c : Dev nD) : ∀ b, b ∉ Finset.univ.image (Pipeline.arrRef spec0) → U2 m ρ c b = U1 m ρ c b :=
  fun b hb => B2_of_ne m ρ c b fun w e => hb (Finset.mem_image.mpr ⟨w, Finset.mem_univ _, e⟩)

/-- After the second call: the gated matrix at what the pipeline leaves, every other buffer as the call found it
    (its three input windows read two arrays and change neither). -/
def B3 (c : Dev nD) : Valuation τ sig (Elt F) :=
  Function.update (B2 m ρ c) (Proc.devRef .tc main_v4) ((dat1 (U2 m ρ) c).arrAt 3 cfg1.N)
abbrev U3 : (c : Dev nD) → (b : Ref sig .tc) → Buf (Elt F) ((c : Thread nD τ).loc b) := fun c b => B3 m ρ c b
theorem B3_v4 (c : Dev nD) : U3 m ρ c main_v4 = (dat1 (U2 m ρ) c).arrAt 3 cfg1.N := by
  unfold U3 B3; exact Function.update_self _ _ _
theorem B3_of_ne (c : Dev nD) (b : Ref sig .tc) (hb : b ≠ main_v4) : U3 m ρ c b = U2 m ρ c b := by
  unfold U3 B3
  exact Function.update_of_ne (StableHlo.devRef_ne_of_ne hb : (Proc.devRef .tc b : DevRef τ sig) ≠ Proc.devRef .tc main_v4) _ _

/-- After the third call. -/
def B4 (c : Dev nD) : Valuation τ sig (Elt F) :=
  Pipeline.withArrays spec2 c (B3 m ρ c) fun w => (dat2 (U3 m ρ) c).arrAt w cfg2.N
theorem B4_arr (c : Dev nD) (w : Fin cfg2.W) :
    B4 m ρ c (Proc.devRef .tc (Pipeline.arrRef spec2 w)) = (dat2 (U3 m ρ) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 m ρ c (Proc.devRef .tc b) = B3 m ρ c (Proc.devRef .tc b) := by
  unfold B4; exact Pipeline.withArrays_of_ne spec2 c _ _ b hb
abbrev U4 : (c : Dev nD) → (b : Ref sig .tc) → Buf (Elt F) ((c : Thread nD τ).loc b) := fun c b => B4 m ρ c b
theorem hF2 (c : Dev nD) (w : Fin cfg2.W) : (dat2 (U3 m ρ) c).arrAt w cfg2.N = U4 m ρ c (Pipeline.arrRef spec2 w) :=
  (B4_arr m ρ c w).symm
theorem hrest2 (c : Dev nD) : ∀ b, b ∉ Finset.univ.image (Pipeline.arrRef spec2) → U4 m ρ c b = U3 m ρ c b :=
  fun b hb => B4_of_ne m ρ c b fun w e => hb (Finset.mem_image.mpr ⟨w, Finset.mem_univ _, e⟩)

/-- After the last host stretch: the program's end. -/
abbrev B5 : Dev nD → Valuation τ sig (Elt F) := fun c => StableHlo.after hostOps3 (B4 m ρ c)

/-! ## The second call's arrays, in and out of the unscoped buffers -/

section Shared

variable (V : (c : Dev nD) → (b : Ref sig .tc) → Buf (Elt F) ((c : Thread nD τ).loc b))

/-- The three distinct buffers behind the second call's four windows. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v3) ↦{fullShare} W main_v3) ∗ (((c : Thread nD τ).loc main_v1) ↦{fullShare} W main_v1)
          ∗ (((c : Thread nD τ).loc main_v4) ↦{fullShare} W main_v4)) := by
  unfold Pipeline.arrBufs
  rw [show Finset.univ.image (Pipeline.arrRef spec1) = insert main_v3 (insert main_v1 {main_v4}) from by decide,
    BI.bigSep_insert (by decide), BI.bigSep_insert (by decide), BI.bigSep_singleton]
  rfl

/-- The second call's windowed arrays: the activations' whole, the weights' in two halves, the output's whole. -/
theorem arrays1_eq (c : Dev nD) (Fw : (w : Fin cfg1.W) → Buf (Elt F) ((cfg1.win w).arr.view.loc (c.tc : Thread nD τ))) :
    ((dat1 V c).arrays Fw : sProp 𝕄)
      = iprop((((c : Thread nD τ).loc main_v3) ↦{fullShare} Fw 0) ∗ (((c : Thread nD τ).loc main_v1) ↦{fullShare.left} Fw 1)
          ∗ (((c : Thread nD τ).loc main_v1) ↦{fullShare.right} Fw 2) ∗ (((c : Thread nD τ).loc main_v4) ↦{fullShare} Fw 3)) := by
  unfold Dat.arrays
  rw [bigSep_W1]
  rw [(arr_whole1 0).set_eq_univ]
  try rw [(arr_whole1 1).set_eq_univ]
  try rw [(arr_whole1 2).set_eq_univ]
  try rw [(arr_whole1 3).set_eq_univ]
  rfl

end Shared

section Shared2

variable (V : (c : Dev nD) → (b : Ref sig .tc) → Buf (Elt F) ((c : Thread nD τ).loc b))

/-- A core's unscoped buffers are the buffers behind the second call's arrays and the rest. -/
theorem split1 (c : Dev nD) (W : (b : Ref sig .tc) → Buf (Elt F) ((c : Thread nD τ).loc b)) :
    (unscopedBufs c W : sProp 𝕄)
      = iprop((Pipeline.arrBufs (Ix := Unit) (Name := ℕ) (U := UR sig nD τ) (Lvl := ℕ) spec1 c W : sProp 𝕄) ∗ Pipeline.unscopedRest spec1 c W) :=
  Pipeline.unscopedBufs_split₀ cfgs (1 : Fin 3) winFacts₀1.arr_unscoped c W

/-- ENTRY of the second call: the unscoped buffers are its windowed arrays — the weights' array dealt in two halves —
    and the rest. -/
theorem entry1 (c : Dev nD) :
    (unscopedBufs c (V c) : sProp 𝕄)
      ⊢ iprop((dat1 V c).arrays ((dat1 V c).arrAt · 0) ∗ Pipeline.unscopedRest spec1 c (V c)) := by
  rw [split1 c (V c), arrBufs1_eq, arrays1_eq]
  iintro ⟨⟨H3, H1, H4⟩, Hrest⟩
  ihave H1' := (pointsTo_share (PosShare.mem_left_op_right fullShare)).1 $$ H1
  icases H1' with ⟨H1l, H1r⟩
  isplitr [Hrest]
  swap; · iexact Hrest
  isplitl [H3]; · iexact H3
  isplitl [H1l]; · iexact H1l
  isplitl [H1r]; · iexact H1r
  iexact H4

/-- EXIT of the second call: the halves rejoin (the input arrays are as found), the output array is what the
    pipeline leaves, and with the rest they are the unscoped buffers at any valuation that says so. -/
theorem exit1 (c : Dev nD) (W' : (b : Ref sig .tc) → Buf (Elt F) ((c : Thread nD τ).loc b))
    (h4 : W' main_v4 = (dat1 V c).arrAt 3 cfg1.N) (hrest : ∀ b, b ≠ main_v4 → W' b = V c b) :
    iprop((dat1 V c).arrays ((dat1 V c).arrAt · cfg1.N) ∗ Pipeline.unscopedRest spec1 c (V c))
      ⊢ (unscopedBufs c W' : sProp 𝕄) := by
  have hr : (Pipeline.unscopedRest (Ix := Unit) (Name := ℕ) (U := UR sig nD τ) (Lvl := ℕ) spec1 c W' : sProp 𝕄)
      = Pipeline.unscopedRest spec1 c (V c) := by
    unfold Pipeline.unscopedRest
    exact bigSep_congr fun b hb => by
      rw [hrest b (fun e => (Finset.mem_sdiff.mp hb).2 (Finset.mem_image.mpr ⟨3, Finset.mem_univ _, e.symm⟩))]
  rw [split1 c W', arrBufs1_eq, arrays1_eq, hr,
    h4, hrest main_v3 (by decide), hrest main_v1 (by decide)]
  beta_reduce
  rw [(dat1 V c).arrAt_in 0 rfl, (dat1 V c).arrAt_in 1 rfl, (dat1 V c).arrAt_in 2 rfl]
  iintro ⟨⟨H3, H1l, H1r, H4⟩, Hrest⟩
  isplitr [Hrest]
  swap; · iexact Hrest
  isplitl [H3]; · iexact H3
  isplitl [H1l H1r]
  · iapply (pointsTo_share (PosShare.mem_left_op_right fullShare)).2
    isplitl [H1l]; · iexact H1l
    iexact H1r
  iexact H4

end Shared2

end Cert.KernelIdeal.Hand

end
-- ==== Proof.IdealRun.RunMain.lean ====
/-
  The launch: the program's five segments run from the launch memory to the return, and every weakly fair execution
  ends with each unscoped buffer at the last boundary's contents.
-/
import proofs.«143260_j32478542693202_2_alg».proof.Proof.Gen.KernelIdeal.Launch
import proofs.«143260_j32478542693202_2_alg».proof.Proof.Gen.KernelIdeal.Skeleton
import proofs.«143260_j32478542693202_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«143260_j32478542693202_2_alg».proof.Proof.IdealRun.Run
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U2 m ρ) c
  | ⟨2, _⟩ => fun c => dat2 (U3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The first call over the thread state: entered from every unscoped buffer at `B1`, left at `B2`. Its arrays are split out of the unscoped buffers at entry and put back at the exit contents; the generator register goes into the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from `B2`, left at `B3`. The weights' array, which two of its windows read, is dealt to them in halves at entry and rejoined at exit (`entry1`, `exit1`). -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit : (unscopedBufs c (U2 m ρ c) : sProp 𝕄)
        ⊢ iprop((pdats m ρ 1 c).arrays ((pdats m ρ 1 c).arrAt · 0) ∗ Pipeline.unscopedRest spec1 c (U2 m ρ c)) := entry1 (U2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (U2 m ρ c))
        ⊢ (unscopedBufs c (U3 m ρ c) : sProp 𝕄) := exit1 (U2 m ρ) c (U3 m ρ c) (B3_v4 m ρ c) (fun b hb => B3_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third call: entered from `B3`, left at `B4`. Its invariant names the scratch's contents after the first point; at the exit they are forgotten. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m ρ) c).loose
  hwaits := Pipeline.hwaits_of_owed_zero _ _ _ _ L lv 2 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec2 c (U3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = PhiS (U3 m ρ) c cfg2.N (le_refl _) from rfl,
      PhiS_pos (U3 m ρ) c _ _ (by rw [show cfg2.N = 256 from N_2]; decide),
      show (Pipeline.scopedRest (Ix := Unit) (Name := ℕ) (U := UR sig nD τ) (Lvl := ℕ) (Val := Elt F) (Pipeline.pin (pcfgs (F := F)) adm 2).spec c : sProp 𝕄)
        = iprop((∃ f : Buf (Elt F) ((c : Thread nD τ).loc cc2_scratch0), ((c : Thread nD τ).loc cc2_scratch0) ↦{fullShare} f) ∗ restOf2 c)
        from scopedRest2_split c, owns_whole]
    iintro ⟨HS, HR, Hp⟩
    isplitl [Hp]; · iexact Hp
    isplitr; · iempintro
    isplitl [HS]; · iexists _; iexact HS
    iexact HR
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U3 m ρ c) (U4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's five segments in order. -/
abbrev segs : List (Pipeline.Seg (pcfgs (F := F)) adm (pdats m ρ) () defs₀ 𝒱₀ L lv) :=
  [ .host (hseg hostOps0 hostOps0_sub hostOps0_fresh (B0 m ρ)),
    .region (reg0 m ρ),
    .region (reg1 m ρ),
    .region (reg2 m ρ),
    .host (hseg hostOps3 hostOps3_sub hostOps3_fresh (B4 m ρ)) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and the final memory holds every unscoped buffer at the last boundary's contents `B5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c))
    (Tₙ := fun c => iprop(StableHlo.held (c : Thread nD τ) (Pipeline.ucRefs τ sig) (B5 m ρ c) ∗ ∃ r, prngReg c r))
    (hch := ⟨fun _ => .rfl, fun _ => .rfl, fun _ => .rfl, fun _ => .rfl, fun _ => .rfl, fun c => by
      show iprop(StableHlo.held (c : Thread nD τ) (Pipeline.ucRefs τ sig) (B5 m ρ c) ∗ R c)
        ⊢ iprop(iprop(StableHlo.held (c : Thread nD τ) (Pipeline.ucRefs τ sig) (B5 m ρ c) ∗ ∃ r, prngReg c r)
            ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c => h c)

end Cert.KernelIdeal.Hand

end
-- ==== Proof.IdealRun.ArgsKept.lean ====
/-
  The four argument arrays end as launched. No host operation writes one; the first two calls do not touch them; the
  third reads the normalization weights through an input window, which is never written back. So the contents of an
  argument's buffer at the program's end walk back, boundary by boundary, to the launch memory.
-/
import proofs.«143260_j32478542693202_2_alg».proof.Proof.IdealRun.Run

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The activations: read only by the first host operation. -/
theorem B5_arg0 (c : Dev nD) : B5 (F := F) m ρ c (Proc.devRef .tc main_arg0) = m ((c : Thread nD τ).loc main_arg0) :=
  calc B5 (F := F) m ρ c (Proc.devRef .tc main_arg0)
    _ = B4 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = B3 m ρ c (Proc.devRef .tc main_arg0) := B4_of_ne m ρ c main_arg0 (by decide)
    _ = B2 m ρ c (Proc.devRef .tc main_arg0) := B3_of_ne m ρ c main_arg0 (by decide)
    _ = B1 m ρ c (Proc.devRef .tc main_arg0) := B2_of_ne m ρ c main_arg0 (by decide)
    _ = B0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = m ((c : Thread nD τ).loc main_arg0) := rfl

/-- The first weight matrix: read only by the second host operation. -/
theorem B5_arg1 (c : Dev nD) : B5 (F := F) m ρ c (Proc.devRef .tc main_arg1) = m ((c : Thread nD τ).loc main_arg1) :=
  calc B5 (F := F) m ρ c (Proc.devRef .tc main_arg1)
    _ = B4 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = B3 m ρ c (Proc.devRef .tc main_arg1) := B4_of_ne m ρ c main_arg1 (by decide)
    _ = B2 m ρ c (Proc.devRef .tc main_arg1) := B3_of_ne m ρ c main_arg1 (by decide)
    _ = B1 m ρ c (Proc.devRef .tc main_arg1) := B2_of_ne m ρ c main_arg1 (by decide)
    _ = B0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = m ((c : Thread nD τ).loc main_arg1) := rfl

/-- The second weight matrix: read only by the third host operation. -/
theorem B5_arg2 (c : Dev nD) : B5 (F := F) m ρ c (Proc.devRef .tc main_arg2) = m ((c : Thread nD τ).loc main_arg2) :=
  calc B5 (F := F) m ρ c (Proc.devRef .tc main_arg2)
    _ = B4 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = B3 m ρ c (Proc.devRef .tc main_arg2) := B4_of_ne m ρ c main_arg2 (by decide)
    _ = B2 m ρ c (Proc.devRef .tc main_arg2) := B3_of_ne m ρ c main_arg2 (by decide)
    _ = B1 m ρ c (Proc.devRef .tc main_arg2) := B2_of_ne m ρ c main_arg2 (by decide)
    _ = B0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = m ((c : Thread nD τ).loc main_arg2) := rfl

/-- The normalization weights: the third call's second window shows them and never writes them back. -/
theorem B5_arg3 (c : Dev nD) : B5 (F := F) m ρ c (Proc.devRef .tc main_arg3) = m ((c : Thread nD τ).loc main_arg3) :=
  calc B5 (F := F) m ρ c (Proc.devRef .tc main_arg3)
    _ = B4 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = B3 m ρ c (Proc.devRef .tc main_arg3) :=
          (B4_arr m ρ c 1).trans (((dat2 (U3 m ρ) c).arrAt_in 1 rfl _).trans (A_eq2 (U3 m ρ) c 1))
    _ = B2 m ρ c (Proc.devRef .tc main_arg3) := B3_of_ne m ρ c main_arg3 (by decide)
    _ = B1 m ρ c (Proc.devRef .tc main_arg3) := B2_of_ne m ρ c main_arg3 (by decide)
    _ = B0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = m ((c : Thread nD τ).loc main_arg3) := rfl

end Cert.KernelIdeal.Hand

end
-- ==== Proof.RowSpec.lean ====
/-
  The mathematics both programs compute, one token (row) at a time, on the extended reals.

  A row x ∈ ℝ̄^2048 is fake-quantized to 8 bits: with a = max(max_k |x_k|, ε) and s = 127 / a,
  q(x)_k = clamp(round_half_even(x_k · s), -128, 127) / s. It is multiplied against the 11264 rows of W13;
  the first 5632 products u and the last 5632 products v are gated, g_h = max(u_h, 0)² · v_h. The gated row is
  RMS-normalized and weighted, r_h = g_h · rsqrt((Σ_j g_j²) / 5632 + ε) · w_h, quantized again the same way, and
  multiplied against the 2048 rows of W2. Every step reads ONE row of the activations, so the whole map is a
  function of a row; the two programs differ only in how they tile the rows and the weight rows.
-/
import Idealize.ShloMosaic.PureOps.Ideal
import Idealize.ShloMosaic.Lib.ValueIdx
import Mathlib.Algebra.BigOperators.Fin

noncomputable section

namespace Cert.RowSpec

open Idealize.ShloMosaic

variable {n : ℕ}

/-- The largest magnitude of a row: the fold of max from -∞ over the entries' absolute values. -/
def amax (r : Fin n → Ideal .f32) : Ideal .f32 :=
  (Finset.univ : Finset (Fin n)).fold max (Ideal.ofBits .f32 0xFF800000#32) (fun d => FloatOps.absf (r d))

/-- The quantization scale of a row: 127 / max(amax, ε), ε the f32 word nearest 1e-5. -/
def scale (r : Fin n → Ideal .f32) : Ideal .f32 :=
  Ideal.div (Ideal.ofBits .f32 0x42FE0000#32) (max (amax r) (Ideal.ofBits .f32 0x3727C5AC#32))

/-- One value at a scale: min(127, max(-128, round_half_even(v · s))) / s. -/
def quant1 (s v : Ideal .f32) : Ideal .f32 :=
  Ideal.div (min (Ideal.ofBits .f32 0x42FE0000#32)
    (max (Ideal.ofBits .f32 0xC3000000#32) (Ideal.liftRound Ideal.roundHalfEven (v * s)))) s

/-- The fake-quantized row. -/
def quant (r : Fin n → Ideal .f32) (k : Fin n) : Ideal .f32 := quant1 (scale r) (r k)

/-- The inner product of two rows. -/
def dot (a b : Fin n → Ideal .f32) : Ideal .f32 := ∑ k : Fin n, a k * b k

/-- Squared-ReLU gating of one pair of products. -/
def gate (u v : Ideal .f32) : Ideal .f32 :=
  (max u (Ideal.ofBits .f32 0x00000000#32) * max u (Ideal.ofBits .f32 0x00000000#32)) * v

/-- The RMS-normalized, weighted row: g_k · rsqrt((Σ_j g_j · g_j) / 5632 + ε) · w_k. -/
def rms (g w : Fin n → Ideal .f32) (k : Fin n) : Ideal .f32 :=
  (g k * Ideal.rsqrt (Ideal.div (∑ j : Fin n, g j * g j) (Ideal.ofBits .f32 0x45B00000#32)
    + Ideal.ofBits .f32 0x3727C5AC#32)) * w k

/-- Row h of the first half of W13 and row h of its second half, as positions among the 11264 rows. -/
def lo (h : Fin 5632) : Fin 11264 := ⟨h.val, by omega⟩
def hi (h : Fin 5632) : Fin 11264 := ⟨h.val + 5632, by omega⟩

/-- The gated row of a QUANTIZED activation row xq against W13. -/
def gated (xq : Fin 2048 → Ideal .f32) (w13 : Fin 11264 → Fin 2048 → Ideal .f32) (h : Fin 5632) : Ideal .f32 :=
  gate (dot xq (w13 (lo h))) (dot xq (w13 (hi h)))

/-- The normalized and re-quantized row of a gated row. -/
def iq (g nw : Fin 5632 → Ideal .f32) : Fin 5632 → Ideal .f32 := quant (rms g nw)

/-- The whole map on one activation row. -/
def rowOut (x : Fin 2048 → Ideal .f32) (w13 : Fin 11264 → Fin 2048 → Ideal .f32)
    (w2 : Fin 2048 → Fin 5632 → Ideal .f32) (nw : Fin 5632 → Ideal .f32) (d : Fin 2048) : Ideal .f32 :=
  dot (iq (gated (quant x) w13) nw) (w2 d)

end Cert.RowSpec

end
-- ==== Proof.LibRowMax.lean ====
/-
  Maxima along one axis on the extended reals. A lane maximum over the second axis of a matrix, read at a row: the
  fold of `max`, from the value of the accumulator's pattern, over that row's entries. A host reduction by maximum over
  one axis, read at a result index: the fold of `max`, from the initial value, over that axis's coordinates.
  General in the shapes.
-/
import Idealize.ShloMosaic.Lib.ValueIdx
import Idealize.ShloMosaic.PureOps.Ideal.Laws

noncomputable section

namespace Cert.LibRowMax

open Idealize.ShloMosaic Idealize.ShloMosaic.ValueIdx

/-- On the extended reals a lane maximum over the second axis of an `[a, b]` matrix is, at row `r`, the fold of `max`
    from the accumulator's value over that row's entries. -/
theorem multiReduction_maximumf_rows {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun d => src (ix2 r d)) := by
  refine (Ideal.multiReduction_maximumf_single src acc h hφ hacc (ix1 r)).trans ?_
  refine congrArg (fun f => (Finset.univ : Finset (Fin b)).fold max (Ideal.ofBits .f32 acc) f) (funext fun d => ?_)
  refine congrArg src (funext fun ax => Fin.ext ?_)
  match ax with
  | ⟨0, _⟩ => rfl
  | ⟨1, _⟩ => rfl

/-- On the extended reals the host's reduction by maximum over ONE axis is, at a result index `j`, the fold of `max` from
    the initial value over that axis's coordinates (the index `j` with the coordinate inserted on the reduced axis). -/
theorem hostReduce_maximumf_single {s t u : Shape} {a : Fin s.rank} (x : s.Idx → EReal) (init : u.Idx → EReal)
    (h' : s.ReducesTo [a] t) (h : s.Reduces [a] t) (hu : 0 < u.numel) (j : t.Idx) :
    Host.reduce (FloatOps.maximumf (F := Ideal) (φ := .f32)) x init h' hu j
      = (Finset.univ : Finset (Fin (s.size a))).fold max (init (Shape.Idx.first hu)) (fun k => x (h.lift j k)) :=
  Host.reduce_eq_fold_single (FloatOps.maximumf (F := Ideal) (φ := .f32)) x init h' h hu j

end Cert.LibRowMax

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibTransposedMatmul.lean ====
/-
  A matrix product `[a, n] × [b, n]ᵀ` (both operands contracted on their columns, no batch axis) into the zero
  accumulator, read at an entry on the extended reals: entry `(r, j)` is the sum over `k` of the left operand at
  `(r, k)` times the right operand at `(j, k)`. General over the three extents, the two operand formats and the
  precision.
-/
import Idealize.ShloMosaic.Lib.ValueIdx
import Idealize.ShloMosaic.PureOps.Ideal.Laws

noncomputable section

open scoped BigOperators

namespace Cert.LibTransposedMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.transposedRhs a n b).contr.Idx) :
    ((DotDims.transposedRhs a n b).lhsIdx i q 0).val = (i 0).val := rfl

/-- … and the contraction coordinate as its column. -/
theorem lhs_col (i : (⟨2, ![a, b]⟩ : Shape).Idx) (q : (DotDims.transposedRhs a n b).contr.Idx) :
    ((DotDims.transposedRhs a n b).lhsIdx i q 1).val
      = (q (⟨0, Nat.one_pos⟩ : Fin (DotDims.transposedRhs a n b).contr.rank)).val :=
  (DotDims.transposedRhs a n b).lhsIdx_val_of_single rfl i q

/-- The right operand's index: row `i 1` … -/
theorem rhs_row (i : (⟨2, ![a, b]⟩ : Shape).Idx) (q : (DotDims.transposedRhs a n b).contr.Idx) :
    ((DotDims.transposedRhs a n b).rhsIdx i q 0).val = (i 1).val := rfl

/-- … and the contraction coordinate as its column. -/
theorem rhs_col (i : (⟨2, ![a, b]⟩ : Shape).Idx) (q : (DotDims.transposedRhs a n b).contr.Idx) :
    ((DotDims.transposedRhs a n b).rhsIdx i q 1).val
      = (q (⟨0, Nat.one_pos⟩ : Fin (DotDims.transposedRhs a n b).contr.rank)).val :=
  (DotDims.transposedRhs a n b).rhsIdx_val_of_single rfl i q

/-- A product with the transposed right operand into the zero accumulator, at entry `(r, j)`, is
    `Σₖ A (r, k) · B (j, k)`. -/
theorem matmul_zero_apply {φ₁ φ₂ : FTy} (prec : Option ContractPrecision) (A : FVec Ideal ⟨2, ![a, n]⟩ φ₁)
    (B : FVec Ideal ⟨2, ![b, n]⟩ φ₂) (r : Fin a) (j : Fin b) :
    FloatOps.matmul (DotDims.transposedRhs a n b) prec A B (constant ⟨2, ![a, b]⟩ .f32 0x00000000#32) (ix2 r j)
      = ∑ k : Fin n, A (ix2 r k) * B (ix2 j k) := by
  rw [Ideal.matmul_constant_zero_apply, ← Equiv.sum_comp (contrEquiv1 (DotDims.transposedRhs a n b) n rfl rfl).symm]
  refine Finset.sum_congr rfl fun k _ => ?_
  have hk := contrEquiv1_symm_val (DotDims.transposedRhs a n b) n rfl rfl k
  have el : (DotDims.transposedRhs a n b).lhsIdx (ix2 r j) ((contrEquiv1 (DotDims.transposedRhs a n b) n rfl rfl).symm k)
      = ix2 r k :=
    funext fun c => Fin.ext (by
      match c with
      | ⟨0, _⟩ => exact lhs_row _ _
      | ⟨1, _⟩ => exact (lhs_col _ _).trans hk)
  have er : (DotDims.transposedRhs a n b).rhsIdx (ix2 r j) ((contrEquiv1 (DotDims.transposedRhs a n b) n rfl rfl).symm k)
      = ix2 j k :=
    funext fun c => Fin.ext (by
      match c with
      | ⟨0, _⟩ => exact rhs_row _ _
      | ⟨1, _⟩ => exact (rhs_col _ _).trans hk)
  rw [el, er]

end Cert.LibTransposedMatmul

end
-- ==== Proof.Payloads.lean ====
/-
  The kernel's arithmetic read at an index, on the extended reals. Each of the three bodies computes, between its
  loads and its stores, a pure function of the tiles it read; at an entry that function is one of the row maps of
  Cert.RowSpec applied to the rows the entry lies on: the fake-quantization of an activation row, the gated pair of
  inner products of an activation row with two weight rows, the RMS-normalized and re-quantized gated row, and the
  inner product of a quantized row with a weight row.
-/
import proofs.«143260_j32478542693202_2_alg».proof.Proof.Gen.KernelIdeal.Skeleton
import proofs.«143260_j32478542693202_2_alg».proof.Proof.RowSpec
import proofs.«143260_j32478542693202_2_alg».proof.Proof.LibRowMax
import proofs.«143260_j32478542693202_2_alg».proof.Proof.LibKeepdims
import proofs.«143260_j32478542693202_2_alg».proof.Proof.LibTransposedMatmul

noncomputable section

open scoped BigOperators

namespace Cert.Payloads

open Idealize.ShloMosaic Idealize.ShloMosaic.ValueIdx Cert.KernelIdeal Cert.KernelIdeal.Gen

/-! ## The two matrix products -/

/-- The first product's dimension numbers are those of a product with the right operand transposed: the two records
    list the same axes, and their well-formedness fields are proofs of one proposition. -/
theorem dot1_eq : dot_S2048x2048_S256x2048_S2048x256_1_1_0_0_n_n = DotDims.transposedRhs 2048 2048 256 := rfl

/-- Likewise the second product's. -/
theorem dot2_eq : dot_S256x5632_S256x5632_S256x256_1_1_0_0_n_n = DotDims.transposedRhs 256 5632 256 := rfl

/-- The first product into the zero accumulator at entry `(p, j)`: the inner product of row `p` of the left operand
    with row `j` of the right one. -/
theorem matmul1_apply (A : FVec Ideal S2048x2048 .bf16) (B : FVec Ideal S256x2048 .bf16) (p : Fin 2048) (j : Fin 256) :
    FloatOps.matmul dot_S2048x2048_S256x2048_S2048x256_1_1_0_0_n_n none A B (constant (F := Ideal) S2048x256 .f32 0x00000000#32)
        (ix2 p j)
      = ∑ k : Fin 2048, A (ix2 p k) * B (ix2 j k) :=
  Cert.LibTransposedMatmul.matmul_zero_apply (a := 2048) (n := 2048) (b := 256) none A B p j

/-- The second product into the zero accumulator at entry `(p, j)`. -/
theorem matmul2_apply (A : FVec Ideal S256x5632 .bf16) (B : FVec Ideal S256x5632 .bf16) (p j : Fin 256) :
    FloatOps.matmul dot_S256x5632_S256x5632_S256x256_1_1_0_0_n_n none A B (constant (F := Ideal) S256x256 .f32 0x00000000#32)
        (ix2 p j)
      = ∑ k : Fin 5632, A (ix2 p k) * B (ix2 j k) :=
  Cert.LibTransposedMatmul.matmul_zero_apply (a := 256) (n := 5632) (b := 256) none A B p j

/-- The last body's product at entry `(p, j)`: the inner product of row `p` of the quantized tile with row `j` of the
    weight tile. -/
theorem pay_out (v3 v4 : Vec Ideal S256x5632 .bf16) (p j : Fin 256) :
    k2_pay2 (F := Ideal) v3 v4 (ix2 p j)
      = Cert.RowSpec.dot (fun k => v3 (ix2 p k)) (fun k => v4 (ix2 j k)) := by
  unfold k2_pay2
  show FloatOps.matmul dot_S256x5632_S256x5632_S256x256_1_1_0_0_n_n none v3
      (shapeCast S256x5632 v4 shapeCasts_S256x5632_S256x5632) (constant (F := Ideal) S256x256 .f32 0x00000000#32) (ix2 p j) = _
  rw [shapeCast_self]
  exact matmul2_apply v3 v4 p j

/-- The middle body's value at entry `(p, j)`: the squared positive part of the first inner product times the second. -/
theorem pay_gate (v0 : Vec Ideal S2048x2048 .bf16) (v2 v4 : Vec Ideal S256x2048 .bf16) (p : Fin 2048) (j : Fin 256) :
    k1_pay1 (F := Ideal) v0 v2 v4 (ix2 p j)
      = Cert.RowSpec.gate (Cert.RowSpec.dot (fun k => v0 (ix2 p k)) (fun k => v2 (ix2 j k)))
          (Cert.RowSpec.dot (fun k => v0 (ix2 p k)) (fun k => v4 (ix2 j k))) := by
  unfold k1_pay1
  simp only [shapeCast_self]
  show (max (FloatOps.matmul dot_S2048x2048_S256x2048_S2048x256_1_1_0_0_n_n none v0 v2
            (constant (F := Ideal) S2048x256 .f32 0x00000000#32) (ix2 p j)) (Ideal.ofBits .f32 0x00000000#32)
        * max (FloatOps.matmul dot_S2048x2048_S256x2048_S2048x256_1_1_0_0_n_n none v0 v2
            (constant (F := Ideal) S2048x256 .f32 0x00000000#32) (ix2 p j)) (Ideal.ofBits .f32 0x00000000#32))
        * FloatOps.matmul dot_S2048x2048_S256x2048_S2048x256_1_1_0_0_n_n none v0 v4
            (constant (F := Ideal) S2048x256 .f32 0x00000000#32) (ix2 p j) = _
  rw [matmul1_apply v0 v2 p j, matmul1_apply v0 v4 p j]
  rfl

/-! ## Fake quantization of the rows of a matrix -/

section Quant

variable {a b : ℕ}

/-- The column of quantization scales of an `[a, b]` matrix, in the operations the bodies use: the lane maximum of the
    magnitudes, kept as a column, raised to at least ε, and 127 divided by it. -/
def scaleCol (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) : FVec Ideal ⟨2, ![a, 1]⟩ .f32 :=
  divf (broadcast ⟨2, ![a, 1]⟩ (Scalar.ofBits (F := Ideal) .f32 0x42FE0000#32))
    (maximumf
      (shapeCast ⟨2, ![a, 1]⟩
        (multiReduction (F := Ideal) .maximumf [1] ⟨1, ![a]⟩ (absf x) 0xFF800000#32 hr (.inl rfl) rfl) hc)
      (broadcast ⟨2, ![a, 1]⟩ (Scalar.ofBits (F := Ideal) .f32 0x3727C5AC#32)))

/-- The scale column at row `p` is the scale of that row. -/
theorem scaleCol_apply (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) (p : Fin a) (u : Fin 1) :
    scaleCol x hr hc (ix2 p u) = Cert.RowSpec.scale (fun k => x (ix2 p k)) := by
  show Ideal.div (Ideal.ofBits .f32 0x42FE0000#32)
      (max (shapeCast ⟨2, ![a, 1]⟩
          (multiReduction (F := Ideal) .maximumf [1] ⟨1, ![a]⟩ (absf x) 0xFF800000#32 hr (.inl rfl) rfl) hc (ix2 p u))
        (Ideal.ofBits .f32 0x3727C5AC#32)) = _
  refine congrArg (fun m => Ideal.div (Ideal.ofBits .f32 0x42FE0000#32) (max m (Ideal.ofBits .f32 0x3727C5AC#32))) ?_
  refine (Cert.LibKeepdims.shapeCast_a_a1_apply _ hc p u).trans ?_
  exact Cert.LibRowMax.multiReduction_maximumf_rows (absf x) 0xFF800000#32 hr (.inl rfl) rfl p

/-- The fake-quantized matrix, in the operations the bodies use: each entry times its row's scale, rounded half to even,
    clamped to [-128, 127], divided by the scale again, and narrowed (the identity on the extended reals). -/
def quantMat (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hw : FTy.bits .bf16 < FTy.bits .f32) : FVec Ideal ⟨2, ![a, b]⟩ .bf16 :=
  truncf .bf16
    (divf
      (minimumf (broadcast ⟨2, ![a, b]⟩ (Scalar.ofBits (F := Ideal) .f32 0x42FE0000#32))
        (maximumf (broadcast ⟨2, ![a, b]⟩ (Scalar.ofBits (F := Ideal) .f32 0xC3000000#32))
          (roundeven (mulf x (broadcastTo ⟨2, ![a, b]⟩ (scaleCol x hr hc) hb)))))
      (broadcastTo ⟨2, ![a, b]⟩ (scaleCol x hr hc) hb)) hw

/-- The fake-quantized matrix at entry `(p, d)` is the fake-quantized row `p` at `d`. -/
theorem quantMat_apply (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hw : FTy.bits .bf16 < FTy.bits .f32) (p : Fin a) (d : Fin b) :
    quantMat x hr hc hb hw (ix2 p d) = Cert.RowSpec.quant (fun k => x (ix2 p k)) d := by
  show Ideal.div
      (min (Ideal.ofBits .f32 0x42FE0000#32)
        (max (Ideal.ofBits .f32 0xC3000000#32)
          (Ideal.liftRound Ideal.roundHalfEven
            (x (ix2 p d) * broadcastTo ⟨2, ![a, b]⟩ (scaleCol x hr hc) hb (ix2 p d)))))
      (broadcastTo ⟨2, ![a, b]⟩ (scaleCol x hr hc) hb (ix2 p d)) = _
  have es : broadcastTo ⟨2, ![a, b]⟩ (scaleCol x hr hc) hb (ix2 p d) = Cert.RowSpec.scale (fun k => x (ix2 p k)) :=
    (Cert.LibKeepdims.broadcastTo_a1_ab_apply (scaleCol x hr hc) hb p d).trans (scaleCol_apply x hr hc p 0)
  rw [es]
  rfl

end Quant

/-- The first body's value at entry `(p, d)`: the fake-quantized row `p` of the tile, at `d`. -/
theorem pay_quant (v0 : Vec Ideal S512x2048 .f32) (p : Fin 512) (d : Fin 2048) :
    k0_pay1 (F := Ideal) v0 (ix2 p d) = Cert.RowSpec.quant (fun k => v0 (ix2 p k)) d := by
  have e : k0_pay1 (F := Ideal) v0
      = quantMat (shapeCast S512x2048 v0 shapeCasts_S512x2048_S512x2048) reduces_S512x2048_S512 shapeCasts_S512_S512x1
          broadcasts_S512x1_S512x2048 bitsLt_bf16_f32 := rfl
  rw [e, shapeCast_self]
  exact quantMat_apply v0 _ _ _ _ p d

/-! ## RMS normalization of the rows of a matrix -/

section Rms

variable {a b : ℕ}

/-- The column of inverse root-mean-squares of an `[a, b]` matrix, in the operations the last body uses: the lane sum
    of the squares, kept as a column, divided by 5632, plus ε, under the inverse square root. -/
def invRmsCol (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) : FVec Ideal ⟨2, ![a, 1]⟩ .f32 :=
  rsqrt
    (addf
      (divf
        (shapeCast ⟨2, ![a, 1]⟩
          (multiReduction (F := Ideal) .add [1] ⟨1, ![a]⟩ (mulf x x) 0x00000000#32 hr (.inl rfl) rfl) hc)
        (broadcast ⟨2, ![a, 1]⟩ (Scalar.ofBits (F := Ideal) .f32 0x45B00000#32)))
      (broadcast ⟨2, ![a, 1]⟩ (Scalar.ofBits (F := Ideal) .f32 0x3727C5AC#32)))

/-- That column at row `p`, as a function of the row. -/
theorem invRmsCol_apply (x : FVec Ideal ⟨2, ![a, b]⟩ .f32) (hr : (⟨2, ![a, b]⟩ : Shape).Reduces [1] ⟨1, ![a]⟩)
    (hc : (⟨1, ![a]⟩ : Shape).ShapeCasts ⟨2, ![a, 1]⟩) (p : Fin a) (u : Fin 1) :
    invRmsCol x hr hc (ix2 p u)
      = Ideal.rsqrt (Ideal.div (∑ j : Fin b, x (ix2 p j) * x (ix2 p j)) (Ideal.ofBits .f32 0x45B00000#32)
          + Ideal.ofBits .f32 0x3727C5AC#32) := by
  show Ideal.rsqrt (Ideal.div
      (shapeCast ⟨2, ![a, 1]⟩
        (multiReduction (F := Ideal) .add [1] ⟨1, ![a]⟩ (mulf x x) 0x00000000#32 hr (.inl rfl) rfl) hc (ix2 p u))
      (Ideal.ofBits .f32 0x45B00000#32) + Ideal.ofBits .f32 0x3727C5AC#32) = _
  refine congrArg (fun s => Ideal.rsqrt (Ideal.div s (Ideal.ofBits .f32 0x45B00000#32) + Ideal.ofBits .f32 0x3727C5AC#32)) ?_
  refine (Cert.LibKeepdims.shapeCast_a_a1_apply _ hc p u).trans ?_
  exact Cert.LibKeepdims.multiReduction_add_rows (mulf x x) 0x00000000#32 hr (.inl rfl) rfl p

/-- The normalized and weighted matrix, in the operations the last body uses: each entry times its row's inverse
    root-mean-square, times the weight of its column (the weight vector as one row, repeated down the rows). -/
def rmsMat (x : FVec Ideal ⟨2, ![a, b]⟩ .f32) (w : FVec Ideal ⟨1, ![b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hcw : (⟨1, ![b]⟩ : Shape).ShapeCasts ⟨2, ![1, b]⟩)
    (hbw : (⟨2, ![1, b]⟩ : Shape).Broadcasts ⟨2, ![a, b]⟩) : FVec Ideal ⟨2, ![a, b]⟩ .f32 :=
  mulf (mulf x (broadcastTo ⟨2, ![a, b]⟩ (invRmsCol x hr hc) hb))
    (broadcastTo ⟨2, ![a, b]⟩ (shapeCast ⟨2, ![1, b]⟩ w hcw) hbw)

/-- The normalized and weighted matrix at entry `(p, h)` is the normalized and weighted row `p` at `h`. -/
theorem rmsMat_apply (x : FVec Ideal ⟨2, ![a, b]⟩ .f32) (w : FVec Ideal ⟨1, ![b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hcw : (⟨1, ![b]⟩ : Shape).ShapeCasts ⟨2, ![1, b]⟩)
    (hbw : (⟨2, ![1, b]⟩ : Shape).Broadcasts ⟨2, ![a, b]⟩) (p : Fin a) (h : Fin b) :
    rmsMat x w hr hc hb hcw hbw (ix2 p h) = Cert.RowSpec.rms (fun k => x (ix2 p k)) (fun k => w (ix1 k)) h := by
  have e1 : broadcastTo ⟨2, ![a, b]⟩ (invRmsCol x hr hc) hb (ix2 p h)
      = Ideal.rsqrt (Ideal.div (∑ j : Fin b, x (ix2 p j) * x (ix2 p j)) (Ideal.ofBits .f32 0x45B00000#32)
          + Ideal.ofBits .f32 0x3727C5AC#32) :=
    (Cert.LibKeepdims.broadcastTo_a1_ab_apply (invRmsCol x hr hc) hb p h).trans (invRmsCol_apply x hr hc p 0)
  have e2 : broadcastTo ⟨2, ![a, b]⟩ (shapeCast ⟨2, ![1, b]⟩ w hcw) hbw (ix2 p h) = w (ix1 h) :=
    (broadcastTo_1b_ab_apply (shapeCast ⟨2, ![1, b]⟩ w hcw) hbw p h).trans (shapeCast_a_1a_apply w hcw 0 h)
  show (x (ix2 p h) * broadcastTo ⟨2, ![a, b]⟩ (invRmsCol x hr hc) hb (ix2 p h))
      * broadcastTo ⟨2, ![a, b]⟩ (shapeCast ⟨2, ![1, b]⟩ w hcw) hbw (ix2 p h) = _
  rw [e1, e2]
  rfl

end Rms

/-- The last body's first value at entry `(p, h)`: row `p` of the gated tile, RMS-normalized, weighted and
    fake-quantized, at `h`. -/
theorem pay_iq (v8 : Vec Ideal S256x5632 .f32) (v10 : Vec Ideal S5632 .f32) (p : Fin 256) (h : Fin 5632) :
    k2_pay1 (F := Ideal) v8 v10 (ix2 p h)
      = Cert.RowSpec.iq (fun k => v8 (ix2 p k)) (fun k => v10 (ix1 k)) h := by
  have e : k2_pay1 (F := Ideal) v8 v10
      = shapeCast S256x5632
          (quantMat
            (rmsMat (shapeCast S256x5632 v8 shapeCasts_S256x5632_S256x5632) v10 reduces_S256x5632_S256
              shapeCasts_S256_S256x1 broadcasts_S256x1_S256x5632 shapeCasts_S5632_S1x5632 broadcasts_S1x5632_S256x5632)
            reduces_S256x5632_S256 shapeCasts_S256_S256x1 broadcasts_S256x1_S256x5632 bitsLt_bf16_f32)
          shapeCasts_S256x5632_S256x5632 := rfl
  rw [e, shapeCast_self, shapeCast_self]
  refine (quantMat_apply _ _ _ _ _ p h).trans ?_
  exact congrArg (fun r => Cert.RowSpec.quant r h) (funext fun k => rmsMat_apply v8 v10 _ _ _ _ _ p k)

end Cert.Payloads

end
-- ==== Proof.IdealRun.Final01.lean ====
/-
  From blocks to whole arrays, for the first two kernel calls, on the extended reals.

  Each call sweeps a grid; at a grid point its body writes one block of the output array, and what it writes is a
  function of the blocks of the input arrays that the point reads. Here the blocks are put together: entry (ρ, d) of
  the array a call leaves is a function of ROW ρ of its input arrays alone. The first call leaves the fake-quantized
  rows of the activations; the second, for a quantized row, its gated pairs of inner products with the rows h and
  5632 + h of the weight matrix.
-/
import proofs.«143260_j32478542693202_2_alg».proof.Proof.IdealRun.Region0
import proofs.«143260_j32478542693202_2_alg».proof.Proof.IdealRun.Region1
import proofs.«143260_j32478542693202_2_alg».proof.Proof.Payloads
import proofs.«143260_j32478542693202_2_alg».proof.Proof.RowSpec
import Idealize.ShloMosaic.Lib.Pipeline.Value

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-block rectangle, as a constant function. -/
theorem offsets_zero : (![0, 0] : Fin 2 → Nat) = fun _ => 0 := funext fun a => by fin_cases a <;> rfl

/-! ## The first call: the quantized activations -/

/-- The array the first call leaves, as a function of the activations: row ρ is the fake-quantized row ρ. -/
def G0 (x : S8192x2048.Idx → Elt Ideal .f32) : S8192x2048.Idx → Elt Ideal .bf16 :=
  fun i => Cert.RowSpec.quant (fun k : Fin 2048 => x (ix2 (i 0 : Fin 8192) k)) (i 1 : Fin 2048)

/-- One entry of one block: if row `y 0` of the input block is row `i 0` of the array and the columns agree, the body's
    value at `y` is the quantized array at `i`. -/
theorem point0 (x0 : Vec Ideal S512x2048 .f32) (X : S8192x2048.Idx → Elt Ideal .f32) (y : S512x2048.Idx)
    (i : S8192x2048.Idx) (hx : ∀ k : Fin 2048, x0 (ix2 (y 0 : Fin 512) k) = X (ix2 (i 0 : Fin 8192) k))
    (h1 : (i 1).val = (y 1).val) :
    k0_pay1 (F := Ideal) x0 y = G0 X i := by
  refine (congrArg (k0_pay1 (F := Ideal) x0) (eq_ix2 y)).trans ?_
  refine (Cert.Payloads.pay_quant x0 (y 0) (y 1)).trans ?_
  have hf : (fun k : Fin 2048 => x0 (ix2 (y 0 : Fin 512) k)) = fun k : Fin 2048 => X (ix2 (i 0 : Fin 8192) k) := funext hx
  have hc : (y 1 : Fin 2048) = (i 1 : Fin 2048) := Fin.ext h1.symm
  show Cert.RowSpec.quant (fun k : Fin 2048 => x0 (ix2 (y 0 : Fin 512) k)) (y 1 : Fin 2048)
    = Cert.RowSpec.quant (fun k : Fin 2048 => X (ix2 (i 0 : Fin 8192) k)) (i 1 : Fin 2048)
  rw [hf, hc]

/-- The printed index maps of the first call, decided over its 16 points: both windows sit at row block `t`. -/
theorem index_maps0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the quantized activations. -/
theorem flushed0_eq (c : Dev nD) (t : Fin cfg0.N) :
    (dat0 (F := Ideal) V c).flushed 1 t = ((cfg0.win 1).blk t).view.read (Elt Ideal) (G0 (V c main_v0)) := by
  show (cfg0.win 1).cut (grid0.coords t) ((dat0 (F := Ideal) V c).after 1 t) = _
  rw [after0_1]
  unfold out0
  rw [View.canon_unit_zero offsets_zero]
  simp only [View.ld_unit_zero (S := S512x2048) offsets_zero]
  obtain ⟨e0, e1, e2, e3⟩ := index_maps0 t
  funext j
  show k0_pay1 (F := Ideal) (iblk0 V c 0 t) j = G0 (V c main_v0) (((cfg0.win 1).blk t).view.emb j)
  refine point0 (iblk0 V c 0 t) (V c main_v0) j _ (fun k => ?_) ?_
  · show V c main_v0 (((cfg0.win 0).blk t).view.emb (ix2 (j 0 : Fin 512) k)) = V c main_v0 _
    refine congrArg (V c main_v0) (funext fun a => Fin.ext ?_)
    match a with
    | ⟨0, _⟩ =>
      show win0_0.index t (0 : Fin 2) * 512 + 1 * (j 0).val = win0_1.index t (0 : Fin 2) * 512 + 1 * (j 0).val
      omega
    | ⟨1, _⟩ =>
      show win0_0.index t (1 : Fin 2) * 2048 + 1 * k.val = k.val
      omega
  · show win0_1.index t (1 : Fin 2) * 2048 + 1 * (j 1).val = (j 1).val
    omega

/-- An index of the output array is in point `t`'s block iff each coordinate is in the block's range on its axis. -/
theorem mem_blk0 (t : Fin cfg0.N) (i : S8192x2048.Idx) :
    i ∈ ((cfg0.win 1).blk t).view.set ↔ ∀ a : Fin 2, win0_1.index t a * S512x2048.size a ≤ (i a).val
      ∧ (i a).val < win0_1.index t a * S512x2048.size a + S512x2048.size a := by
  show i ∈ ((View.whole main_v3).slice (win0_1.rect t)).set ↔ _
  rw [View.set_slice_whole, Rect.mem_set_unit]
  exact Iff.rfl

/-- Every row of the output array is in some point's block: row ρ in that of point ρ / 512. -/
theorem cover0_all (i : S8192x2048.Idx) :
    ∃ t : Fin cfg0.N, (cfg0.win 1).flush t = true ∧ i ∈ ((cfg0.win 1).blk t).view.set := by
  have hi0 : (i 0).val < 8192 := (i 0).isLt
  have hi1 : (i 1).val < 2048 := (i 1).isLt
  have hN : cfg0.N = 16 := N_0
  let t : Fin cfg0.N := ⟨(i 0).val / 512, by rw [hN]; omega⟩
  have ht : t.val = (i 0).val / 512 := rfl
  obtain ⟨e0, e1, e2, e3⟩ := index_maps0 t
  refine ⟨t, flush0_1 t, ?_⟩
  rw [mem_blk0]
  intro a
  match a with
  | ⟨0, _⟩ =>
    show win0_1.index t (0 : Fin 2) * 512 ≤ (i 0).val ∧ (i 0).val < win0_1.index t (0 : Fin 2) * 512 + 512
    omega
  | ⟨1, _⟩ =>
    show win0_1.index t (1 : Fin 2) * 2048 ≤ (i 1).val ∧ (i 1).val < win0_1.index t (1 : Fin 2) * 2048 + 2048
    omega

/-- The array the first call leaves: the fake-quantized rows of the activations it found. -/
theorem final0 (c : Dev nD) : (dat0 (F := Ideal) V c).arrAt 1 cfg0.N = G0 (V c main_v0) :=
  (dat0 (F := Ideal) V c).arrAt_eq_of_cover 1 (G0 (V c main_v0)) (fun t _ => flushed0_eq V c t) cover0_all

/-! ## The second call: the gated products -/

/-- The array the second call leaves, as a function of the quantized activations and the weight matrix: entry (ρ, h)
    is the gated pair of inner products of row ρ with weight rows `h` and `5632 + h`. -/
def G1 (xq : S8192x2048.Idx → Elt Ideal .bf16) (w : S11264x2048.Idx → Elt Ideal .bf16) :
    S8192x5632.Idx → Elt Ideal .f32 :=
  fun i => Cert.RowSpec.gated (fun k : Fin 2048 => xq (ix2 (i 0 : Fin 8192) k))
    (fun (f : Fin 11264) (k : Fin 2048) => w (ix2 f k)) (i 1 : Fin 5632)

/-- One entry of one tile: if row `y 0` of the activation block is row `i 0` of the activations, and row `y 1` of the two
    weight blocks is rows `i 1` and `5632 + i 1` of the weights, the body's value at `y` is the gated array at `i`. -/
theorem point1 (x0 : Vec Ideal S2048x2048 .bf16) (x1 x2 : Vec Ideal S256x2048 .bf16)
    (Xq : S8192x2048.Idx → Elt Ideal .bf16) (W : S11264x2048.Idx → Elt Ideal .bf16) (y : S2048x256.Idx)
    (i : S8192x5632.Idx)
    (hx : ∀ k : Fin 2048, x0 (ix2 (y 0 : Fin 2048) k) = Xq (ix2 (i 0 : Fin 8192) k))
    (h1 : ∀ k : Fin 2048, x1 (ix2 (y 1 : Fin 256) k) = W (ix2 (Cert.RowSpec.lo (i 1 : Fin 5632)) k))
    (h2 : ∀ k : Fin 2048, x2 (ix2 (y 1 : Fin 256) k) = W (ix2 (Cert.RowSpec.hi (i 1 : Fin 5632)) k)) :
    k1_pay1 (F := Ideal) x0 x1 x2 y = G1 Xq W i := by
  refine (congrArg (k1_pay1 (F := Ideal) x0 x1 x2) (eq_ix2 y)).trans ?_
  refine (Cert.Payloads.pay_gate x0 x1 x2 (y 0) (y 1)).trans ?_
  have hf : (fun k : Fin 2048 => x0 (ix2 (y 0 : Fin 2048) k)) = fun k : Fin 2048 => Xq (ix2 (i 0 : Fin 8192) k) :=
    funext hx
  have hl : (fun k : Fin 2048 => x1 (ix2 (y 1 : Fin 256) k))
      = fun k : Fin 2048 => W (ix2 (Cert.RowSpec.lo (i 1 : Fin 5632)) k) := funext h1
  have hh : (fun k : Fin 2048 => x2 (ix2 (y 1 : Fin 256) k))
      = fun k : Fin 2048 => W (ix2 (Cert.RowSpec.hi (i 1 : Fin 5632)) k) := funext h2
  show Cert.RowSpec.gate
      (Cert.RowSpec.dot (fun k : Fin 2048 => x0 (ix2 (y 0 : Fin 2048) k)) (fun k : Fin 2048 => x1 (ix2 (y 1 : Fin 256) k)))
      (Cert.RowSpec.dot (fun k : Fin 2048 => x0 (ix2 (y 0 : Fin 2048) k)) (fun k : Fin 2048 => x2 (ix2 (y 1 : Fin 256) k)))
    = Cert.RowSpec.gate
      (Cert.RowSpec.dot (fun k : Fin 2048 => Xq (ix2 (i 0 : Fin 8192) k))
        (fun k : Fin 2048 => W (ix2 (Cert.RowSpec.lo (i 1 : Fin 5632)) k)))
      (Cert.RowSpec.dot (fun k : Fin 2048 => Xq (ix2 (i 0 : Fin 8192) k))
        (fun k : Fin 2048 => W (ix2 (Cert.RowSpec.hi (i 1 : Fin 5632)) k)))
  rw [hf, hl, hh]

/-- The printed index maps of the second call, decided over its 88 points, point `t = 22 i + n`: the activations at row
    block `i`, the two weight windows at row blocks `n` and `n + 22`, the output at tile `(i, n)`. -/
theorem index_maps1 : ∀ t : Fin cfg1.N, win1_0.index t (0 : Fin 2) = t.val / 22 ∧ win1_0.index t (1 : Fin 2) = 0
    ∧ win1_1.index t (0 : Fin 2) = t.val % 22 ∧ win1_1.index t (1 : Fin 2) = 0
    ∧ win1_2.index t (0 : Fin 2) = t.val % 22 + 22 ∧ win1_2.index t (1 : Fin 2) = 0
    ∧ win1_3.index t (0 : Fin 2) = t.val / 22 ∧ win1_3.index t (1 : Fin 2) = t.val % 22 :=
  (by decide +kernel : ∀ t : Fin grid1.N, _)

/-- What point `t` writes back is tile `t` of the gated array. -/
theorem flushed1_eq (c : Dev nD) (t : Fin cfg1.N) :
    (dat1 (F := Ideal) V c).flushed 3 t
      = ((cfg1.win 3).blk t).view.read (Elt Ideal) (G1 (V c main_v3) (V c main_v1)) := by
  show (cfg1.win 3).cut (grid1.coords t) ((dat1 (F := Ideal) V c).after 3 t) = _
  rw [after1_3]
  unfold out1
  rw [View.canon_unit_zero offsets_zero]
  simp only [View.ld_unit_zero (S := S2048x2048) offsets_zero, View.ld_unit_zero (S := S256x2048) offsets_zero]
  obtain ⟨e0, e1, e2, e3, e4, e5, e6, e7⟩ := index_maps1 t
  funext j
  show k1_pay1 (F := Ideal) (iblk1 V c 0 t) (iblk1 V c 1 t) (iblk1 V c 2 t) j
    = G1 (V c main_v3) (V c main_v1) (((cfg1.win 3).blk t).view.emb j)
  have hj0 : (j 0).val < 2048 := (j 0).isLt
  have hj1 : (j 1).val < 256 := (j 1).isLt
  refine point1 (iblk1 V c 0 t) (iblk1 V c 1 t) (iblk1 V c 2 t) (V c main_v3) (V c main_v1) j _
    (fun k => ?_) (fun k => ?_) (fun k => ?_)
  · show V c main_v3 (((cfg1.win 0).blk t).view.emb (ix2 (j 0 : Fin 2048) k)) = V c main_v3 _
    refine congrArg (V c main_v3) (funext fun a => Fin.ext ?_)
    match a with
    | ⟨0, _⟩ =>
      show win1_0.index t (0 : Fin 2) * 2048 + 1 * (j 0).val = win1_3.index t (0 : Fin 2) * 2048 + 1 * (j 0).val
      omega
    | ⟨1, _⟩ =>
      show win1_0.index t (1 : Fin 2) * 2048 + 1 * k.val = k.val
      omega
  · show V c main_v1 (((cfg1.win 1).blk t).view.emb (ix2 (j 1 : Fin 256) k)) = V c main_v1 _
    refine congrArg (V c main_v1) (funext fun a => Fin.ext ?_)
    match a with
    | ⟨0, _⟩ =>
      show win1_1.index t (0 : Fin 2) * 256 + 1 * (j 1).val = win1_3.index t (1 : Fin 2) * 256 + 1 * (j 1).val
      omega
    | ⟨1, _⟩ =>
      show win1_1.index t (1 : Fin 2) * 2048 + 1 * k.val = k.val
      omega
  · show V c main_v1 (((cfg1.win 2).blk t).view.emb (ix2 (j 1 : Fin 256) k)) = V c main_v1 _
    refine congrArg (V c main_v1) (funext fun a => Fin.ext ?_)
    match a with
    | ⟨0, _⟩ =>
      show win1_2.index t (0 : Fin 2) * 256 + 1 * (j 1).val = win1_3.index t (1 : Fin 2) * 256 + 1 * (j 1).val + 5632
      omega
    | ⟨1, _⟩ =>
      show win1_2.index t (1 : Fin 2) * 2048 + 1 * k.val = k.val
      omega

/-- An index of the gated array is in point `t`'s tile iff each coordinate is in the tile's range on its axis. -/
theorem mem_blk1 (t : Fin cfg1.N) (i : S8192x5632.Idx) :
    i ∈ ((cfg1.win 3).blk t).view.set ↔ ∀ a : Fin 2, win1_3.index t a * S2048x256.size a ≤ (i a).val
      ∧ (i a).val < win1_3.index t a * S2048x256.size a + S2048x256.size a := by
  show i ∈ ((View.whole main_v4).slice (win1_3.rect t)).set ↔ _
  rw [View.set_slice_whole, Rect.mem_set_unit]
  exact Iff.rfl

/-- Every entry of the gated array is in some point's tile: entry (ρ, h) in that of point 22 (ρ / 2048) + h / 256. -/
theorem cover1_all (i : S8192x5632.Idx) :
    ∃ t : Fin cfg1.N, (cfg1.win 3).flush t = true ∧ i ∈ ((cfg1.win 3).blk t).view.set := by
  have hi0 : (i 0).val < 8192 := (i 0).isLt
  have hi1 : (i 1).val < 5632 := (i 1).isLt
  have hN : cfg1.N = 88 := N_1
  let t : Fin cfg1.N := ⟨22 * ((i 0).val / 2048) + (i 1).val / 256, by rw [hN]; omega⟩
  have ht : t.val = 22 * ((i 0).val / 2048) + (i 1).val / 256 := rfl
  obtain ⟨e0, e1, e2, e3, e4, e5, e6, e7⟩ := index_maps1 t
  refine ⟨t, flush1_3 t, ?_⟩
  rw [mem_blk1]
  intro a
  match a with
  | ⟨0, _⟩ =>
    show win1_3.index t (0 : Fin 2) * 2048 ≤ (i 0).val ∧ (i 0).val < win1_3.index t (0 : Fin 2) * 2048 + 2048
    omega
  | ⟨1, _⟩ =>
    show win1_3.index t (1 : Fin 2) * 256 ≤ (i 1).val ∧ (i 1).val < win1_3.index t (1 : Fin 2) * 256 + 256
    omega

/-- The array the second call leaves: the gated products of the quantized activations and the weights it found. -/
theorem final1 (c : Dev nD) : (dat1 (F := Ideal) V c).arrAt 3 cfg1.N = G1 (V c main_v3) (V c main_v1) :=
  (dat1 (F := Ideal) V c).arrAt_eq_of_cover 3 (G1 (V c main_v3) (V c main_v1)) (fun t _ => flushed1_eq V c t) cover1_all

end Cert.KernelIdeal.Hand

end
-- ==== Proof.IdealRun.Final2.lean ====
/-
  From blocks to the whole array, for the third kernel call, on the extended reals.

  At a grid point the call writes one 256 × 256 tile of the output: the products of the 256 normalized and re-quantized
  gated rows of the point's row tile with 256 rows of the second weight matrix. Put together: entry (ρ, d) of the
  array the call leaves is the inner product of the normalized, re-quantized gated ROW ρ with weight row d.
-/
import proofs.«143260_j32478542693202_2_alg».proof.Proof.IdealRun.Region2
import proofs.«143260_j32478542693202_2_alg».proof.Proof.Payloads
import proofs.«143260_j32478542693202_2_alg».proof.Proof.RowSpec
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-block rectangle of a matrix, as a constant function, -/
theorem offsets_zero2 : (![0, 0] : Fin 2 → Nat) = fun _ => 0 := funext fun a => by fin_cases a <;> rfl

/-- and of a vector. -/
theorem offsets_zero1 : (![0] : Fin 1 → Nat) = fun _ => 0 := funext fun a => by fin_cases a; rfl

/-- The array the third call leaves, as a function of the gated array, the normalization weights and the second
    weight matrix: entry (ρ, d) is the inner product of the normalized, re-quantized gated row ρ with weight row d. -/
def G2 (g : S8192x5632.Idx → Elt Ideal .f32) (nw : S5632.Idx → Elt Ideal .f32) (w2 : S2048x5632.Idx → Elt Ideal .bf16) :
    S8192x2048.Idx → Elt Ideal .f32 :=
  fun i => Cert.RowSpec.dot
    (Cert.RowSpec.iq (fun h : Fin 5632 => g (ix2 (i 0 : Fin 8192) h)) (fun h : Fin 5632 => nw (ix1 h)))
    (fun h : Fin 5632 => w2 (ix2 (i 1 : Fin 2048) h))

/-- One entry of one tile: if row `y 0` of the gated block is row `i 0` of the gated array, the weight vector is the
    normalization weights, and row `y 1` of the weight block is row `i 1` of the weight matrix, then the product of the
    re-quantized block with the weight block, at `y`, is the output array at `i`. -/
theorem point2 (x0 : Vec Ideal S256x5632 .f32) (x1 : Vec Ideal S5632 .f32) (x2 : Vec Ideal S256x5632 .bf16)
    (Gt : S8192x5632.Idx → Elt Ideal .f32) (NW : S5632.Idx → Elt Ideal .f32) (W2 : S2048x5632.Idx → Elt Ideal .bf16)
    (y : S256x256.Idx) (i : S8192x2048.Idx)
    (hg : ∀ h : Fin 5632, x0 (ix2 (y 0 : Fin 256) h) = Gt (ix2 (i 0 : Fin 8192) h))
    (hn : ∀ h : Fin 5632, x1 (ix1 h) = NW (ix1 h))
    (hw : ∀ h : Fin 5632, x2 (ix2 (y 1 : Fin 256) h) = W2 (ix2 (i 1 : Fin 2048) h)) :
    k2_pay2 (F := Ideal) (k2_pay1 (F := Ideal) x0 x1) x2 y = G2 Gt NW W2 i := by
  refine (congrArg (k2_pay2 (F := Ideal) (k2_pay1 (F := Ideal) x0 x1) x2) (eq_ix2 y)).trans ?_
  refine (Cert.Payloads.pay_out (k2_pay1 (F := Ideal) x0 x1) x2 (y 0) (y 1)).trans ?_
  have hq : (fun h : Fin 5632 => k2_pay1 (F := Ideal) x0 x1 (ix2 (y 0 : Fin 256) h))
      = Cert.RowSpec.iq (fun h : Fin 5632 => x0 (ix2 (y 0 : Fin 256) h)) (fun h : Fin 5632 => x1 (ix1 h)) :=
    funext fun h => Cert.Payloads.pay_iq x0 x1 (y 0) h
  have hg' : (fun h : Fin 5632 => x0 (ix2 (y 0 : Fin 256) h)) = fun h : Fin 5632 => Gt (ix2 (i 0 : Fin 8192) h) :=
    funext hg
  have hn' : (fun h : Fin 5632 => x1 (ix1 h)) = fun h : Fin 5632 => NW (ix1 h) := funext hn
  have hw' : (fun h : Fin 5632 => x2 (ix2 (y 1 : Fin 256) h)) = fun h : Fin 5632 => W2 (ix2 (i 1 : Fin 2048) h) :=
    funext hw
  show Cert.RowSpec.dot (fun h : Fin 5632 => k2_pay1 (F := Ideal) x0 x1 (ix2 (y 0 : Fin 256) h))
      (fun h : Fin 5632 => x2 (ix2 (y 1 : Fin 256) h))
    = Cert.RowSpec.dot
      (Cert.RowSpec.iq (fun h : Fin 5632 => Gt (ix2 (i 0 : Fin 8192) h)) (fun h : Fin 5632 => NW (ix1 h)))
      (fun h : Fin 5632 => W2 (ix2 (i 1 : Fin 2048) h))
  rw [hq, hg', hn', hw']

/-- The printed index maps of the third call, decided over its 256 points, point `t = 8 i + d`: the gated array at
    row block `i`, the weight vector whole, the weight matrix at row block `d`, the output at tile `(i, d)`. -/
theorem index_maps2 : ∀ t : Fin cfg2.N, win2_0.index t (0 : Fin 2) = t.val / 8 ∧ win2_0.index t (1 : Fin 2) = 0
    ∧ win2_1.index t (0 : Fin 1) = 0
    ∧ win2_2.index t (0 : Fin 2) = t.val % 8 ∧ win2_2.index t (1 : Fin 2) = 0
    ∧ win2_3.index t (0 : Fin 2) = t.val / 8 ∧ win2_3.index t (1 : Fin 2) = t.val % 8 :=
  (by decide +kernel : ∀ t : Fin grid2.N, _)

/-- What point `t` writes back is tile `t` of the output array. -/
theorem flushed2_eq (c : Dev nD) (t : Fin cfg2.N) :
    (dat2 (F := Ideal) V c).flushed 3 t
      = ((cfg2.win 3).blk t).view.read (Elt Ideal) (G2 (V c main_v4) (V c main_arg3) (V c main_v2)) := by
  show (cfg2.win 3).cut (grid2.coords t) ((dat2 (F := Ideal) V c).after 3 t) = _
  rw [after2_3]
  unfold outOf
  rw [View.canon_unit_zero offsets_zero2]
  unfold scAt scOf
  rw [View.canon_unit_zero offsets_zero2]
  simp only [View.ld_unit_zero (S := S256x5632) offsets_zero2, View.ld_unit_zero (S := S5632) offsets_zero1]
  obtain ⟨e0, e1, e2, e3, e4, e5, e6⟩ := index_maps2 t
  funext j
  show k2_pay2 (F := Ideal) (k2_pay1 (F := Ideal) (iblk2 V c 0 t) (iblk2 V c 1 t)) (iblk2 V c 2 t) j
    = G2 (V c main_v4) (V c main_arg3) (V c main_v2) (((cfg2.win 3).blk t).view.emb j)
  have hj0 : (j 0).val < 256 := (j 0).isLt
  have hj1 : (j 1).val < 256 := (j 1).isLt
  refine point2 (iblk2 V c 0 t) (iblk2 V c 1 t) (iblk2 V c 2 t) (V c main_v4) (V c main_arg3) (V c main_v2) j _
    (fun h => ?_) (fun h => ?_) (fun h => ?_)
  · show V c main_v4 (((cfg2.win 0).blk t).view.emb (ix2 (j 0 : Fin 256) h)) = V c main_v4 _
    refine congrArg (V c main_v4) (funext fun a => Fin.ext ?_)
    match a with
    | ⟨0, _⟩ =>
      show win2_0.index t (0 : Fin 2) * 256 + 1 * (j 0).val = win2_3.index t (0 : Fin 2) * 256 + 1 * (j 0).val
      omega
    | ⟨1, _⟩ =>
      show win2_0.index t (1 : Fin 2) * 5632 + 1 * h.val = h.val
      omega
  · show V c main_arg3 (((cfg2.win 1).blk t).view.emb (ix1 h)) = V c main_arg3 _
    refine congrArg (V c main_arg3) (funext fun a => Fin.ext ?_)
    match a with
    | ⟨0, _⟩ =>
      show win2_1.index t (0 : Fin 1) * 5632 + 1 * h.val = h.val
      omega
  · show V c main_v2 (((cfg2.win 2).blk t).view.emb (ix2 (j 1 : Fin 256) h)) = V c main_v2 _
    refine congrArg (V c main_v2) (funext fun a => Fin.ext ?_)
    match a with
    | ⟨0, _⟩ =>
      show win2_2.index t (0 : Fin 2) * 256 + 1 * (j 1).val = win2_3.index t (1 : Fin 2) * 256 + 1 * (j 1).val
      omega
    | ⟨1, _⟩ =>
      show win2_2.index t (1 : Fin 2) * 5632 + 1 * h.val = h.val
      omega

/-- An index of the output array is in point `t`'s tile iff each coordinate is in the tile's range on its axis. -/
theorem mem_blk2 (t : Fin cfg2.N) (i : S8192x2048.Idx) :
    i ∈ ((cfg2.win 3).blk t).view.set ↔ ∀ a : Fin 2, win2_3.index t a * S256x256.size a ≤ (i a).val
      ∧ (i a).val < win2_3.index t a * S256x256.size a + S256x256.size a := by
  show i ∈ ((View.whole main_v5).slice (win2_3.rect t)).set ↔ _
  rw [View.set_slice_whole, Rect.mem_set_unit]
  exact Iff.rfl

/-- Every entry of the output array is in some point's tile: entry (ρ, d) in that of point 8 (ρ / 256) + d / 256. -/
theorem cover2_all (i : S8192x2048.Idx) :
    ∃ t : Fin cfg2.N, (cfg2.win 3).flush t = true ∧ i ∈ ((cfg2.win 3).blk t).view.set := by
  have hi0 : (i 0).val < 8192 := (i 0).isLt
  have hi1 : (i 1).val < 2048 := (i 1).isLt
  have hN : cfg2.N = 256 := N_2
  let t : Fin cfg2.N := ⟨8 * ((i 0).val / 256) + (i 1).val / 256, by rw [hN]; omega⟩
  have ht : t.val = 8 * ((i 0).val / 256) + (i 1).val / 256 := rfl
  obtain ⟨e0, e1, e2, e3, e4, e5, e6⟩ := index_maps2 t
  refine ⟨t, flush2_3 t, ?_⟩
  rw [mem_blk2]
  intro a
  match a with
  | ⟨0, _⟩ =>
    show win2_3.index t (0 : Fin 2) * 256 ≤ (i 0).val ∧ (i 0).val < win2_3.index t (0 : Fin 2) * 256 + 256
    omega
  | ⟨1, _⟩ =>
    show win2_3.index t (1 : Fin 2) * 256 ≤ (i 1).val ∧ (i 1).val < win2_3.index t (1 : Fin 2) * 256 + 256
    omega

/-- The array the third call leaves: for each row of the gated array it found, normalized and re-quantized, its inner
    products with the rows of the second weight matrix. -/
theorem final2 (c : Dev nD) :
    (dat2 (F := Ideal) V c).arrAt 3 cfg2.N = G2 (V c main_v4) (V c main_arg3) (V c main_v2) :=
  (dat2 (F := Ideal) V c).arrAt_eq_of_cover 3 (G2 (V c main_v4) (V c main_arg3) (V c main_v2))
    (fun t _ => flushed2_eq V c t) cover2_all

end Cert.KernelIdeal.Hand

end
-- ==== Proof.IdealRun.RowsOut.lean ====
/-
  The three calls composed, on one activation row. The first call's array is a function of the activations row by
  row, the second's of the first's and the first weight matrix row by row, the third's of the second's, the
  normalization weights and the second weight matrix row by row: so entry (r, d) of the last array is the whole map of
  Cert.RowSpec applied to row r of the activations.
-/
import proofs.«143260_j32478542693202_2_alg».proof.Proof.IdealRun.Final01
import proofs.«143260_j32478542693202_2_alg».proof.Proof.IdealRun.Final2
import proofs.«143260_j32478542693202_2_alg».proof.Proof.RowSpec

noncomputable section

namespace Cert.KernelIdeal.Hand

open Idealize.ShloMosaic Idealize.ShloMosaic.ValueIdx
open Cert.KernelIdeal

/-- Entry (r, d) of the three closed forms composed is the row map of row r of the activations, at d: both sides are
    the same nest of quantization, inner products, gating and normalization on that row. -/
theorem rows_out (x2 : S8192x2048.Idx → Elt Ideal .f32) (w13 : S11264x2048.Idx → Elt Ideal .bf16)
    (w2 : S2048x5632.Idx → Elt Ideal .bf16) (nw : S5632.Idx → Elt Ideal .f32) (r : Fin 8192) (d : Fin 2048) :
    G2 (G1 (G0 x2) w13) nw w2 (ix2 r d)
      = Cert.RowSpec.rowOut (fun k : Fin 2048 => x2 (ix2 r k)) (fun (f : Fin 11264) (k : Fin 2048) => w13 (ix2 f k))
          (fun (e : Fin 2048) (h : Fin 5632) => w2 (ix2 e h)) (fun h : Fin 5632 => nw (ix1 h)) d :=
  rfl

end Cert.KernelIdeal.Hand

end
-- ==== Proof.OutSpec.lean ====
/-
  The whole result array as a function of the four argument arrays: entry (b, s, d) is the row function of the
  activation row (b, s).
-/
import proofs.«143260_j32478542693202_2_alg».proof.Proof.RowSpec

noncomputable section

namespace Cert.RowSpec

open Idealize.ShloMosaic Idealize.ShloMosaic.ValueIdx

/-- The result array of either program, at the extended reals. -/
def wholeOut (x : (⟨3, ![4, 2048, 2048]⟩ : Shape).Idx → Ideal .f32) (w13 : (⟨2, ![11264, 2048]⟩ : Shape).Idx → Ideal .f32)
    (w2 : (⟨2, ![2048, 5632]⟩ : Shape).Idx → Ideal .f32) (nw : (⟨1, ![5632]⟩ : Shape).Idx → Ideal .f32) :
    (⟨3, ![4, 2048, 2048]⟩ : Shape).Idx → Ideal .f32 :=
  fun i => rowOut (fun k : Fin 2048 => x (ix3 (i 0 : Fin 4) (i 1 : Fin 2048) k)) (fun (f : Fin 11264) (k : Fin 2048) => w13 (ix2 f k))
    (fun (e : Fin 2048) (h : Fin 5632) => w2 (ix2 e h)) (fun h : Fin 5632 => nw (ix1 h)) (i 2 : Fin 2048)

theorem wholeOut_apply (x : (⟨3, ![4, 2048, 2048]⟩ : Shape).Idx → Ideal .f32) (w13 : (⟨2, ![11264, 2048]⟩ : Shape).Idx → Ideal .f32)
    (w2 : (⟨2, ![2048, 5632]⟩ : Shape).Idx → Ideal .f32) (nw : (⟨1, ![5632]⟩ : Shape).Idx → Ideal .f32)
    (b : Fin 4) (s : Fin 2048) (d : Fin 2048) :
    wholeOut x w13 w2 nw (ix3 b s d)
      = rowOut (fun k : Fin 2048 => x (ix3 b s k)) (fun (f : Fin 11264) (k : Fin 2048) => w13 (ix2 f k))
          (fun (e : Fin 2048) (h : Fin 5632) => w2 (ix2 e h)) (fun h : Fin 5632 => nw (ix1 h)) d := rfl

end Cert.RowSpec

end
-- ==== Proof.LibFlatten.lean ====
/-
  Merging the two leading axes of a three-axis array and splitting them again, read at an index. An `[a, b, c]` array
  cast to `[a·b, c]` holds at row `i·b + j` the rows `(i, j)`; an `[n, c]` array with `n = a·b` cast to `[a, b, c]`
  holds at `(i, j)` its row `i·b + j`. General in the extents.
-/
import Idealize.ShloMosaic.Lib.Pipeline.Value
import Idealize.ShloMosaic.Lib.ValueIdx

noncomputable section

namespace Cert.LibFlatten

open Idealize.ShloMosaic Idealize.ShloMosaic.ValueIdx

variable {α : Type}

/-- An `[a, b, c]` array cast to `[n, c]` (with `n = a·b`) reads, at `(r, k)` with `r = i·b + j`, the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_two, Shape.rowMajor_val_three]
    show (i.val * b + j.val) * c + k.val = r.val * c + k.val
    rw [hr])

/-- An `[n, c]` array (with `n = a·b`) cast to `[a, b, c]` reads, at `(i, j, k)`, the operand at `(r, k)` with `r = i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Cert.LibFlatten

end
-- ==== Proof.IdealRun.KernelValue.lean ====
/-
  The kernel program's result, on the extended reals, as a function of its four argument arrays.

  The program is a chain: the activations are flattened to rows and the two weight matrices narrowed (the identity on
  the extended reals); three calls follow, each leaving an array that is a function, row by row, of arrays written
  before it; the last array is split back into batches. Composed: entry (b, s, d) of the result is the row map of
  Cert.RowSpec applied to the activation row (b, s), at d.
-/
import proofs.«143260_j32478542693202_2_alg».proof.Proof.IdealRun.ArgsKept
import proofs.«143260_j32478542693202_2_alg».proof.Proof.IdealRun.Final01
import proofs.«143260_j32478542693202_2_alg».proof.Proof.IdealRun.Final2
import proofs.«143260_j32478542693202_2_alg».proof.Proof.IdealRun.RowsOut
import proofs.«143260_j32478542693202_2_alg».proof.Proof.OutSpec
import proofs.«143260_j32478542693202_2_alg».proof.Proof.LibFlatten
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem
open Idealize.ShloMosaic.StableHlo
open Idealize.ShloMosaic.Pipeline (Dat)
open Cert.KernelIdeal Cert.KernelIdeal.Gen

/-! ## The arrays' functions composed, split back into batches -/

/-- The three calls' functions composed on the flattened activations, then split into batches, is the whole map: entry
    (b, s, d) of the split array is entry (2048 b + s, d) of the flat one, whose row 2048 b + s is the row map of row
    2048 b + s of the flattened activations, which is the activation row (b, s). -/
theorem split_rows (X : S4x2048x2048.Idx → Elt Ideal .f32) (w13 : S11264x2048.Idx → Elt Ideal .bf16)
    (w2 : S2048x5632.Idx → Elt Ideal .bf16) (nw : S5632.Idx → Elt Ideal .f32) :
    shapeCast S4x2048x2048
        (G2 (G1 (G0 (shapeCast S8192x2048 X shapeCasts_S4x2048x2048_S8192x2048)) w13) nw w2)
        shapeCasts_S8192x2048_S4x2048x2048
      = Cert.RowSpec.wholeOut X w13 w2 nw := by
  funext i
  have hb : (i 0).val < 4 := (i 0).isLt
  have hs : (i 1).val < 2048 := (i 1).isLt
  have hr : (⟨(i 0).val * 2048 + (i 1).val, by omega⟩ : Fin 8192).val = (i 0).val * 2048 + (i 1).val := rfl
  refine (congrArg (shapeCast S4x2048x2048
      (G2 (G1 (G0 (shapeCast S8192x2048 X shapeCasts_S4x2048x2048_S8192x2048)) w13) nw w2)
      shapeCasts_S8192x2048_S4x2048x2048) (eq_ix3 i)).trans ?_
  refine (Cert.LibFlatten.shapeCast_nc_abc_apply
      (G2 (G1 (G0 (shapeCast S8192x2048 X shapeCasts_S4x2048x2048_S8192x2048)) w13) nw w2)
      shapeCasts_S8192x2048_S4x2048x2048 (i 0 : Fin 4) (i 1 : Fin 2048) (i 2 : Fin 2048)
      (⟨(i 0).val * 2048 + (i 1).val, by omega⟩ : Fin 8192) hr).trans ?_
  refine (rows_out (shapeCast S8192x2048 X shapeCasts_S4x2048x2048_S8192x2048) w13 w2 nw
      (⟨(i 0).val * 2048 + (i 1).val, by omega⟩ : Fin 8192) (i 2 : Fin 2048)).trans ?_
  have hrow : (fun k : Fin 2048 => shapeCast S8192x2048 X shapeCasts_S4x2048x2048_S8192x2048
        (ix2 (⟨(i 0).val * 2048 + (i 1).val, by omega⟩ : Fin 8192) k))
      = fun k : Fin 2048 => X (ix3 (i 0 : Fin 4) (i 1 : Fin 2048) k) :=
    funext fun k => Cert.LibFlatten.shapeCast_abc_nc_apply X shapeCasts_S4x2048x2048_S8192x2048
      (i 0 : Fin 4) (i 1 : Fin 2048) k (⟨(i 0).val * 2048 + (i 1).val, by omega⟩ : Fin 8192) hr
  rw [hrow]
  rfl

/-! ## The buffers at each boundary -/

variable (m : (ℓ : Loc nD τ sig) → Buf (Elt Ideal) ℓ) (ρ : Dev nD → PrngReg)

/-- At the first call's entry the flattened activations are the activations cast to rows, -/
theorem U1_v0 (c : Dev nD) :
    (U1 (F := Ideal) m ρ c main_v0 : S8192x2048.Idx → Elt Ideal .f32) = (shapeCast S8192x2048 (m ((c : Thread nD τ).loc main_arg0) : S4x2048x2048.Idx → Elt Ideal .f32) shapeCasts_S4x2048x2048_S8192x2048) := by
  show StableHlo.after hostOps0 (B0 (F := Ideal) m ρ c) (Proc.devRef .tc main_v0) = _
  after_results
  rfl

/-- the narrowed first weight matrix is the first weight matrix (narrowing is the identity on the extended reals), -/
theorem U1_v1 (c : Dev nD) :
    (U1 (F := Ideal) m ρ c main_v1 : S11264x2048.Idx → Elt Ideal .bf16) = (m ((c : Thread nD τ).loc main_arg1) : S11264x2048.Idx → Elt Ideal .f32) := by
  show StableHlo.after hostOps0 (B0 (F := Ideal) m ρ c) (Proc.devRef .tc main_v1) = _
  after_results
  rfl

/-- and the narrowed second weight matrix the second. -/
theorem U1_v2 (c : Dev nD) :
    (U1 (F := Ideal) m ρ c main_v2 : S2048x5632.Idx → Elt Ideal .bf16) = (m ((c : Thread nD τ).loc main_arg2) : S2048x5632.Idx → Elt Ideal .f32) := by
  show StableHlo.after hostOps0 (B0 (F := Ideal) m ρ c) (Proc.devRef .tc main_v2) = _
  after_results
  rfl

/-- The normalization weights there are as launched: no host operation writes them. -/
theorem U1_arg3 (c : Dev nD) : (U1 (F := Ideal) m ρ c main_arg3 : S5632.Idx → Elt Ideal .f32) = (m ((c : Thread nD τ).loc main_arg3) : S5632.Idx → Elt Ideal .f32) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))) : B1 (F := Ideal) m ρ c (Proc.devRef .tc main_arg3) = B0 (F := Ideal) m ρ c (Proc.devRef .tc main_arg3)).trans rfl

/-- After the first call the quantized activations are the row function of the flattened activations; -/
theorem U2_v3 (c : Dev nD) : U2 (F := Ideal) m ρ c main_v3 = G0 (U1 (F := Ideal) m ρ c main_v0) :=
  (B2_arr m ρ c 1).trans (final0 (U1 m ρ) c)

/-- the other buffers it does not touch. -/
theorem U2_v1 (c : Dev nD) : U2 (F := Ideal) m ρ c main_v1 = U1 (F := Ideal) m ρ c main_v1 := B2_of_ne m ρ c main_v1 (by decide)
theorem U2_v2 (c : Dev nD) : U2 (F := Ideal) m ρ c main_v2 = U1 (F := Ideal) m ρ c main_v2 := B2_of_ne m ρ c main_v2 (by decide)
theorem U2_arg3 (c : Dev nD) : U2 (F := Ideal) m ρ c main_arg3 = U1 (F := Ideal) m ρ c main_arg3 :=
  B2_of_ne m ρ c main_arg3 (by decide)

/-- After the second call the gated array is the row function of the quantized activations and the weights; -/
theorem U3_v4 (c : Dev nD) :
    U3 (F := Ideal) m ρ c main_v4 = G1 (U2 (F := Ideal) m ρ c main_v3) (U2 (F := Ideal) m ρ c main_v1) :=
  (B3_v4 m ρ c).trans (final1 (U2 m ρ) c)

/-- the other buffers it does not touch. -/
theorem U3_v2 (c : Dev nD) : U3 (F := Ideal) m ρ c main_v2 = U2 (F := Ideal) m ρ c main_v2 := B3_of_ne m ρ c main_v2 (by decide)
theorem U3_arg3 (c : Dev nD) : U3 (F := Ideal) m ρ c main_arg3 = U2 (F := Ideal) m ρ c main_arg3 :=
  B3_of_ne m ρ c main_arg3 (by decide)

/-- After the third call the flat result is the row function of the gated array, the normalization weights and the
    second weight matrix. -/
theorem U4_v5 (c : Dev nD) :
    U4 (F := Ideal) m ρ c main_v5
      = G2 (U3 (F := Ideal) m ρ c main_v4) (U3 (F := Ideal) m ρ c main_arg3) (U3 (F := Ideal) m ρ c main_v2) :=
  (B4_arr m ρ c 3).trans (final2 (U3 m ρ) c)

/-- The gated array, from the launch memory. -/
theorem U3_v4_closed (c : Dev nD) :
    U3 (F := Ideal) m ρ c main_v4 = G1 (G0 (shapeCast S8192x2048 (m ((c : Thread nD τ).loc main_arg0) : S4x2048x2048.Idx → Elt Ideal .f32) shapeCasts_S4x2048x2048_S8192x2048)) (m ((c : Thread nD τ).loc main_arg1) : S11264x2048.Idx → Elt Ideal .f32) := by
  have e3 : U2 (F := Ideal) m ρ c main_v3 = G0 (shapeCast S8192x2048 (m ((c : Thread nD τ).loc main_arg0) : S4x2048x2048.Idx → Elt Ideal .f32) shapeCasts_S4x2048x2048_S8192x2048) :=
    (U2_v3 m ρ c).trans (congrArg G0 (U1_v0 m ρ c))
  have e1 : U2 (F := Ideal) m ρ c main_v1 = (m ((c : Thread nD τ).loc main_arg1) : S11264x2048.Idx → Elt Ideal .f32) := (U2_v1 m ρ c).trans (U1_v1 m ρ c)
  exact (U3_v4 m ρ c).trans (by rw [e3, e1])

/-- The flat result, from the launch memory. -/
theorem U4_v5_closed (c : Dev nD) :
    U4 (F := Ideal) m ρ c main_v5 = G2 (G1 (G0 (shapeCast S8192x2048 (m ((c : Thread nD τ).loc main_arg0) : S4x2048x2048.Idx → Elt Ideal .f32) shapeCasts_S4x2048x2048_S8192x2048)) (m ((c : Thread nD τ).loc main_arg1) : S11264x2048.Idx → Elt Ideal .f32)) (m ((c : Thread nD τ).loc main_arg3) : S5632.Idx → Elt Ideal .f32) (m ((c : Thread nD τ).loc main_arg2) : S2048x5632.Idx → Elt Ideal .f32) := by
  have e3 : U3 (F := Ideal) m ρ c main_arg3 = (m ((c : Thread nD τ).loc main_arg3) : S5632.Idx → Elt Ideal .f32) :=
    (U3_arg3 m ρ c).trans ((U2_arg3 m ρ c).trans (U1_arg3 m ρ c))
  have e2 : U3 (F := Ideal) m ρ c main_v2 = (m ((c : Thread nD τ).loc main_arg2) : S2048x5632.Idx → Elt Ideal .f32) :=
    (U3_v2 m ρ c).trans ((U2_v2 m ρ c).trans (U1_v2 m ρ c))
  exact (U4_v5 m ρ c).trans (by rw [U3_v4_closed m ρ c, e3, e2])

/-- At the program's end the result buffer is the flat result split into batches. -/
theorem B5_v6 (c : Dev nD) :
    (B5 (F := Ideal) m ρ c (Proc.devRef .tc main_v6) : S4x2048x2048.Idx → Elt Ideal .f32)
      = shapeCast S4x2048x2048 (U4 (F := Ideal) m ρ c main_v5 : S8192x2048.Idx → Elt Ideal .f32)
          shapeCasts_S8192x2048_S4x2048x2048 := by
  show StableHlo.after hostOps3 (B4 (F := Ideal) m ρ c) (Proc.devRef .tc main_v6) = _
  after_results
  rfl

/-- THE RESULT: at the program's end the result buffer holds the whole map of the four argument arrays as launched. -/
theorem B5_result (c : Dev nD) :
    (B5 (F := Ideal) m ρ c (Proc.devRef .tc main_v6) : S4x2048x2048.Idx → Elt Ideal .f32)
      = Cert.RowSpec.wholeOut (m ((c : Thread nD τ).loc main_arg0) : S4x2048x2048.Idx → Elt Ideal .f32) (m ((c : Thread nD τ).loc main_arg1) : S11264x2048.Idx → Elt Ideal .f32) (m ((c : Thread nD τ).loc main_arg2) : S2048x5632.Idx → Elt Ideal .f32) (m ((c : Thread nD τ).loc main_arg3) : S5632.Idx → Elt Ideal .f32) := by
  refine (B5_v6 m ρ c).trans ?_
  rw [U4_v5_closed m ρ c]
  exact split_rows (m ((c : Thread nD τ).loc main_arg0) : S4x2048x2048.Idx → Elt Ideal .f32) (m ((c : Thread nD τ).loc main_arg1) : S11264x2048.Idx → Elt Ideal .f32) (m ((c : Thread nD τ).loc main_arg2) : S2048x5632.Idx → Elt Ideal .f32) (m ((c : Thread nD τ).loc main_arg3) : S5632.Idx → Elt Ideal .f32)

end Cert.KernelIdeal.Hand

end
-- ==== Proof.LibAfterAt.lean ====
/-
  A straight line of host operations in single-assignment form, read one operation at a time. When every operation
  writes one buffer, no buffer is written twice, and every operand is written before it is read, the contents after
  the WHOLE line satisfy one equation per operation: the buffer it writes holds its function of what its operand
  buffers hold. The side conditions are stated over the list of written references, place by place, so that each is a
  decidable statement about references. General in the signature, the values and the operations.
-/
import Idealize.ShloMosaic.Lib.StableHlo.Run

noncomputable section

namespace Cert.LibAfterAt

open Idealize.ShloMosaic Idealize.ShloMosaic.StableHlo

variable {τ : Topo} {sig : RefSig} {Val : EltTy → Type}

/-- Two lines one after the other: the second read from the contents the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Place by place, the operation writes at most the buffer the reference at that place names. -/
abbrev Writes (ops : List (HloOp τ sig Val)) (ws : List (Ref sig .tc)) : Prop :=
  List.Forall₂ (fun op w => op.writes ⊆ {Proc.devRef (τ := τ) .tc w}) ops ws

/-- Every operation of the line writes inside the listed references. -/
theorem Writes.forall_sub : ∀ {ops : List (HloOp τ sig Val)} {ws : List (Ref sig .tc)}, Writes ops ws →
    ∀ op ∈ ops, op.writes ⊆ (ws.map (Proc.devRef (τ := τ) .tc)).toFinset
  | _, _, .nil, _, h => nomatch h
  | _, _, .cons (b := b) hab t, op, h => by
    rcases List.mem_cons.mp h with rfl | h
    · intro x hx
      have hx' := Finset.mem_singleton.mp (hab hx)
      subst hx'
      simp only [List.map_cons, List.toFinset_cons, Finset.mem_insert, true_or]
    · intro x hx
      have := Writes.forall_sub t op h hx
      simp only [List.map_cons, List.toFinset_cons, Finset.mem_insert]
      exact Or.inr this

/-- The two lists of a line and of what it writes, joined. -/
theorem Writes.append {l₁ l₂ : List (HloOp τ sig Val)} {w₁ w₂ : List (Ref sig .tc)} (h₁ : Writes l₁ w₁)
    (h₂ : Writes l₂ w₂) : Writes (l₁ ++ l₂) (w₁ ++ w₂) := List.rel_append h₁ h₂

/-- A reference that no operation from place `k` on writes holds, after the whole line, what it held after the first
    `k` operations. -/
theorem after_eq_take {ops : List (HloOp τ sig Val)} {ws : List (Ref sig .tc)} (h : Writes ops ws) (k : Nat)
    (V : Valuation τ sig Val) {r : Ref sig .tc} (hr : r ∉ ws.drop k) :
    after ops V (Proc.devRef .tc r) = after (ops.take k) V (Proc.devRef .tc r) := by
  conv_lhs => rw [← List.take_append_drop k ops]
  rw [after_append]
  exact after_of_writes_sub _ _ (List.forall_iff_forall_mem.mpr (Writes.forall_sub (List.forall₂_drop k h))) hr

/-- A reference that no operation after place `k` writes holds, after the whole line, what the operation at place `k`
    leaves there. -/
theorem after_at {ops : List (HloOp τ sig Val)} {ws : List (Ref sig .tc)} (h : Writes ops ws) (k : Nat)
    {op : HloOp τ sig Val} (hk : ops[k]? = some op) (V : Valuation τ sig Val) {r : Ref sig .tc}
    (hr : r ∉ ws.drop (k + 1)) :
    after ops V (Proc.devRef .tc r) = op.result (after (ops.take k) V) (Proc.devRef .tc r) := by
  rw [after_eq_take h (k + 1) V hr]
  have e : ops.take (k + 1) = ops.take k ++ [op] := by rw [List.take_succ, hk]; rfl
  rw [e, after_append]; rfl

/-- A reference the line never writes keeps what it held. -/
theorem after_of_not_mem {ops : List (HloOp τ sig Val)} {ws : List (Ref sig .tc)} (h : Writes ops ws)
    (V : Valuation τ sig Val) {r : Ref sig .tc} (hr : r ∉ ws) :
    after ops V (Proc.devRef .tc r) = V (Proc.devRef .tc r) :=
  after_of_writes_sub _ _ (List.forall_iff_forall_mem.mpr (Writes.forall_sub h)) hr

section Kinds

variable {ops : List (HloOp τ sig Val)} {ws : List (Ref sig .tc)}

/-- The operation at place `k` has no operand: its buffer holds its value. -/
theorem nullary_at (h : Writes ops ws) (k : Nat) (y : Ref sig .tc) (v : y.ty.Contents Val) (hy)
    (hk : ops[k]? = some (nullary y v hy)) (V : Valuation τ sig Val) (hy' : y ∉ ws.drop (k + 1)) :
    after ops V (Proc.devRef .tc y) = v := by
  rw [after_at h k hk V hy', nullary_result]

/-- The operation at place `k` has one operand, written before place `k` or never. -/
theorem unary_at (h : Writes ops ws) (k : Nat) (x y : Ref sig .tc) (f : x.ty.Contents Val → y.ty.Contents Val) (hx hy)
    (hk : ops[k]? = some (unary x y f hx hy)) (V : Valuation τ sig Val) (hy' : y ∉ ws.drop (k + 1))
    (hx' : x ∉ ws.drop k) :
    after ops V (Proc.devRef .tc y) = f (after ops V (Proc.devRef .tc x)) := by
  rw [after_at h k hk V hy', unary_result, ← after_eq_take h k V hx']

/-- The operation at place `k` has two operands. -/
theorem binary_at (h : Writes ops ws) (k : Nat) (a b y : Ref sig .tc) (f : a.ty.Contents Val → b.ty.Contents Val → y.ty.Contents Val) (ha hb hy)
    (hk : ops[k]? = some (binary a b y f ha hb hy)) (V : Valuation τ sig Val) (hy' : y ∉ ws.drop (k + 1))
    (ha' : a ∉ ws.drop k) (hb' : b ∉ ws.drop k) :
    after ops V (Proc.devRef .tc y) = f (after ops V (Proc.devRef .tc a)) (after ops V (Proc.devRef .tc b)) := by
  rw [after_at h k hk V hy', binary_result, ← after_eq_take h k V ha', ← after_eq_take h k V hb']

/-- The operation at place `k` has three operands. -/
theorem ternary_at (h : Writes ops ws) (k : Nat) (c a b y : Ref sig .tc)
    (f : c.ty.Contents Val → a.ty.Contents Val → b.ty.Contents Val → y.ty.Contents Val) (hc ha hb hy)
    (hk : ops[k]? = some (ternary c a b y f hc ha hb hy)) (V : Valuation τ sig Val) (hy' : y ∉ ws.drop (k + 1))
    (hc' : c ∉ ws.drop k) (ha' : a ∉ ws.drop k) (hb' : b ∉ ws.drop k) :
    after ops V (Proc.devRef .tc y)
      = f (after ops V (Proc.devRef .tc c)) (after ops V (Proc.devRef .tc a)) (after ops V (Proc.devRef .tc b)) := by
  rw [after_at h k hk V hy', ternary_result, ← after_eq_take h k V hc', ← after_eq_take h k V ha',
    ← after_eq_take h k V hb']

/-- The operation at place `k` is a change of shape. -/
theorem reshape_at (h : Writes ops ws) (k : Nat) (x y : Ref sig .tc) (he hn hx hy)
    (hk : ops[k]? = some (reshape (Val := Val) x y he hn hx hy)) (V : Valuation τ sig Val)
    (hy' : y ∉ ws.drop (k + 1)) (hx' : x ∉ ws.drop k) :
    after ops V (Proc.devRef .tc y)
      = fun i => he ▸ shapeCast y.ty.shape (after ops V (Proc.devRef .tc x)) hn i := by
  rw [after_at h k hk V hy', reshape_result, ← after_eq_take h k V hx']

/-- The operation at place `k` reads a literal family of three operands. -/
theorem nary3_at (h : Writes ops ws) (k : Nat) (x a b y : Ref sig .tc)
    (f : ((j : Fin 3) → ((![x, a, b] : Fin 3 → Ref sig .tc) j).ty.Contents Val) → y.ty.Contents Val) (hxs hy)
    (hk : ops[k]? = some (nary ![x, a, b] y f hxs hy)) (V : Valuation τ sig Val) (hy' : y ∉ ws.drop (k + 1))
    (hx' : x ∉ ws.drop k) (ha' : a ∉ ws.drop k) (hb' : b ∉ ws.drop k) :
    after ops V (Proc.devRef .tc y)
      = f (Fin.cons (after ops V (Proc.devRef .tc x)) (Fin.cons (after ops V (Proc.devRef .tc a))
          (Fin.cons (after ops V (Proc.devRef .tc b)) (fun i => i.elim0)))) := by
  rw [after_at h k hk V hy', nary_result]
  congr 1; funext j; fin_cases j
  · exact (after_eq_take h k V hx').symm
  · exact (after_eq_take h k V ha').symm
  · exact (after_eq_take h k V hb').symm

end Kinds

end Cert.LibAfterAt

end
-- ==== Proof.RefRun.lean ====
/-
  The reference program run as a straight line of host operations. Every weakly fair execution terminates with each
  buffer at the fold of the operations over the launch contents; since each operation writes one buffer, no buffer is
  written twice and every operand is written before it is read, the contents after the whole line satisfy one equation
  per operation: the buffer it writes holds its function of what its operand buffers hold.
-/
import proofs.«143260_j32478542693202_2_alg».proof.Proof.Gen.ReferenceIdeal
import proofs.«143260_j32478542693202_2_alg».proof.Proof.LibAfterAt
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 73 operations, in order (a called function's operations stand in its call's place). -/
abbrev ops : List (HloOp τ sig (Elt F)) :=
  [ unary main_arg0 main_v0 (Host.absf : (⟨S4x2048x2048, .f32⟩ : BufTy).Contents (Elt F) → (⟨S4x2048x2048, .f32⟩ : BufTy).Contents (Elt F)),
    nullary main_cst (constant S_ .f32 0xFF800000#32),
    binary main_v0 main_cst main_v1 ((fun x v => Host.reduce FloatOps.maximumf x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)),
    unary main_v1 main_v2 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_0 (constant S_ .f32 0x3727C5AC#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S4x2048x1, .f32⟩) main_call0_v1) (broadcastInDim S4x2048x1 ![] bcast_S_S4x2048x1),
    TRef.binary (TRef.of (T := ⟨S4x2048x1, .f32⟩) main_call0_v1) (TRef.of (T := ⟨S4x2048x1, .f32⟩) main_v2) (TRef.of (T := ⟨S4x2048x1, .f32⟩) main_v3) maximumf,
    nullary main_cst_1 (constant S_ .f32 0x42FE0000#32),
    unary main_cst_1 main_v4 (broadcastInDim S4x2048x1 ![] bcast_S_S4x2048x1 : (⟨S_, .f32⟩ : BufTy).Contents (Elt F) → (⟨S4x2048x1, .f32⟩ : BufTy).Contents (Elt F)),
    binary main_v4 main_v3 main_v5 (Host.divf : (⟨S4x2048x1, .f32⟩ : BufTy).Contents (Elt F) → (⟨S4x2048x1, .f32⟩ : BufTy).Contents (Elt F) → (⟨S4x2048x1, .f32⟩ : BufTy).Contents (Elt F)),
    unary main_v5 main_v6 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_arg0 main_v6 main_v7 (mulf : (⟨S4x2048x2048, .f32⟩ : BufTy).Contents (Elt F) → (⟨S4x2048x2048, .f32⟩ : BufTy).Contents (Elt F) → (⟨S4x2048x2048, .f32⟩ : BufTy).Contents (Elt F)),
    TRef.unary (TRef.of (T := ⟨S4x2048x2048, .f32⟩) main_v7) (TRef.of (T := ⟨S4x2048x2048, .f32⟩) main_v8) Host.roundeven,
    nullary main_cst_2 (constant S_ .f32 0xC3000000#32),
    nullary main_cst_3 (constant S_ .f32 0x42FE0000#32),
    TRef.unary (TRef.of (T := ⟨S_, .f32⟩) main_cst_2) (TRef.of (T := ⟨S_, .f32⟩) main_call2_v0) id,
    TRef.unary (TRef.of (T := ⟨S_, .f32⟩) main_call2_v0) (TRef.of (T := ⟨S4x2048x2048, .f32⟩) main_call2_v1) (broadcastInDim S4x2048x2048 ![] bcast_S_S4x2048x2048),
    TRef.binary (TRef.of (T := ⟨S4x2048x2048, .f32⟩) main_call2_v1) (TRef.of (T := ⟨S4x2048x2048, .f32⟩) main_v8) (TRef.of (T := ⟨S4x2048x2048, .f32⟩) main_call2_v2) maximumf,
    TRef.unary (TRef.of (T := ⟨S_, .f32⟩) main_cst_3) (TRef.of (T := ⟨S_, .f32⟩) main_call2_v3) id,
    TRef.unary (TRef.of (T := ⟨S_, .f32⟩) main_call2_v3) (TRef.of (T := ⟨S4x2048x2048, .f32⟩) main_call2_v4) (broadcastInDim S4x2048x2048 ![] bcast_S_S4x2048x2048),
    TRef.binary (TRef.of (T := ⟨S4x2048x2048, .f32⟩) main_call2_v4) (TRef.of (T := ⟨S4x2048x2048, .f32⟩) main_call2_v2) (TRef.of (T := ⟨S4x2048x2048, .f32⟩) main_v9) minimumf,
    unary main_v5 main_v10 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    binary main_v9 main_v10 main_v11 (Host.divf : (⟨S4x2048x2048, .f32⟩ : BufTy).Contents (Elt F) → (⟨S4x2048x2048, .f32⟩ : BufTy).Contents (Elt F) → (⟨S4x2048x2048, .f32⟩ : BufTy).Contents (Elt F)),
    binary main_v11 main_arg1 main_v12 ((fun l r => Host.dotGeneral dot_S4x2048x2048_S11264x2048_S4x2048x11264_2_1_01_0_n_n none l r) : (⟨S4x2048x2048, .f32⟩ : BufTy).Contents (Elt F) → (⟨S11264x2048, .f32⟩ : BufTy).Contents (Elt F) → (⟨S4x2048x11264, .f32⟩ : BufTy).Contents (Elt F)),
    unary main_v12 main_v13 ((extractStridedSlice S4x2048x5632 ![0, 0, 0] · slices_S4x2048x11264_S4x2048x5632_0_0_0) : (⟨S4x2048x11264, .f32⟩ : BufTy).Contents (Elt F) → (⟨S4x2048x5632, .f32⟩ : BufTy).Contents (Elt F)),
    unary main_v12 main_v14 ((extractStridedSlice S4x2048x5632 ![0, 0, 5632] · slices_S4x2048x11264_S4x2048x5632_0_0_5632) : (⟨S4x2048x11264, .f32⟩ : BufTy).Contents (Elt F) → (⟨S4x2048x5632, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S4x2048x5632, .f32⟩) main_call3_v0) (broadcastInDim S4x2048x5632 ![] bcast_S_S4x2048x5632),
    TRef.binary (TRef.of (T := ⟨S4x2048x5632, .f32⟩) main_v13) (TRef.of (T := ⟨S4x2048x5632, .f32⟩) main_call3_v0) (TRef.of (T := ⟨S4x2048x5632, .f32⟩) main_v15) maximumf,
    binary main_v15 main_v15 main_v16 (mulf : (⟨S4x2048x5632, .f32⟩ : BufTy).Contents (Elt F) → (⟨S4x2048x5632, .f32⟩ : BufTy).Contents (Elt F) → (⟨S4x2048x5632, .f32⟩ : BufTy).Contents (Elt F)),
    binary main_v16 main_v14 main_v17 (mulf : (⟨S4x2048x5632, .f32⟩ : BufTy).Contents (Elt F) → (⟨S4x2048x5632, .f32⟩ : BufTy).Contents (Elt F) → (⟨S4x2048x5632, .f32⟩ : BufTy).Contents (Elt F)),
    binary main_v17 main_v17 main_v18 (mulf : (⟨S4x2048x5632, .f32⟩ : BufTy).Contents (Elt F) → (⟨S4x2048x5632, .f32⟩ : BufTy).Contents (Elt F) → (⟨S4x2048x5632, .f32⟩ : BufTy).Contents (Elt F)),
    nullary main_cst_4 (constant S_ .f32 0x00000000#32),
    binary main_v18 main_cst_4 main_v19 ((fun x v => Host.reduceAdd x v reducesTo_S4x2048x5632_S4x2048_d2 h_S_) : (⟨S4x2048x5632, .f32⟩ : BufTy).Contents (Elt F) → (⟨S_, .f32⟩ : BufTy).Contents (Elt F) → (⟨S4x2048, .f32⟩ : BufTy).Contents (Elt F)),
    unary main_v19 main_v20 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_5 (constant S_ .f32 0x45B00000#32),
    unary main_cst_5 main_v21 (broadcastInDim S4x2048x1 ![] bcast_S_S4x2048x1 : (⟨S_, .f32⟩ : BufTy).Contents (Elt F) → (⟨S4x2048x1, .f32⟩ : BufTy).Contents (Elt F)),
    binary main_v20 main_v21 main_v22 (Host.divf : (⟨S4x2048x1, .f32⟩ : BufTy).Contents (Elt F) → (⟨S4x2048x1, .f32⟩ : BufTy).Contents (Elt F) → (⟨S4x2048x1, .f32⟩ : BufTy).Contents (Elt F)),
    nullary main_cst_6 (constant S_ .f32 0x3727C5AC#32),
    unary main_cst_6 main_v23 (broadcastInDim S4x2048x1 ![] bcast_S_S4x2048x1 : (⟨S_, .f32⟩ : BufTy).Contents (Elt F) → (⟨S4x2048x1, .f32⟩ : BufTy).Contents (Elt F)),
    binary main_v22 main_v23 main_v24 (addf : (⟨S4x2048x1, .f32⟩ : BufTy).Contents (Elt F) → (⟨S4x2048x1, .f32⟩ : BufTy).Contents (Elt F) → (⟨S4x2048x1, .f32⟩ : BufTy).Contents (Elt F)),
    unary main_v24 main_v25 (Host.rsqrt : (⟨S4x2048x1, .f32⟩ : BufTy).Contents (Elt F) → (⟨S4x2048x1, .f32⟩ : BufTy).Contents (Elt F)),
    unary main_v25 main_v26 (broadcastInDim S4x2048x5632 ![0, 1, 2] bcast_S4x2048x1_S4x2048x5632_0_1_2 : (⟨S4x2048x1, .f32⟩ : BufTy).Contents (Elt F) → (⟨S4x2048x5632, .f32⟩ : BufTy).Contents (Elt F)),
    binary main_v17 main_v26 main_v27 (mulf : (⟨S4x2048x5632, .f32⟩ : BufTy).Contents (Elt F) → (⟨S4x2048x5632, .f32⟩ : BufTy).Contents (Elt F) → (⟨S4x2048x5632, .f32⟩ : BufTy).Contents (Elt F)),
    unary main_arg3 main_v28 (broadcastInDim S1x1x5632 ![2] bcast_S5632_S1x1x5632_2 : (⟨S5632, .f32⟩ : BufTy).Contents (Elt F) → (⟨S1x1x5632, .f32⟩ : BufTy).Contents (Elt F)),
    unary main_v28 main_v29 (broadcastInDim S4x2048x5632 ![0, 1, 2] bcast_S1x1x5632_S4x2048x5632_0_1_2 : (⟨S1x1x5632, .f32⟩ : BufTy).Contents (Elt F) → (⟨S4x2048x5632, .f32⟩ : BufTy).Contents (Elt F)),
    binary main_v27 main_v29 main_v30 (mulf : (⟨S4x2048x5632, .f32⟩ : BufTy).Contents (Elt F) → (⟨S4x2048x5632, .f32⟩ : BufTy).Contents (Elt F) → (⟨S4x2048x5632, .f32⟩ : BufTy).Contents (Elt F)),
    unary main_v30 main_v31 (Host.absf : (⟨S4x2048x5632, .f32⟩ : BufTy).Contents (Elt F) → (⟨S4x2048x5632, .f32⟩ : BufTy).Contents (Elt F)),
    nullary main_cst_7 (constant S_ .f32 0xFF800000#32),
    binary main_v31 main_cst_7 main_v32 ((fun x v => Host.reduce FloatOps.maximumf x v reducesTo_S4x2048x5632_S4x2048_d2 h_S_) : (⟨S4x2048x5632, .f32⟩ : BufTy).Contents (Elt F) → (⟨S_, .f32⟩ : BufTy).Contents (Elt F) → (⟨S4x2048, .f32⟩ : BufTy).Contents (Elt F)),
    unary main_v32 main_v33 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_8 (constant S_ .f32 0x3727C5AC#32),
    TRef.unary (TRef.of (T := ⟨S_, .f32⟩) main_cst_8) (TRef.of (T := ⟨S_, .f32⟩) main_call4_v0) id,
    TRef.unary (TRef.of (T := ⟨S_, .f32⟩) main_call4_v0) (TRef.of (T := ⟨S4x2048x1, .f32⟩) main_call4_v1) (broadcastInDim S4x2048x1 ![] bcast_S_S4x2048x1),
    TRef.binary (TRef.of (T := ⟨S4x2048x1, .f32⟩) main_call4_v1) (TRef.of (T := ⟨S4x2048x1, .f32⟩) main_v33) (TRef.of (T := ⟨S4x2048x1, .f32⟩) main_v34) maximumf,
    nullary main_cst_9 (constant S_ .f32 0x42FE0000#32),
    unary main_cst_9 main_v35 (broadcastInDim S4x2048x1 ![] bcast_S_S4x2048x1 : (⟨S_, .f32⟩ : BufTy).Contents (Elt F) → (⟨S4x2048x1, .f32⟩ : BufTy).Contents (Elt F)),
    binary main_v35 main_v34 main_v36 (Host.divf : (⟨S4x2048x1, .f32⟩ : BufTy).Contents (Elt F) → (⟨S4x2048x1, .f32⟩ : BufTy).Contents (Elt F) → (⟨S4x2048x1, .f32⟩ : BufTy).Contents (Elt F)),
    unary main_v36 main_v37 (broadcastInDim S4x2048x5632 ![0, 1, 2] bcast_S4x2048x1_S4x2048x5632_0_1_2 : (⟨S4x2048x1, .f32⟩ : BufTy).Contents (Elt F) → (⟨S4x2048x5632, .f32⟩ : BufTy).Contents (Elt F)),
    binary main_v30 main_v37 main_v38 (mulf : (⟨S4x2048x5632, .f32⟩ : BufTy).Contents (Elt F) → (⟨S4x2048x5632, .f32⟩ : BufTy).Contents (Elt F) → (⟨S4x2048x5632, .f32⟩ : BufTy).Contents (Elt F)),
    TRef.unary (TRef.of (T := ⟨S4x2048x5632, .f32⟩) main_v38) (TRef.of (T := ⟨S4x2048x5632, .f32⟩) main_v39) Host.roundeven,
    nullary main_cst_10 (constant S_ .f32 0xC3000000#32),
    nullary main_cst_11 (constant S_ .f32 0x42FE0000#32),
    TRef.unary (TRef.of (T := ⟨S_, .f32⟩) main_cst_10) (TRef.of (T := ⟨S_, .f32⟩) main_call6_v0) id,
    TRef.unary (TRef.of (T := ⟨S_, .f32⟩) main_call6_v0) (TRef.of (T := ⟨S4x2048x5632, .f32⟩) main_call6_v1) (broadcastInDim S4x2048x5632 ![] bcast_S_S4x2048x5632),
    TRef.binary (TRef.of (T := ⟨S4x2048x5632, .f32⟩) main_call6_v1) (TRef.of (T := ⟨S4x2048x5632, .f32⟩) main_v39) (TRef.of (T := ⟨S4x2048x5632, .f32⟩) main_call6_v2) maximumf,
    TRef.unary (TRef.of (T := ⟨S_, .f32⟩) main_cst_11) (TRef.of (T := ⟨S_, .f32⟩) main_call6_v3) id,
    TRef.unary (TRef.of (T := ⟨S_, .f32⟩) main_call6_v3) (TRef.of (T := ⟨S4x2048x5632, .f32⟩) main_call6_v4) (broadcastInDim S4x2048x5632 ![] bcast_S_S4x2048x5632),
    TRef.binary (TRef.of (T := ⟨S4x2048x5632, .f32⟩) main_call6_v4) (TRef.of (T := ⟨S4x2048x5632, .f32⟩) main_call6_v2) (TRef.of (T := ⟨S4x2048x5632, .f32⟩) main_v40) minimumf,
    unary main_v36 main_v41 (broadcastInDim S4x2048x5632 ![0, 1, 2] bcast_S4x2048x1_S4x2048x5632_0_1_2 : (⟨S4x2048x1, .f32⟩ : BufTy).Contents (Elt F) → (⟨S4x2048x5632, .f32⟩ : BufTy).Contents (Elt F)),
    binary main_v40 main_v41 main_v42 (Host.divf : (⟨S4x2048x5632, .f32⟩ : BufTy).Contents (Elt F) → (⟨S4x2048x5632, .f32⟩ : BufTy).Contents (Elt F) → (⟨S4x2048x5632, .f32⟩ : BufTy).Contents (Elt F)),
    binary main_v42 main_arg2 main_v43 ((fun l r => Host.dotGeneral dot_S4x2048x5632_S2048x5632_S4x2048x2048_2_1_01_0_n_n none l r) : (⟨S4x2048x5632, .f32⟩ : BufTy).Contents (Elt F) → (⟨S2048x5632, .f32⟩ : BufTy).Contents (Elt F) → (⟨S4x2048x2048, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., binary_bufs_sub .., unary_bufs_sub .., nullary_bufs_sub .., unary_bufs_sub .., unary_bufs_sub .., binary_bufs_sub .., nullary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., unary_bufs_sub .., unary_bufs_sub .., nullary_bufs_sub .., unary_bufs_sub .., binary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., nullary_bufs_sub .., binary_bufs_sub .., unary_bufs_sub .., nullary_bufs_sub .., unary_bufs_sub .., unary_bufs_sub .., binary_bufs_sub .., nullary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub ..⟩

/-- The buffer each operation writes, place by place. -/
abbrev ws : List (Ref sig .tc) :=
  [main_v0, main_cst, main_v1, main_v2, main_cst_0, main_call0_v0, main_call0_v1, main_v3, main_cst_1, main_v4, main_v5, main_v6, main_v7, main_v8, main_cst_2, main_cst_3, main_call2_v0, main_call2_v1, main_call2_v2, main_call2_v3, main_call2_v4, main_v9, main_v10, main_v11, main_v12, main_v13, main_v14, main_call3_cst, main_call3_v0, main_v15, main_v16, main_v17, main_v18, main_cst_4, main_v19, main_v20, main_cst_5, main_v21, main_v22, main_cst_6, main_v23, main_v24, main_v25, main_v26, main_v27, main_v28, main_v29, main_v30, main_v31, main_cst_7, main_v32, main_v33, main_cst_8, main_call4_v0, main_call4_v1, main_v34, main_cst_9, main_v35, main_v36, main_v37, main_v38, main_v39, main_cst_10, main_cst_11, main_call6_v0, main_call6_v1, main_call6_v2, main_call6_v3, main_call6_v4, main_v40, main_v41, main_v42, main_v43]

set_option maxRecDepth 8192 in
theorem writes : LibAfterAt.Writes (ops : List (HloOp τ sig (Elt F))) ws :=
  .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .cons (Finset.Subset.refl _) <| .nil

/-- What the buffers hold after the whole line, from contents `V`. -/
def fin (V : Valuation τ sig (Elt F)) : Valuation τ sig (Elt F) := after ops V

theorem fin_eq (V : Valuation τ sig (Elt F)) : fin V = after ops V := rfl

attribute [irreducible] fin

/-- From any memory with zero counters every weakly fair execution terminates, each buffer at the operations' fold over
    the launch contents. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = fin (launchContents m d) (Proc.devRef .tc b) := by
  simp only [fin_eq]
  exact run_seq scopedRefs_eq scopedSems_eq defs main (fun _ => ops) main_eq (fun _ => ops_sub) m ρ

end Cert.RefRun

end
-- ==== Proof.RefAt1.lean ====
/-
  The reference program's buffers after the whole line, one equation per operation: the buffer an operation writes
  holds its function of what its operand buffers hold.
-/
import proofs.«143260_j32478542693202_2_alg».proof.Proof.RefRun

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

theorem at_main_v0 (V : Valuation τ sig (Elt F)) :
    fin V (Proc.devRef .tc main_v0) = (Host.absf : (⟨S4x2048x2048, .f32⟩ : BufTy).Contents (Elt F) → (⟨S4x2048x2048, .f32⟩ : BufTy).Contents (Elt F)) (fin V (Proc.devRef .tc main_arg0)) := by
  rw [fin_eq]; exact LibAfterAt.unary_at writes 0 main_arg0 main_v0 _ _ _ rfl V (by decide) (by decide)

theorem at_main_cst (V : Valuation τ sig (Elt F)) :
    fin V (Proc.devRef .tc main_cst) = (constant S_ .f32 0xFF800000#32) := by
  rw [fin_eq]; exact LibAfterAt.nullary_at writes 1 main_cst _ _ rfl V (by decide)

theorem at_main_v1 (V : Valuation τ sig (Elt F)) :
    fin V (Proc.devRef .tc main_v1) = ((fun x v => Host.reduce FloatOps.maximumf x v reducesTo_S4x2048x2048_S4x2048_d2 h_S_) : (⟨S4x2048x2048, .f32⟩ : BufTy).Contents (Elt F) → (⟨S_, .f32⟩ : BufTy).Contents (Elt F) → (⟨S4x2048, .f32⟩ : BufTy).Contents (Elt F)) (fin V (Proc.devRef .tc main_v0)) (fin V (Proc.devRef .tc main_cst)) := by
  rw [fin_eq]; exact LibAfterAt.binary_at writes 2 main_v0 main_cst main_v1 _ _ _ _ rfl V (by decide) (by decide) (by decide)

theorem at_main_v2 (V : Valuation τ sig (Elt F)) :
    fin V (Proc.devRef .tc main_v2) = (broadcastInDim S4x2048x1 ![0, 1] bcast_S4x2048_S4x2048x1_0_1 : (⟨S4x2048, .f32⟩ : BufTy).Contents (Elt F) → (⟨S4x2048x1, .f32⟩ : BufTy).Contents (Elt F)) (fin V (Proc.devRef .tc main_v1)) := by
  rw [fin_eq]; exact LibAfterAt.unary_at writes 3 main_v1 main_v2 _ _ _ rfl V (by decide) (by decide)

theorem at_main_cst_0 (V : Valuation τ sig (Elt F)) :
    fin V (Proc.devRef .tc main_cst_0) = (constant S_ .f32 0x3727C5AC#32) := by
  rw [fin_eq]; exact LibAfterAt.nullary_at writes 4 main_cst_0 _ _ rfl V (by decide)

theorem at_main_call0_v0 (V : Valuation τ sig (Elt F)) :
    fin V (Proc.devRef .tc main_call0_v0) = (id : (⟨S_, .f32⟩ : BufTy).Contents (Elt F) → (⟨S_, .f32⟩ : BufTy).Contents (Elt F)) (fin V (Proc.devRef .tc main_cst_0)) := by
  rw [fin_eq]; exact LibAfterAt.unary_at writes 5 main_cst_0 main_call0_v0 _ _ _ rfl V (by decide) (by decide)

theorem at_main_call0_v1 (V : Valuation τ sig (Elt F)) :
    fin V (Proc.devRef .tc main_call0_v1) = ((broadcastInDim S4x2048x1 ![] bcast_S_S4x2048x1) : (⟨S_, .f32⟩ : BufTy).Contents (Elt F) → (⟨S4x2048x1, .f32⟩ : BufTy).Contents (Elt F)) (fin V (Proc.devRef .tc main_call0_v0)) := by
  rw [fin_eq]; exact LibAfterAt.unary_at writes 6 main_call0_v0 main_call0_v1 _ _ _ rfl V (by decide) (by decide)

theorem at_main_v3 (V : Valuation τ sig (Elt F)) :
    fin V (Proc.devRef .tc main_v3) = (maximumf : (⟨S4x2048x1, .f32⟩ : BufTy).Contents (Elt F) → (⟨S4x2048x1, .f32⟩ : BufTy).Contents (Elt F) → (⟨S4x2048x1, .f32⟩ : BufTy).Contents (Elt F)) (fin V (Proc.devRef .tc main_call0_v1)) (fin V (Proc.devRef .tc main_v2)) := by
  rw [fin_eq]; exact LibAfterAt.binary_at writes 7 main_call0_v1 main_v2 main_v3 _ _ _ _ rfl V (by decide) (by decide) (by decide)

theorem at_main_cst_1 (V : Valuation τ sig (Elt F)) :
    fin V (Proc.devRef .tc main_cst_1) = (constant S_ .f32 0x42FE0000#32) := by
  rw [fin_eq]; exact LibAfterAt.nullary_at writes 8 main_cst_1 _ _ rfl V (by decide)

theorem at_main_v4 (V : Valuation τ sig (Elt F)) :
    fin V (Proc.devRef .tc main_v4) = (broadcastInDim S4x2048x1 ![] bcast_S_S4x2048x1 : (⟨S_, .f32⟩ : BufTy).Contents (Elt F) → (⟨S4x2048x1, .f32⟩ : BufTy).Contents (Elt F)) (fin V (Proc.devRef .tc main_cst_1)) := by
  rw [fin_eq]; exact LibAfterAt.unary_at writes 9 main_cst_1 main_v4 _ _ _ rfl V (by decide) (by decide)

theorem at_main_v5 (V : Valuation τ sig (Elt F)) :
    fin V (Proc.devRef .tc main_v5) = (Host.divf : (⟨S4x2048x1, .f32⟩ : BufTy).Contents (Elt F) → (⟨S4x2048x1, .f32⟩ : BufTy).Contents (Elt F) → (⟨S4x2048x1, .f32⟩ : BufTy).Contents (Elt F)) (fin V (Proc.devRef .tc main_v4)) (fin V (Proc.devRef .tc main_v3)) := by
  rw [fin_eq]; exact LibAfterAt.binary_at writes 10 main_v4 main_v3 main_v5 _ _ _ _ rfl V (by decide) (by decide) (by decide)

theorem at_main_v6 (V : Valuation τ sig (Elt F)) :
    fin V (Proc.devRef .tc main_v6) = (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)) (fin V (Proc.devRef .tc main_v5)) := by
  rw [fin_eq]; exact LibAfterAt.unary_at writes 11 main_v5 main_v6 _ _ _ rfl V (by decide) (by decide)

theorem at_main_v7 (V : Valuation τ sig (Elt F)) :
    fin V (Proc.devRef .tc main_v7) = (mulf : (⟨S4x2048x2048, .f32⟩ : BufTy).Contents (Elt F) → (⟨S4x2048x2048, .f32⟩ : BufTy).Contents (Elt F) → (⟨S4x2048x2048, .f32⟩ : BufTy).Contents (Elt F)) (fin V (Proc.devRef .tc main_arg0)) (fin V (Proc.devRef .tc main_v6)) := by
  rw [fin_eq]; exact LibAfterAt.binary_at writes 12 main_arg0 main_v6 main_v7 _ _ _ _ rfl V (by decide) (by decide) (by decide)

theorem at_main_v8 (V : Valuation τ sig (Elt F)) :
    fin V (Proc.devRef .tc main_v8) = (Host.roundeven : (⟨S4x2048x2048, .f32⟩ : BufTy).Contents (Elt F) → (⟨S4x2048x2048, .f32⟩ : BufTy).Contents (Elt F)) (fin V (Proc.devRef .tc main_v7)) := by
  rw [fin_eq]; exact LibAfterAt.unary_at writes 13 main_v7 main_v8 _ _ _ rfl V (by decide) (by decide)

theorem at_main_cst_2 (V : Valuation τ sig (Elt F)) :
    fin V (Proc.devRef .tc main_cst_2) = (constant S_ .f32 0xC3000000#32) := by
  rw [fin_eq]; exact LibAfterAt.nullary_at writes 14 main_cst_2 _ _ rfl V (by decide)

theorem at_main_cst_3 (V : Valuation τ sig (Elt F)) :
    fin V (Proc.devRef .tc main_cst_3) = (constant S_ .f32 0x42FE0000#32) := by
  rw [fin_eq]; exact LibAfterAt.nullary_at writes 15 main_cst_3 _ _ rfl V (by decide)

theorem at_main_call2_v0 (V : Valuation τ sig (Elt F)) :
    fin V (Proc.devRef .tc main_call2_v0) = (id : (⟨S_, .f32⟩ : BufTy).Contents (Elt F) → (⟨S_, .f32⟩ : BufTy).Contents (Elt F)) (fin V (Proc.devRef .tc main_cst_2)) := by
  rw [fin_eq]; exact LibAfterAt.unary_at writes 16 main_cst_2 main_call2_v0 _ _ _ rfl V (by decide) (by decide)

theorem at_main_call2_v1 (V : Valuation τ sig (Elt F)) :
    fin V (Proc.devRef .tc main_call2_v1) = ((broadcastInDim S4x2048x2048 ![] bcast_S_S4x2048x2048) : (⟨S_, .f32⟩ : BufTy).Contents (Elt F) → (⟨S4x2048x2048, .f32⟩ : BufTy).Contents (Elt F)) (fin V (Proc.devRef .tc main_call2_v0)) := by
  rw [fin_eq]; exact LibAfterAt.unary_at writes 17 main_call2_v0 main_call2_v1 _ _ _ rfl V (by decide) (by decide)

theorem at_main_call2_v2 (V : Valuation τ sig (Elt F)) :
    fin V (Proc.devRef .tc main_call2_v2) = (maximumf : (⟨S4x2048x2048, .f32⟩ : BufTy).Contents (Elt F) → (⟨S4x2048x2048, .f32⟩ : BufTy).Contents (Elt F) → (⟨S4x2048x2048, .f32⟩ : BufTy).Contents (Elt F)) (fin V (Proc.devRef .tc main_call2_v1)) (fin V (Proc.devRef .tc main_v8)) := by
  rw [fin_eq]; exact LibAfterAt.binary_at writes 18 main_call2_v1 main_v8 main_call2_v2 _ _ _ _ rfl V (by decide) (by decide) (by decide)

theorem at_main_call2_v3 (V : Valuation τ sig (Elt F)) :
    fin V (Proc.devRef .tc main_call2_v3) = (id : (⟨S_, .f32⟩ : BufTy).Contents (Elt F) → (⟨S_, .f32⟩ : BufTy).Contents (Elt F)) (fin V (Proc.devRef .tc main_cst_3)) := by
  rw [fin_eq]; exact LibAfterAt.unary_at writes 19 main_cst_3 main_call2_v3 _ _ _ rfl V (by decide) (by decide)

end Cert.RefRun

end
-- ==== Proof.RefAt2.lean ====
/-
  The reference program's buffers after the whole line, one equation per operation: the buffer an operation writes
  holds its function of what its operand buffers hold.
-/
import proofs.«143260_j32478542693202_2_alg».proof.Proof.RefRun

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

theorem at_main_call2_v4 (V : Valuation τ sig (Elt F)) :
    fin V (Proc.devRef .tc main_call2_v4) = ((broadcastInDim S4x2048x2048 ![] bcast_S_S4x2048x2048) : (⟨S_, .f32⟩ : BufTy).Contents (Elt F) → (⟨S4x2048x2048, .f32⟩ : BufTy).Contents (Elt F)) (fin V (Proc.devRef .tc main_call2_v3)) := by
  rw [fin_eq]; exact LibAfterAt.unary_at writes 20 main_call2_v3 main_call2_v4 _ _ _ rfl V (by decide) (by decide)

theorem at_main_v9 (V : Valuation τ sig (Elt F)) :
    fin V (Proc.devRef .tc main_v9) = (minimumf : (⟨S4x2048x2048, .f32⟩ : BufTy).Contents (Elt F) → (⟨S4x2048x2048, .f32⟩ : BufTy).Contents (Elt F) → (⟨S4x2048x2048, .f32⟩ : BufTy).Contents (Elt F)) (fin V (Proc.devRef .tc main_call2_v4)) (fin V (Proc.devRef .tc main_call2_v2)) := by
  rw [fin_eq]; exact LibAfterAt.binary_at writes 21 main_call2_v4 main_call2_v2 main_v9 _ _ _ _ rfl V (by decide) (by decide) (by decide)

theorem at_main_v10 (V : Valuation τ sig (Elt F)) :
    fin V (Proc.devRef .tc main_v10) = (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)) (fin V (Proc.devRef .tc main_v5)) := by
  rw [fin_eq]; exact LibAfterAt.unary_at writes 22 main_v5 main_v10 _ _ _ rfl V (by decide) (by decide)

theorem at_main_v11 (V : Valuation τ sig (Elt F)) :
    fin V (Proc.devRef .tc main_v11) = (Host.divf : (⟨S4x2048x2048, .f32⟩ : BufTy).Contents (Elt F) → (⟨S4x2048x2048, .f32⟩ : BufTy).Contents (Elt F) → (⟨S4x2048x2048, .f32⟩ : BufTy).Contents (Elt F)) (fin V (Proc.devRef .tc main_v9)) (fin V (Proc.devRef .tc main_v10)) := by
  rw [fin_eq]; exact LibAfterAt.binary_at writes 23 main_v9 main_v10 main_v11 _ _ _ _ rfl V (by decide) (by decide) (by decide)

theorem at_main_v12 (V : Valuation τ sig (Elt F)) :
    fin V (Proc.devRef .tc main_v12) = ((fun l r => Host.dotGeneral dot_S4x2048x2048_S11264x2048_S4x2048x11264_2_1_01_0_n_n none l r) : (⟨S4x2048x2048, .f32⟩ : BufTy).Contents (Elt F) → (⟨S11264x2048, .f32⟩ : BufTy).Contents (Elt F) → (⟨S4x2048x11264, .f32⟩ : BufTy).Contents (Elt F)) (fin V (Proc.devRef .tc main_v11)) (fin V (Proc.devRef .tc main_arg1)) := by
  rw [fin_eq]; exact LibAfterAt.binary_at writes 24 main_v11 main_arg1 main_v12 _ _ _ _ rfl V (by decide) (by decide) (by decide)

theorem at_main_v13 (V : Valuation τ sig (Elt F)) :
    fin V (Proc.devRef .tc main_v13) = ((extractStridedSlice S4x2048x5632 ![0, 0, 0] · slices_S4x2048x11264_S4x2048x5632_0_0_0) : (⟨S4x2048x11264, .f32⟩ : BufTy).Contents (Elt F) → (⟨S4x2048x5632, .f32⟩ : BufTy).Contents (Elt F)) (fin V (Proc.devRef .tc main_v12)) := by
  rw [fin_eq]; exact LibAfterAt.unary_at writes 25 main_v12 main_v13 _ _ _ rfl V (by decide) (by decide)

theorem at_main_v14 (V : Valuation τ sig (Elt F)) :
    fin V (Proc.devRef .tc main_v14) = ((extractStridedSlice S4x2048x5632 ![0, 0, 5632] · slices_S4x2048x11264_S4x2048x5632_0_0_5632) : (⟨S4x2048x11264, .f32⟩ : BufTy).Contents (Elt F) → (⟨S4x2048x5632, .f32⟩ : BufTy).Contents (Elt F)) (fin V (Proc.devRef .tc main_v12)) := by
  rw [fin_eq]; exact LibAfterAt.unary_at writes 26 main_v12 main_v14 _ _ _ rfl V (by decide) (by decide)

theorem at_main_call3_cst (V : Valuation τ sig (Elt F)) :
    fin V (Proc.devRef .tc main_call3_cst) = ((constant S_ .f32 0x00000000#32) : (⟨S_, .f32⟩ : BufTy).Contents (Elt F)) := by
  rw [fin_eq]; exact LibAfterAt.nullary_at writes 27 main_call3_cst _ _ rfl V (by decide)

theorem at_main_call3_v0 (V : Valuation τ sig (Elt F)) :
    fin V (Proc.devRef .tc main_call3_v0) = ((broadcastInDim S4x2048x5632 ![] bcast_S_S4x2048x5632) : (⟨S_, .f32⟩ : BufTy).Contents (Elt F) → (⟨S4x2048x5632, .f32⟩ : BufTy).Contents (Elt F)) (fin V (Proc.devRef .tc main_call3_cst)) := by
  rw [fin_eq]; exact LibAfterAt.unary_at writes 28 main_call3_cst main_call3_v0 _ _ _ rfl V (by decide) (by decide)

theorem at_main_v15 (V : Valuation τ sig (Elt F)) :
    fin V (Proc.devRef .tc main_v15) = (maximumf : (⟨S4x2048x5632, .f32⟩ : BufTy).Contents (Elt F) → (⟨S4x2048x5632, .f32⟩ : BufTy).Contents (Elt F) → (⟨S4x2048x5632, .f32⟩ : BufTy).Contents (Elt F)) (fin V (Proc.devRef .tc main_v13)) (fin V (Proc.devRef .tc main_call3_v0)) := by
  rw [fin_eq]; exact LibAfterAt.binary_at writes 29 main_v13 main_call3_v0 main_v15 _ _ _ _ rfl V (by decide) (by decide) (by decide)

theorem at_main_v16 (V : Valuation τ sig (Elt F)) :
    fin V (Proc.devRef .tc main_v16) = (mulf : (⟨S4x2048x5632, .f32⟩ : BufTy).Contents (Elt F) → (⟨S4x2048x5632, .f32⟩ : BufTy).Contents (Elt F) → (⟨S4x2048x5632, .f32⟩ : BufTy).Contents (Elt F)) (fin V (Proc.devRef .tc main_v15)) (fin V (Proc.devRef .tc main_v15)) := by
  rw [fin_eq]; exact LibAfterAt.binary_at writes 30 main_v15 main_v15 main_v16 _ _ _ _ rfl V (by decide) (by decide) (by decide)

theorem at_main_v17 (V : Valuation τ sig (Elt F)) :
    fin V (Proc.devRef .tc main_v17) = (mulf : (⟨S4x2048x5632, .f32⟩ : BufTy).Contents (Elt F) → (⟨S4x2048x5632, .f32⟩ : BufTy).Contents (Elt F) → (⟨S4x2048x5632, .f32⟩ : BufTy).Contents (Elt F)) (fin V (Proc.devRef .tc main_v16)) (fin V (Proc.devRef .tc main_v14)) := by
  rw [fin_eq]; exact LibAfterAt.binary_at writes 31 main_v16 main_v14 main_v17 _ _ _ _ rfl V (by decide) (by decide) (by decide)

theorem at_main_v18 (V : Valuation τ sig (Elt F)) :
    fin V (Proc.devRef .tc main_v18) = (mulf : (⟨S4x2048x5632, .f32⟩ : BufTy).Contents (Elt F) → (⟨S4x2048x5632, .f32⟩ : BufTy).Contents (Elt F) → (⟨S4x2048x5632, .f32⟩ : BufTy).Contents (Elt F)) (fin V (Proc.devRef .tc main_v17)) (fin V (Proc.devRef .tc main_v17)) := by
  rw [fin_eq]; exact LibAfterAt.binary_at writes 32 main_v17 main_v17 main_v18 _ _ _ _ rfl V (by decide) (by decide) (by decide)

theorem at_main_cst_4 (V : Valuation τ sig (Elt F)) :
    fin V (Proc.devRef .tc main_cst_4) = (constant S_ .f32 0x00000000#32) := by
  rw [fin_eq]; exact LibAfterAt.nullary_at writes 33 main_cst_4 _ _ rfl V (by decide)

theorem at_main_v19 (V : Valuation τ sig (Elt F)) :
    fin V (Proc.devRef .tc main_v19) = ((fun x v => Host.reduceAdd x v reducesTo_S4x2048x5632_S4x2048_d2 h_S_) : (⟨S4x2048x5632, .f32⟩ : BufTy).Contents (Elt F) → (⟨S_, .f32⟩ : BufTy).Contents (Elt F) → (⟨S4x2048, .f32⟩ : BufTy).Contents (Elt F)) (fin V (Proc.devRef .tc main_v18)) (fin V (Proc.devRef .tc main_cst_4)) := by
  rw [fin_eq]; exact LibAfterAt.binary_at writes 34 main_v18 main_cst_4 main_v19 _ _ _ _ rfl V (by decide) (by decide) (by decide)

theorem at_main_v20 (V : Valuation τ sig (Elt F)) :
    fin V (Proc.devRef .tc main_v20) = (broadcastInDim S4x2048x1 ![0, 1] bcast_S4x2048_S4x2048x1_0_1 : (⟨S4x2048, .f32⟩ : BufTy).Contents (Elt F) → (⟨S4x2048x1, .f32⟩ : BufTy).Contents (Elt F)) (fin V (Proc.devRef .tc main_v19)) := by
  rw [fin_eq]; exact LibAfterAt.unary_at writes 35 main_v19 main_v20 _ _ _ rfl V (by decide) (by decide)

theorem at_main_cst_5 (V : Valuation τ sig (Elt F)) :
    fin V (Proc.devRef .tc main_cst_5) = (constant S_ .f32 0x45B00000#32) := by
  rw [fin_eq]; exact LibAfterAt.nullary_at writes 36 main_cst_5 _ _ rfl V (by decide)

theorem at_main_v21 (V : Valuation τ sig (Elt F)) :
    fin V (Proc.devRef .tc main_v21) = (broadcastInDim S4x2048x1 ![] bcast_S_S4x2048x1 : (⟨S_, .f32⟩ : BufTy).Contents (Elt F) → (⟨S4x2048x1, .f32⟩ : BufTy).Contents (Elt F)) (fin V (Proc.devRef .tc main_cst_5)) := by
  rw [fin_eq]; exact LibAfterAt.unary_at writes 37 main_cst_5 main_v21 _ _ _ rfl V (by decide) (by decide)

theorem at_main_v22 (V : Valuation τ sig (Elt F)) :
    fin V (Proc.devRef .tc main_v22) = (Host.divf : (⟨S4x2048x1, .f32⟩ : BufTy).Contents (Elt F) → (⟨S4x2048x1, .f32⟩ : BufTy).Contents (Elt F) → (⟨S4x2048x1, .f32⟩ : BufTy).Contents (Elt F)) (fin V (Proc.devRef .tc main_v20)) (fin V (Proc.devRef .tc main_v21)) := by
  rw [fin_eq]; exact LibAfterAt.binary_at writes 38 main_v20 main_v21 main_v22 _ _ _ _ rfl V (by decide) (by decide) (by decide)

theorem at_main_cst_6 (V : Valuation τ sig (Elt F)) :
    fin V (Proc.devRef .tc main_cst_6) = (constant S_ .f32 0x3727C5AC#32) := by
  rw [fin_eq]; exact LibAfterAt.nullary_at writes 39 main_cst_6 _ _ rfl V (by decide)

end Cert.RefRun

end
-- ==== Proof.RefAt3.lean ====
/-
  The reference program's buffers after the whole line, one equation per operation: the buffer an operation writes
  holds its function of what its operand buffers hold.
-/
import proofs.«143260_j32478542693202_2_alg».proof.Proof.RefRun

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

theorem at_main_v23 (V : Valuation τ sig (Elt F)) :
    fin V (Proc.devRef .tc main_v23) = (broadcastInDim S4x2048x1 ![] bcast_S_S4x2048x1 : (⟨S_, .f32⟩ : BufTy).Contents (Elt F) → (⟨S4x2048x1, .f32⟩ : BufTy).Contents (Elt F)) (fin V (Proc.devRef .tc main_cst_6)) := by
  rw [fin_eq]; exact LibAfterAt.unary_at writes 40 main_cst_6 main_v23 _ _ _ rfl V (by decide) (by decide)

theorem at_main_v24 (V : Valuation τ sig (Elt F)) :
    fin V (Proc.devRef .tc main_v24) = (addf : (⟨S4x2048x1, .f32⟩ : BufTy).Contents (Elt F) → (⟨S4x2048x1, .f32⟩ : BufTy).Contents (Elt F) → (⟨S4x2048x1, .f32⟩ : BufTy).Contents (Elt F)) (fin V (Proc.devRef .tc main_v22)) (fin V (Proc.devRef .tc main_v23)) := by
  rw [fin_eq]; exact LibAfterAt.binary_at writes 41 main_v22 main_v23 main_v24 _ _ _ _ rfl V (by decide) (by decide) (by decide)

theorem at_main_v25 (V : Valuation τ sig (Elt F)) :
    fin V (Proc.devRef .tc main_v25) = (Host.rsqrt : (⟨S4x2048x1, .f32⟩ : BufTy).Contents (Elt F) → (⟨S4x2048x1, .f32⟩ : BufTy).Contents (Elt F)) (fin V (Proc.devRef .tc main_v24)) := by
  rw [fin_eq]; exact LibAfterAt.unary_at writes 42 main_v24 main_v25 _ _ _ rfl V (by decide) (by decide)

theorem at_main_v26 (V : Valuation τ sig (Elt F)) :
    fin V (Proc.devRef .tc main_v26) = (broadcastInDim S4x2048x5632 ![0, 1, 2] bcast_S4x2048x1_S4x2048x5632_0_1_2 : (⟨S4x2048x1, .f32⟩ : BufTy).Contents (Elt F) → (⟨S4x2048x5632, .f32⟩ : BufTy).Contents (Elt F)) (fin V (Proc.devRef .tc main_v25)) := by
  rw [fin_eq]; exact LibAfterAt.unary_at writes 43 main_v25 main_v26 _ _ _ rfl V (by decide) (by decide)

theorem at_main_v27 (V : Valuation τ sig (Elt F)) :
    fin V (Proc.devRef .tc main_v27) = (mulf : (⟨S4x2048x5632, .f32⟩ : BufTy).Contents (Elt F) → (⟨S4x2048x5632, .f32⟩ : BufTy).Contents (Elt F) → (⟨S4x2048x5632, .f32⟩ : BufTy).Contents (Elt F)) (fin V (Proc.devRef .tc main_v17)) (fin V (Proc.devRef .tc main_v26)) := by
  rw [fin_eq]; exact LibAfterAt.binary_at writes 44 main_v17 main_v26 main_v27 _ _ _ _ rfl V (by decide) (by decide) (by decide)

theorem at_main_v28 (V : Valuation τ sig (Elt F)) :
    fin V (Proc.devRef .tc main_v28) = (broadcastInDim S1x1x5632 ![2] bcast_S5632_S1x1x5632_2 : (⟨S5632, .f32⟩ : BufTy).Contents (Elt F) → (⟨S1x1x5632, .f32⟩ : BufTy).Contents (Elt F)) (fin V (Proc.devRef .tc main_arg3)) := by
  rw [fin_eq]; exact LibAfterAt.unary_at writes 45 main_arg3 main_v28 _ _ _ rfl V (by decide) (by decide)

theorem at_main_v29 (V : Valuation τ sig (Elt F)) :
    fin V (Proc.devRef .tc main_v29) = (broadcastInDim S4x2048x5632 ![0, 1, 2] bcast_S1x1x5632_S4x2048x5632_0_1_2 : (⟨S1x1x5632, .f32⟩ : BufTy).Contents (Elt F) → (⟨S4x2048x5632, .f32⟩ : BufTy).Contents (Elt F)) (fin V (Proc.devRef .tc main_v28)) := by
  rw [fin_eq]; exact LibAfterAt.unary_at writes 46 main_v28 main_v29 _ _ _ rfl V (by decide) (by decide)

theorem at_main_v30 (V : Valuation τ sig (Elt F)) :
    fin V (Proc.devRef .tc main_v30) = (mulf : (⟨S4x2048x5632, .f32⟩ : BufTy).Contents (Elt F) → (⟨S4x2048x5632, .f32⟩ : BufTy).Contents (Elt F) → (⟨S4x2048x5632, .f32⟩ : BufTy).Contents (Elt F)) (fin V (Proc.devRef .tc main_v27)) (fin V (Proc.devRef .tc main_v29)) := by
  rw [fin_eq]; exact LibAfterAt.binary_at writes 47 main_v27 main_v29 main_v30 _ _ _ _ rfl V (by decide) (by decide) (by decide)

theorem at_main_v31 (V : Valuation τ sig (Elt F)) :
    fin V (Proc.devRef .tc main_v31) = (Host.absf : (⟨S4x2048x5632, .f32⟩ : BufTy).Contents (Elt F) → (⟨S4x2048x5632, .f32⟩ : BufTy).Contents (Elt F)) (fin V (Proc.devRef .tc main_v30)) := by
  rw [fin_eq]; exact LibAfterAt.unary_at writes 48 main_v30 main_v31 _ _ _ rfl V (by decide) (by decide)

theorem at_main_cst_7 (V : Valuation τ sig (Elt F)) :
    fin V (Proc.devRef .tc main_cst_7) = (constant S_ .f32 0xFF800000#32) := by
  rw [fin_eq]; exact LibAfterAt.nullary_at writes 49 main_cst_7 _ _ rfl V (by decide)

theorem at_main_v32 (V : Valuation τ sig (Elt F)) :
    fin V (Proc.devRef .tc main_v32) = ((fun x v => Host.reduce FloatOps.maximumf x v reducesTo_S4x2048x5632_S4x2048_d2 h_S_) : (⟨S4x2048x5632, .f32⟩ : BufTy).Contents (Elt F) → (⟨S_, .f32⟩ : BufTy).Contents (Elt F) → (⟨S4x2048, .f32⟩ : BufTy).Contents (Elt F)) (fin V (Proc.devRef .tc main_v31)) (fin V (Proc.devRef .tc main_cst_7)) := by
  rw [fin_eq]; exact LibAfterAt.binary_at writes 50 main_v31 main_cst_7 main_v32 _ _ _ _ rfl V (by decide) (by decide) (by decide)

theorem at_main_v33 (V : Valuation τ sig (Elt F)) :
    fin V (Proc.devRef .tc main_v33) = (broadcastInDim S4x2048x1 ![0, 1] bcast_S4x2048_S4x2048x1_0_1 : (⟨S4x2048, .f32⟩ : BufTy).Contents (Elt F) → (⟨S4x2048x1, .f32⟩ : BufTy).Contents (Elt F)) (fin V (Proc.devRef .tc main_v32)) := by
  rw [fin_eq]; exact LibAfterAt.unary_at writes 51 main_v32 main_v33 _ _ _ rfl V (by decide) (by decide)

theorem at_main_cst_8 (V : Valuation τ sig (Elt F)) :
    fin V (Proc.devRef .tc main_cst_8) = (constant S_ .f32 0x3727C5AC#32) := by
  rw [fin_eq]; exact LibAfterAt.nullary_at writes 52 main_cst_8 _ _ rfl V (by decide)

theorem at_main_call4_v0 (V : Valuation τ sig (Elt F)) :
    fin V (Proc.devRef .tc main_call4_v0) = (id : (⟨S_, .f32⟩ : BufTy).Contents (Elt F) → (⟨S_, .f32⟩ : BufTy).Contents (Elt F)) (fin V (Proc.devRef .tc main_cst_8)) := by
  rw [fin_eq]; exact LibAfterAt.unary_at writes 53 main_cst_8 main_call4_v0 _ _ _ rfl V (by decide) (by decide)

theorem at_main_call4_v1 (V : Valuation τ sig (Elt F)) :
    fin V (Proc.devRef .tc main_call4_v1) = ((broadcastInDim S4x2048x1 ![] bcast_S_S4x2048x1) : (⟨S_, .f32⟩ : BufTy).Contents (Elt F) → (⟨S4x2048x1, .f32⟩ : BufTy).Contents (Elt F)) (fin V (Proc.devRef .tc main_call4_v0)) := by
  rw [fin_eq]; exact LibAfterAt.unary_at writes 54 main_call4_v0 main_call4_v1 _ _ _ rfl V (by decide) (by decide)

theorem at_main_v34 (V : Valuation τ sig (Elt F)) :
    fin V (Proc.devRef .tc main_v34) = (maximumf : (⟨S4x2048x1, .f32⟩ : BufTy).Contents (Elt F) → (⟨S4x2048x1, .f32⟩ : BufTy).Contents (Elt F) → (⟨S4x2048x1, .f32⟩ : BufTy).Contents (Elt F)) (fin V (Proc.devRef .tc main_call4_v1)) (fin V (Proc.devRef .tc main_v33)) := by
  rw [fin_eq]; exact LibAfterAt.binary_at writes 55 main_call4_v1 main_v33 main_v34 _ _ _ _ rfl V (by decide) (by decide) (by decide)

theorem at_main_cst_9 (V : Valuation τ sig (Elt F)) :
    fin V (Proc.devRef .tc main_cst_9) = (constant S_ .f32 0x42FE0000#32) := by
  rw [fin_eq]; exact LibAfterAt.nullary_at writes 56 main_cst_9 _ _ rfl V (by decide)

theorem at_main_v35 (V : Valuation τ sig (Elt F)) :
    fin V (Proc.devRef .tc main_v35) = (broadcastInDim S4x2048x1 ![] bcast_S_S4x2048x1 : (⟨S_, .f32⟩ : BufTy).Contents (Elt F) → (⟨S4x2048x1, .f32⟩ : BufTy).Contents (Elt F)) (fin V (Proc.devRef .tc main_cst_9)) := by
  rw [fin_eq]; exact LibAfterAt.unary_at writes 57 main_cst_9 main_v35 _ _ _ rfl V (by decide) (by decide)

theorem at_main_v36 (V : Valuation τ sig (Elt F)) :
    fin V (Proc.devRef .tc main_v36) = (Host.divf : (⟨S4x2048x1, .f32⟩ : BufTy).Contents (Elt F) → (⟨S4x2048x1, .f32⟩ : BufTy).Contents (Elt F) → (⟨S4x2048x1, .f32⟩ : BufTy).Contents (Elt F)) (fin V (Proc.devRef .tc main_v35)) (fin V (Proc.devRef .tc main_v34)) := by
  rw [fin_eq]; exact LibAfterAt.binary_at writes 58 main_v35 main_v34 main_v36 _ _ _ _ rfl V (by decide) (by decide) (by decide)

theorem at_main_v37 (V : Valuation τ sig (Elt F)) :
    fin V (Proc.devRef .tc main_v37) = (broadcastInDim S4x2048x5632 ![0, 1, 2] bcast_S4x2048x1_S4x2048x5632_0_1_2 : (⟨S4x2048x1, .f32⟩ : BufTy).Contents (Elt F) → (⟨S4x2048x5632, .f32⟩ : BufTy).Contents (Elt F)) (fin V (Proc.devRef .tc main_v36)) := by
  rw [fin_eq]; exact LibAfterAt.unary_at writes 59 main_v36 main_v37 _ _ _ rfl V (by decide) (by decide)

end Cert.RefRun

end
-- ==== Proof.RefAt4.lean ====
/-
  The reference program's buffers after the whole line, one equation per operation: the buffer an operation writes
  holds its function of what its operand buffers hold.
-/
import proofs.«143260_j32478542693202_2_alg».proof.Proof.RefRun

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

theorem at_main_v38 (V : Valuation τ sig (Elt F)) :
    fin V (Proc.devRef .tc main_v38) = (mulf : (⟨S4x2048x5632, .f32⟩ : BufTy).Contents (Elt F) → (⟨S4x2048x5632, .f32⟩ : BufTy).Contents (Elt F) → (⟨S4x2048x5632, .f32⟩ : BufTy).Contents (Elt F)) (fin V (Proc.devRef .tc main_v30)) (fin V (Proc.devRef .tc main_v37)) := by
  rw [fin_eq]; exact LibAfterAt.binary_at writes 60 main_v30 main_v37 main_v38 _ _ _ _ rfl V (by decide) (by decide) (by decide)

theorem at_main_v39 (V : Valuation τ sig (Elt F)) :
    fin V (Proc.devRef .tc main_v39) = (Host.roundeven : (⟨S4x2048x5632, .f32⟩ : BufTy).Contents (Elt F) → (⟨S4x2048x5632, .f32⟩ : BufTy).Contents (Elt F)) (fin V (Proc.devRef .tc main_v38)) := by
  rw [fin_eq]; exact LibAfterAt.unary_at writes 61 main_v38 main_v39 _ _ _ rfl V (by decide) (by decide)

theorem at_main_cst_10 (V : Valuation τ sig (Elt F)) :
    fin V (Proc.devRef .tc main_cst_10) = (constant S_ .f32 0xC3000000#32) := by
  rw [fin_eq]; exact LibAfterAt.nullary_at writes 62 main_cst_10 _ _ rfl V (by decide)

theorem at_main_cst_11 (V : Valuation τ sig (Elt F)) :
    fin V (Proc.devRef .tc main_cst_11) = (constant S_ .f32 0x42FE0000#32) := by
  rw [fin_eq]; exact LibAfterAt.nullary_at writes 63 main_cst_11 _ _ rfl V (by decide)

theorem at_main_call6_v0 (V : Valuation τ sig (Elt F)) :
    fin V (Proc.devRef .tc main_call6_v0) = (id : (⟨S_, .f32⟩ : BufTy).Contents (Elt F) → (⟨S_, .f32⟩ : BufTy).Contents (Elt F)) (fin V (Proc.devRef .tc main_cst_10)) := by
  rw [fin_eq]; exact LibAfterAt.unary_at writes 64 main_cst_10 main_call6_v0 _ _ _ rfl V (by decide) (by decide)

theorem at_main_call6_v1 (V : Valuation τ sig (Elt F)) :
    fin V (Proc.devRef .tc main_call6_v1) = ((broadcastInDim S4x2048x5632 ![] bcast_S_S4x2048x5632) : (⟨S_, .f32⟩ : BufTy).Contents (Elt F) → (⟨S4x2048x5632, .f32⟩ : BufTy).Contents (Elt F)) (fin V (Proc.devRef .tc main_call6_v0)) := by
  rw [fin_eq]; exact LibAfterAt.unary_at writes 65 main_call6_v0 main_call6_v1 _ _ _ rfl V (by decide) (by decide)

theorem at_main_call6_v2 (V : Valuation τ sig (Elt F)) :
    fin V (Proc.devRef .tc main_call6_v2) = (maximumf : (⟨S4x2048x5632, .f32⟩ : BufTy).Contents (Elt F) → (⟨S4x2048x5632, .f32⟩ : BufTy).Contents (Elt F) → (⟨S4x2048x5632, .f32⟩ : BufTy).Contents (Elt F)) (fin V (Proc.devRef .tc main_call6_v1)) (fin V (Proc.devRef .tc main_v39)) := by
  rw [fin_eq]; exact LibAfterAt.binary_at writes 66 main_call6_v1 main_v39 main_call6_v2 _ _ _ _ rfl V (by decide) (by decide) (by decide)

theorem at_main_call6_v3 (V : Valuation τ sig (Elt F)) :
    fin V (Proc.devRef .tc main_call6_v3) = (id : (⟨S_, .f32⟩ : BufTy).Contents (Elt F) → (⟨S_, .f32⟩ : BufTy).Contents (Elt F)) (fin V (Proc.devRef .tc main_cst_11)) := by
  rw [fin_eq]; exact LibAfterAt.unary_at writes 67 main_cst_11 main_call6_v3 _ _ _ rfl V (by decide) (by decide)

theorem at_main_call6_v4 (V : Valuation τ sig (Elt F)) :
    fin V (Proc.devRef .tc main_call6_v4) = ((broadcastInDim S4x2048x5632 ![] bcast_S_S4x2048x5632) : (⟨S_, .f32⟩ : BufTy).Contents (Elt F) → (⟨S4x2048x5632, .f32⟩ : BufTy).Contents (Elt F)) (fin V (Proc.devRef .tc main_call6_v3)) := by
  rw [fin_eq]; exact LibAfterAt.unary_at writes 68 main_call6_v3 main_call6_v4 _ _ _ rfl V (by decide) (by decide)

theorem at_main_v40 (V : Valuation τ sig (Elt F)) :
    fin V (Proc.devRef .tc main_v40) = (minimumf : (⟨S4x2048x5632, .f32⟩ : BufTy).Contents (Elt F) → (⟨S4x2048x5632, .f32⟩ : BufTy).Contents (Elt F) → (⟨S4x2048x5632, .f32⟩ : BufTy).Contents (Elt F)) (fin V (Proc.devRef .tc main_call6_v4)) (fin V (Proc.devRef .tc main_call6_v2)) := by
  rw [fin_eq]; exact LibAfterAt.binary_at writes 69 main_call6_v4 main_call6_v2 main_v40 _ _ _ _ rfl V (by decide) (by decide) (by decide)

theorem at_main_v41 (V : Valuation τ sig (Elt F)) :
    fin V (Proc.devRef .tc main_v41) = (broadcastInDim S4x2048x5632 ![0, 1, 2] bcast_S4x2048x1_S4x2048x5632_0_1_2 : (⟨S4x2048x1, .f32⟩ : BufTy).Contents (Elt F) → (⟨S4x2048x5632, .f32⟩ : BufTy).Contents (Elt F)) (fin V (Proc.devRef .tc main_v36)) := by
  rw [fin_eq]; exact LibAfterAt.unary_at writes 70 main_v36 main_v41 _ _ _ rfl V (by decide) (by decide)

theorem at_main_v42 (V : Valuation τ sig (Elt F)) :
    fin V (Proc.devRef .tc main_v42) = (Host.divf : (⟨S4x2048x5632, .f32⟩ : BufTy).Contents (Elt F) → (⟨S4x2048x5632, .f32⟩ : BufTy).Contents (Elt F) → (⟨S4x2048x5632, .f32⟩ : BufTy).Contents (Elt F)) (fin V (Proc.devRef .tc main_v40)) (fin V (Proc.devRef .tc main_v41)) := by
  rw [fin_eq]; exact LibAfterAt.binary_at writes 71 main_v40 main_v41 main_v42 _ _ _ _ rfl V (by decide) (by decide) (by decide)

theorem at_main_v43 (V : Valuation τ sig (Elt F)) :
    fin V (Proc.devRef .tc main_v43) = ((fun l r => Host.dotGeneral dot_S4x2048x5632_S2048x5632_S4x2048x2048_2_1_01_0_n_n none l r) : (⟨S4x2048x5632, .f32⟩ : BufTy).Contents (Elt F) → (⟨S2048x5632, .f32⟩ : BufTy).Contents (Elt F) → (⟨S4x2048x2048, .f32⟩ : BufTy).Contents (Elt F)) (fin V (Proc.devRef .tc main_v42)) (fin V (Proc.devRef .tc main_arg2)) := by
  rw [fin_eq]; exact LibAfterAt.binary_at writes 72 main_v42 main_arg2 main_v43 _ _ _ _ rfl V (by decide) (by decide) (by decide)

theorem at_main_arg0 (V : Valuation τ sig (Elt F)) :
    fin V (Proc.devRef .tc main_arg0) = V (Proc.devRef .tc main_arg0) := by
  rw [fin_eq]; exact LibAfterAt.after_of_not_mem writes V (by decide)

theorem at_main_arg1 (V : Valuation τ sig (Elt F)) :
    fin V (Proc.devRef .tc main_arg1) = V (Proc.devRef .tc main_arg1) := by
  rw [fin_eq]; exact LibAfterAt.after_of_not_mem writes V (by decide)

theorem at_main_arg2 (V : Valuation τ sig (Elt F)) :
    fin V (Proc.devRef .tc main_arg2) = V (Proc.devRef .tc main_arg2) := by
  rw [fin_eq]; exact LibAfterAt.after_of_not_mem writes V (by decide)

theorem at_main_arg3 (V : Valuation τ sig (Elt F)) :
    fin V (Proc.devRef .tc main_arg3) = V (Proc.devRef .tc main_arg3) := by
  rw [fin_eq]; exact LibAfterAt.after_of_not_mem writes V (by decide)

end Cert.RefRun

end
-- ==== Proof.RefPure.lean ====
/-
  The reference program's operations read at an entry, on the extended reals: broadcasts of a scalar, of a per-row
  value and of a per-column weight, the maximum and the sum along the last axis, the two contractions with a weight
  matrix's rows, and the two halves of a slice. General in the length of the last axis where the program uses an
  operation at two lengths.
-/
import proofs.«143260_j32478542693202_2_alg».proof.Proof.Gen.ReferenceIdeal
import proofs.«143260_j32478542693202_2_alg».proof.Proof.RowSpec
import proofs.«143260_j32478542693202_2_alg».proof.Proof.LibRowMax
import Idealize.ShloMosaic.Lib.Pipeline.Value
import Idealize.ShloMosaic.Lib.ValueIdx
import Idealize.ShloMosaic.PureOps.Ideal.Laws

noncomputable section

namespace Cert.RefPure

open Cert.ReferenceIdeal Cert.ReferenceIdeal.Gen Idealize.ShloMosaic Idealize.ShloMosaic.ValueIdx

/-- A stack of 4 × 2048 rows of length `n`. -/
abbrev T (n : Nat) : Shape := ⟨3, ![4, 2048, n]⟩

variable {n : Nat}

/-- A scalar broadcast to any shape is the scalar at every entry. -/
theorem bcastScalar_apply {t : Shape} {α : Type} (h : S_.BroadcastsInDim t (![] : Fin 0 → Fin t.rank)) (y : S_.Idx → α) (j : t.Idx) :
    broadcastInDim t ![] h y j = y ix0 :=
  broadcastInDim_apply _ h y j ix0 (fun a => a.elim0)

/-- A per-row value `[4, 2048]` given a unit last axis is the value of the row. -/
theorem bcastKeep_apply {α : Type} (h : S4x2048.BroadcastsInDim (T 1) (![0, 1] : Fin 2 → Fin (T 1).rank)) (v : S4x2048.Idx → α)
    (b : Fin 4) (s : Fin 2048) (z : Fin 1) :
    broadcastInDim (T 1) ![0, 1] h v (ix3 b s z) = v (ix2 b s) :=
  broadcastInDim_apply _ h v (ix3 b s z) (ix2 b s) (fun a => match a with
    | ⟨0, _⟩ => by show b.val = if (4 : Nat) = 1 then 0 else b.val; rw [if_neg (by decide)]
    | ⟨1, _⟩ => by show s.val = if (2048 : Nat) = 1 then 0 else s.val; rw [if_neg (by decide)])

/-- A per-row value `[4, 2048, 1]` broadcast along the last axis is the value of the row. -/
theorem bcastRow_apply {α : Type} (h : (T 1).BroadcastsInDim (T n) (![0, 1, 2] : Fin 3 → Fin (T n).rank)) (v : (T 1).Idx → α)
    (b : Fin 4) (s : Fin 2048) (k : Fin n) :
    broadcastInDim (T n) ![0, 1, 2] h v (ix3 b s k) = v (ix3 b s 0) :=
  broadcastInDim_apply _ h v (ix3 b s k) (ix3 b s 0) (fun a => match a with
    | ⟨0, _⟩ => by show b.val = if (4 : Nat) = 1 then 0 else b.val; rw [if_neg (by decide)]
    | ⟨1, _⟩ => by show s.val = if (2048 : Nat) = 1 then 0 else s.val; rw [if_neg (by decide)]
    | ⟨2, _⟩ => by show 0 = if (1 : Nat) = 1 then 0 else k.val; rw [if_pos rfl])

/-- A weight vector `[5632]` viewed as `[1, 1, 5632]` and broadcast over the rows is the weight of the column. -/
theorem bcastCol_apply {α : Type} (h1 : S5632.BroadcastsInDim S1x1x5632 (![2] : Fin 1 → Fin S1x1x5632.rank))
    (h2 : S1x1x5632.BroadcastsInDim (T 5632) (![0, 1, 2] : Fin 3 → Fin (T 5632).rank)) (w : S5632.Idx → α)
    (b : Fin 4) (s : Fin 2048) (k : Fin 5632) :
    broadcastInDim (T 5632) ![0, 1, 2] h2 (broadcastInDim S1x1x5632 ![2] h1 w) (ix3 b s k) = w (ix1 k) := by
  rw [broadcastInDim_apply _ h2 _ (ix3 b s k) (ix3 (0 : Fin 1) (0 : Fin 1) k) (fun a => match a with
    | ⟨0, _⟩ => by show 0 = if (1 : Nat) = 1 then 0 else b.val; rw [if_pos rfl]
    | ⟨1, _⟩ => by show 0 = if (1 : Nat) = 1 then 0 else s.val; rw [if_pos rfl]
    | ⟨2, _⟩ => by show k.val = if (5632 : Nat) = 1 then 0 else k.val; rw [if_neg (by decide)])]
  exact broadcastInDim_apply _ h1 w _ (ix1 k) (fun a => match a with
    | ⟨0, _⟩ => by show k.val = if (5632 : Nat) = 1 then 0 else k.val; rw [if_neg (by decide)])

/-- The reduced index (b, s) with coordinate `k` put back on the last axis is (b, s, k). -/
theorem lift_ix3 (h : (T n).Reduces [2] S4x2048) (b : Fin 4) (s : Fin 2048) (k : Fin ((T n).size 2)) :
    h.lift (ix2 b s) k = ix3 b s (⟨k.val, k.isLt⟩ : Fin n) := by
  funext c; apply Fin.ext
  fin_cases c <;> rfl

/-- The host's maximum along the last axis, at row (b, s): the fold of max from the initial value over the row. -/
theorem rowMax_apply (x : FVec Ideal (T n) .f32) (init : FVec Ideal S_ .f32) (h' : (T n).ReducesTo [2] S4x2048)
    (hu : 0 < S_.numel) (b : Fin 4) (s : Fin 2048) :
    Host.reduce (FloatOps.maximumf (F := Ideal) (φ := .f32)) x init h' hu (ix2 b s)
      = (Finset.univ : Finset (Fin n)).fold max (init ix0) (fun k => x (ix3 b s k)) := by
  have h : (T n).Reduces [2] S4x2048 := ⟨h'.1, Nat.two_pos, h'.2⟩
  rw [LibRowMax.hostReduce_maximumf_single x init h' h hu (ix2 b s), eq_ix0 (Shape.Idx.first hu)]
  exact congrArg (fun f => (Finset.univ : Finset (Fin n)).fold max (init ix0) f) (funext fun k => congrArg x (lift_ix3 h b s k))

/-- The host's sum along the last axis, at row (b, s): the initial value plus the sum of the row. -/
theorem rowSum_apply (x : FVec Ideal (T n) .f32) (init : FVec Ideal S_ .f32) (h' : (T n).ReducesTo [2] S4x2048)
    (hu : 0 < S_.numel) (b : Fin 4) (s : Fin 2048) :
    Host.reduceAdd x init h' hu (ix2 b s) = init ix0 + ∑ k : Fin n, x (ix3 b s k) := by
  have h : (T n).Reduces [2] S4x2048 := ⟨h'.1, Nat.two_pos, h'.2⟩
  simp only [Host.reduceAdd, Ideal.hostReduceAdd_def]
  rw [Ideal.hostReduceAdd_single h' h, eq_ix0 (Shape.Idx.first hu)]
  exact congrArg (init ix0 + ·) (Finset.sum_congr rfl fun k _ => congrArg x (lift_ix3 h b s k))

theorem dot13_apply_l0 (i : S4x2048x11264.Idx) (q : dot_S4x2048x2048_S11264x2048_S4x2048x11264_2_1_01_0_n_n.contr.Idx) : (dot_S4x2048x2048_S11264x2048_S4x2048x11264_2_1_01_0_n_n.lhsIdx i q 0).val = (i 0).val := by
  unfold DotDims.lhsIdx
  rw [dif_neg (show ¬(0 : Fin S4x2048x2048.rank) ∈ dot_S4x2048x2048_S11264x2048_S4x2048x11264_2_1_01_0_n_n.lhsBatch by decide), dif_pos (show (0 : Fin S4x2048x2048.rank) ∈ dot_S4x2048x2048_S11264x2048_S4x2048x11264_2_1_01_0_n_n.lhsNonContracting by decide)]
  rfl
theorem dot13_apply_l1 (i : S4x2048x11264.Idx) (q : dot_S4x2048x2048_S11264x2048_S4x2048x11264_2_1_01_0_n_n.contr.Idx) : (dot_S4x2048x2048_S11264x2048_S4x2048x11264_2_1_01_0_n_n.lhsIdx i q 1).val = (i 1).val := by
  unfold DotDims.lhsIdx
  rw [dif_neg (show ¬(1 : Fin S4x2048x2048.rank) ∈ dot_S4x2048x2048_S11264x2048_S4x2048x11264_2_1_01_0_n_n.lhsBatch by decide), dif_pos (show (1 : Fin S4x2048x2048.rank) ∈ dot_S4x2048x2048_S11264x2048_S4x2048x11264_2_1_01_0_n_n.lhsNonContracting by decide)]
  rfl
theorem dot13_apply_l2 (i : S4x2048x11264.Idx) (q : dot_S4x2048x2048_S11264x2048_S4x2048x11264_2_1_01_0_n_n.contr.Idx) : (dot_S4x2048x2048_S11264x2048_S4x2048x11264_2_1_01_0_n_n.lhsIdx i q 2).val = (q ⟨0, by decide⟩).val :=
  dot_S4x2048x2048_S11264x2048_S4x2048x11264_2_1_01_0_n_n.lhsIdx_val_of_single rfl i q
theorem dot13_apply_r0 (i : S4x2048x11264.Idx) (q : dot_S4x2048x2048_S11264x2048_S4x2048x11264_2_1_01_0_n_n.contr.Idx) : (dot_S4x2048x2048_S11264x2048_S4x2048x11264_2_1_01_0_n_n.rhsIdx i q 0).val = (i 2).val := by
  unfold DotDims.rhsIdx
  rw [dif_neg (show ¬(0 : Fin S11264x2048.rank) ∈ dot_S4x2048x2048_S11264x2048_S4x2048x11264_2_1_01_0_n_n.rhsBatch by decide), dif_pos (show (0 : Fin S11264x2048.rank) ∈ dot_S4x2048x2048_S11264x2048_S4x2048x11264_2_1_01_0_n_n.rhsNonContracting by decide)]
  rfl
theorem dot13_apply_r1 (i : S4x2048x11264.Idx) (q : dot_S4x2048x2048_S11264x2048_S4x2048x11264_2_1_01_0_n_n.contr.Idx) : (dot_S4x2048x2048_S11264x2048_S4x2048x11264_2_1_01_0_n_n.rhsIdx i q 1).val = (q ⟨0, by decide⟩).val :=
  dot_S4x2048x2048_S11264x2048_S4x2048x11264_2_1_01_0_n_n.rhsIdx_val_of_single rfl i q

/-- The first contraction at (b, s, f): row (b, s) of the left operand against row `f` of the weights. -/
theorem dot13_apply (y : FVec Ideal S4x2048x2048 .f32) (w : FVec Ideal S11264x2048 .f32) (b : Fin 4) (s : Fin 2048) (f : Fin 11264) :
    Host.dotGeneral dot_S4x2048x2048_S11264x2048_S4x2048x11264_2_1_01_0_n_n none y w (ix3 b s f) = ∑ k : Fin 2048, y (ix3 b s k) * w (ix2 f k) := by
  simp only [Host.dotGeneral]
  rw [Ideal.dotGeneral_apply, ← Equiv.sum_comp (ValueIdx.contrEquiv1 dot_S4x2048x2048_S11264x2048_S4x2048x11264_2_1_01_0_n_n 2048 rfl rfl).symm]
  refine Finset.sum_congr rfl fun k _ => ?_
  have hk := ValueIdx.contrEquiv1_symm_val dot_S4x2048x2048_S11264x2048_S4x2048x11264_2_1_01_0_n_n 2048 rfl rfl k
  have el : dot_S4x2048x2048_S11264x2048_S4x2048x11264_2_1_01_0_n_n.lhsIdx (ix3 b s f) ((ValueIdx.contrEquiv1 dot_S4x2048x2048_S11264x2048_S4x2048x11264_2_1_01_0_n_n 2048 rfl rfl).symm k) = ix3 b s k := funext fun a => Fin.ext (by
    match a with
    | ⟨0, _⟩ => exact dot13_apply_l0 _ _
    | ⟨1, _⟩ => exact dot13_apply_l1 _ _
    | ⟨2, _⟩ => exact (dot13_apply_l2 _ _).trans hk)
  have er : dot_S4x2048x2048_S11264x2048_S4x2048x11264_2_1_01_0_n_n.rhsIdx (ix3 b s f) ((ValueIdx.contrEquiv1 dot_S4x2048x2048_S11264x2048_S4x2048x11264_2_1_01_0_n_n 2048 rfl rfl).symm k) = ix2 f k := funext fun a => Fin.ext (by
    match a with
    | ⟨0, _⟩ => exact dot13_apply_r0 _ _
    | ⟨1, _⟩ => exact (dot13_apply_r1 _ _).trans hk)
  rw [el, er]

theorem dot2_apply_l0 (i : S4x2048x2048.Idx) (q : dot_S4x2048x5632_S2048x5632_S4x2048x2048_2_1_01_0_n_n.contr.Idx) : (dot_S4x2048x5632_S2048x5632_S4x2048x2048_2_1_01_0_n_n.lhsIdx i q 0).val = (i 0).val := by
  unfold DotDims.lhsIdx
  rw [dif_neg (show ¬(0 : Fin S4x2048x5632.rank) ∈ dot_S4x2048x5632_S2048x5632_S4x2048x2048_2_1_01_0_n_n.lhsBatch by decide), dif_pos (show (0 : Fin S4x2048x5632.rank) ∈ dot_S4x2048x5632_S2048x5632_S4x2048x2048_2_1_01_0_n_n.lhsNonContracting by decide)]
  rfl
theorem dot2_apply_l1 (i : S4x2048x2048.Idx) (q : dot_S4x2048x5632_S2048x5632_S4x2048x2048_2_1_01_0_n_n.contr.Idx) : (dot_S4x2048x5632_S2048x5632_S4x2048x2048_2_1_01_0_n_n.lhsIdx i q 1).val = (i 1).val := by
  unfold DotDims.lhsIdx
  rw [dif_neg (show ¬(1 : Fin S4x2048x5632.rank) ∈ dot_S4x2048x5632_S2048x5632_S4x2048x2048_2_1_01_0_n_n.lhsBatch by decide), dif_pos (show (1 : Fin S4x2048x5632.rank) ∈ dot_S4x2048x5632_S2048x5632_S4x2048x2048_2_1_01_0_n_n.lhsNonContracting by decide)]
  rfl
theorem dot2_apply_l2 (i : S4x2048x2048.Idx) (q : dot_S4x2048x5632_S2048x5632_S4x2048x2048_2_1_01_0_n_n.contr.Idx) : (dot_S4x2048x5632_S2048x5632_S4x2048x2048_2_1_01_0_n_n.lhsIdx i q 2).val = (q ⟨0, by decide⟩).val :=
  dot_S4x2048x5632_S2048x5632_S4x2048x2048_2_1_01_0_n_n.lhsIdx_val_of_single rfl i q
theorem dot2_apply_r0 (i : S4x2048x2048.Idx) (q : dot_S4x2048x5632_S2048x5632_S4x2048x2048_2_1_01_0_n_n.contr.Idx) : (dot_S4x2048x5632_S2048x5632_S4x2048x2048_2_1_01_0_n_n.rhsIdx i q 0).val = (i 2).val := by
  unfold DotDims.rhsIdx
  rw [dif_neg (show ¬(0 : Fin S2048x5632.rank) ∈ dot_S4x2048x5632_S2048x5632_S4x2048x2048_2_1_01_0_n_n.rhsBatch by decide), dif_pos (show (0 : Fin S2048x5632.rank) ∈ dot_S4x2048x5632_S2048x5632_S4x2048x2048_2_1_01_0_n_n.rhsNonContracting by decide)]
  rfl
theorem dot2_apply_r1 (i : S4x2048x2048.Idx) (q : dot_S4x2048x5632_S2048x5632_S4x2048x2048_2_1_01_0_n_n.contr.Idx) : (dot_S4x2048x5632_S2048x5632_S4x2048x2048_2_1_01_0_n_n.rhsIdx i q 1).val = (q ⟨0, by decide⟩).val :=
  dot_S4x2048x5632_S2048x5632_S4x2048x2048_2_1_01_0_n_n.rhsIdx_val_of_single rfl i q

/-- The second contraction at (b, s, d): row (b, s) of the left operand against row `d` of the weights. -/
theorem dot2_apply (y : FVec Ideal S4x2048x5632 .f32) (w : FVec Ideal S2048x5632 .f32) (b : Fin 4) (s : Fin 2048) (f : Fin 2048) :
    Host.dotGeneral dot_S4x2048x5632_S2048x5632_S4x2048x2048_2_1_01_0_n_n none y w (ix3 b s f) = ∑ k : Fin 5632, y (ix3 b s k) * w (ix2 f k) := by
  simp only [Host.dotGeneral]
  rw [Ideal.dotGeneral_apply, ← Equiv.sum_comp (ValueIdx.contrEquiv1 dot_S4x2048x5632_S2048x5632_S4x2048x2048_2_1_01_0_n_n 5632 rfl rfl).symm]
  refine Finset.sum_congr rfl fun k _ => ?_
  have hk := ValueIdx.contrEquiv1_symm_val dot_S4x2048x5632_S2048x5632_S4x2048x2048_2_1_01_0_n_n 5632 rfl rfl k
  have el : dot_S4x2048x5632_S2048x5632_S4x2048x2048_2_1_01_0_n_n.lhsIdx (ix3 b s f) ((ValueIdx.contrEquiv1 dot_S4x2048x5632_S2048x5632_S4x2048x2048_2_1_01_0_n_n 5632 rfl rfl).symm k) = ix3 b s k := funext fun a => Fin.ext (by
    match a with
    | ⟨0, _⟩ => exact dot2_apply_l0 _ _
    | ⟨1, _⟩ => exact dot2_apply_l1 _ _
    | ⟨2, _⟩ => exact (dot2_apply_l2 _ _).trans hk)
  have er : dot_S4x2048x5632_S2048x5632_S4x2048x2048_2_1_01_0_n_n.rhsIdx (ix3 b s f) ((ValueIdx.contrEquiv1 dot_S4x2048x5632_S2048x5632_S4x2048x2048_2_1_01_0_n_n 5632 rfl rfl).symm k) = ix2 f k := funext fun a => Fin.ext (by
    match a with
    | ⟨0, _⟩ => exact dot2_apply_r0 _ _
    | ⟨1, _⟩ => exact (dot2_apply_r1 _ _).trans hk)
  rw [el, er]

/-- The first half of the products: column `h` of the slice is column `h` of the whole. -/
theorem sliceLo_apply {α : Type} (v : S4x2048x11264.Idx → α) (hs : S4x2048x11264.Slices ![0, 0, 0] S4x2048x5632)
    (b : Fin 4) (s : Fin 2048) (h : Fin 5632) :
    extractStridedSlice S4x2048x5632 ![0, 0, 0] v hs (ix3 b s h) = v (ix3 b s (RowSpec.lo h)) :=
  extractStridedSlice_apply ![0, 0, 0] v hs (ix3 b s h) (ix3 b s (RowSpec.lo h)) (fun a => match a with
    | ⟨0, _⟩ => by show b.val = 0 + b.val; omega
    | ⟨1, _⟩ => by show s.val = 0 + s.val; omega
    | ⟨2, _⟩ => by show h.val = 0 + h.val; omega)

/-- The second half of the products: column `h` of the slice is column `h + 5632` of the whole. -/
theorem sliceHi_apply {α : Type} (v : S4x2048x11264.Idx → α) (hs : S4x2048x11264.Slices ![0, 0, 5632] S4x2048x5632)
    (b : Fin 4) (s : Fin 2048) (h : Fin 5632) :
    extractStridedSlice S4x2048x5632 ![0, 0, 5632] v hs (ix3 b s h) = v (ix3 b s (RowSpec.hi h)) :=
  extractStridedSlice_apply ![0, 0, 5632] v hs (ix3 b s h) (ix3 b s (RowSpec.hi h)) (fun a => match a with
    | ⟨0, _⟩ => by show b.val = 0 + b.val; omega
    | ⟨1, _⟩ => by show s.val = 0 + s.val; omega
    | ⟨2, _⟩ => by show h.val + 5632 = 5632 + h.val; omega)

/-! ## Entrywise operations at an entry -/

section Entry

variable {s : Shape}

theorem hostDivf_apply (a c : FVec Ideal s .f32) (i : s.Idx) : Host.divf a c i = Ideal.div (a i) (c i) := rfl
theorem hostAbsf_apply (a : FVec Ideal s .f32) (i : s.Idx) : Host.absf a i = FloatOps.absf (a i) := rfl
theorem hostRoundeven_apply (a : FVec Ideal s .f32) (i : s.Idx) :
    Host.roundeven a i = Ideal.liftRound Ideal.roundHalfEven (a i) := rfl
theorem hostRsqrt_apply (a : FVec Ideal s .f32) (i : s.Idx) : Host.rsqrt a i = Ideal.rsqrt (a i) := rfl

end Entry

/-! ## The stages at an entry -/

/-- The quantization scale of row (b, s): 127 over the larger of the row's largest magnitude and ε. -/
theorem scale_apply (x : FVec Ideal (T n) .f32) (hR : (T n).ReducesTo [2] S4x2048) (h0 : 0 < S_.numel)
    (hK : S4x2048.BroadcastsInDim (T 1) (![0, 1] : Fin 2 → Fin (T 1).rank))
    (hE : S_.BroadcastsInDim (T 1) (![] : Fin 0 → Fin (T 1).rank)) (b : Fin 4) (s : Fin 2048) (z : Fin 1) :
    Host.divf (broadcastInDim (T 1) ![] hE (constant S_ .f32 0x42FE0000#32))
      (maximumf (broadcastInDim (T 1) ![] hE (id (constant S_ .f32 0x3727C5AC#32)))
        (broadcastInDim (T 1) ![0, 1] hK
          (Host.reduce FloatOps.maximumf (Host.absf x) (constant S_ .f32 0xFF800000#32) hR h0))) (ix3 b s z)
      = RowSpec.scale (fun k => x (ix3 b s k)) := by
  rw [hostDivf_apply, maximumf_apply, bcastScalar_apply, bcastScalar_apply, bcastKeep_apply, rowMax_apply, max_comm]
  rfl

/-- One entry of a quantized row, given the row's scale. -/
theorem quant_apply (x : FVec Ideal (T n) .f32) (v : FVec Ideal (T 1) .f32)
    (hB : (T 1).BroadcastsInDim (T n) (![0, 1, 2] : Fin 3 → Fin (T n).rank))
    (hE : S_.BroadcastsInDim (T n) (![] : Fin 0 → Fin (T n).rank)) (b : Fin 4) (s : Fin 2048) (k : Fin n) :
    Host.divf
      (minimumf (broadcastInDim (T n) ![] hE (id (constant S_ .f32 0x42FE0000#32)))
        (maximumf (broadcastInDim (T n) ![] hE (id (constant S_ .f32 0xC3000000#32)))
          (Host.roundeven (mulf x (broadcastInDim (T n) ![0, 1, 2] hB v)))))
      (broadcastInDim (T n) ![0, 1, 2] hB v) (ix3 b s k)
      = RowSpec.quant1 (v (ix3 b s 0)) (x (ix3 b s k)) := by
  rw [hostDivf_apply, minimumf_apply, maximumf_apply, hostRoundeven_apply, mulf_apply, bcastScalar_apply, bcastScalar_apply,
    bcastRow_apply]
  rfl

/-- One entry of the gated row, from the two halves of the products. -/
theorem gated_apply (v : FVec Ideal S4x2048x11264 .f32) (hE : S_.BroadcastsInDim (T 5632) (![] : Fin 0 → Fin (T 5632).rank))
    (hl : S4x2048x11264.Slices ![0, 0, 0] S4x2048x5632) (hh : S4x2048x11264.Slices ![0, 0, 5632] S4x2048x5632)
    (b : Fin 4) (s : Fin 2048) (h : Fin 5632) :
    mulf
      (mulf (maximumf (extractStridedSlice S4x2048x5632 ![0, 0, 0] v hl) (broadcastInDim (T 5632) ![] hE (constant S_ .f32 0x00000000#32)))
        (maximumf (extractStridedSlice S4x2048x5632 ![0, 0, 0] v hl) (broadcastInDim (T 5632) ![] hE (constant S_ .f32 0x00000000#32))))
      (extractStridedSlice S4x2048x5632 ![0, 0, 5632] v hh) (ix3 b s h)
      = RowSpec.gate (v (ix3 b s (RowSpec.lo h))) (v (ix3 b s (RowSpec.hi h))) := by
  rw [mulf_apply, mulf_apply, maximumf_apply, bcastScalar_apply, sliceLo_apply, sliceHi_apply]
  rfl

/-- The reciprocal root-mean-square of row (b, s). -/
theorem rstd_apply (g : FVec Ideal (T n) .f32) (hR : (T n).ReducesTo [2] S4x2048) (h0 : 0 < S_.numel)
    (hK : S4x2048.BroadcastsInDim (T 1) (![0, 1] : Fin 2 → Fin (T 1).rank))
    (hE : S_.BroadcastsInDim (T 1) (![] : Fin 0 → Fin (T 1).rank)) (b : Fin 4) (s : Fin 2048) (z : Fin 1) :
    Host.rsqrt
      (addf
        (Host.divf (broadcastInDim (T 1) ![0, 1] hK (Host.reduceAdd (mulf g g) (constant S_ .f32 0x00000000#32) hR h0))
          (broadcastInDim (T 1) ![] hE (constant S_ .f32 0x45B00000#32)))
        (broadcastInDim (T 1) ![] hE (constant S_ .f32 0x3727C5AC#32))) (ix3 b s z)
      = Ideal.rsqrt (Ideal.div (∑ j : Fin n, g (ix3 b s j) * g (ix3 b s j)) (Ideal.ofBits .f32 0x45B00000#32)
          + Ideal.ofBits .f32 0x3727C5AC#32) := by
  rw [hostRsqrt_apply, addf_apply, hostDivf_apply, bcastKeep_apply, bcastScalar_apply, bcastScalar_apply, rowSum_apply,
    show constant (F := Ideal) S_ .f32 0x00000000#32 ix0 = (0 : EReal) from Ideal.ofBits_zero_f32, zero_add]
  rfl

/-- One entry of the normalized, weighted row, given the row's reciprocal root-mean-square. -/
theorem rms_apply (g : FVec Ideal (T 5632) .f32) (r : FVec Ideal (T 1) .f32) (w : FVec Ideal S5632 .f32)
    (hB : (T 1).BroadcastsInDim (T 5632) (![0, 1, 2] : Fin 3 → Fin (T 5632).rank))
    (h1 : S5632.BroadcastsInDim S1x1x5632 (![2] : Fin 1 → Fin S1x1x5632.rank))
    (h2 : S1x1x5632.BroadcastsInDim (T 5632) (![0, 1, 2] : Fin 3 → Fin (T 5632).rank))
    (b : Fin 4) (s : Fin 2048) (k : Fin 5632) :
    mulf (mulf g (broadcastInDim (T 5632) ![0, 1, 2] hB r))
      (broadcastInDim (T 5632) ![0, 1, 2] h2 (broadcastInDim S1x1x5632 ![2] h1 w)) (ix3 b s k)
      = (g (ix3 b s k) * r (ix3 b s 0)) * w (ix1 k) := by
  rw [mulf_apply, mulf_apply, bcastRow_apply, bcastCol_apply]

end Cert.RefPure

end
-- ==== Proof.RefStages.lean ====
/-
  The reference program's stages at an entry, as functions of one activation row and the weights: the quantized
  input row, its products with the first weight matrix's rows, the gated row, the normalized and weighted row, the
  re-quantized row, and the products with the second weight matrix's rows.
-/
import proofs.«143260_j32478542693202_2_alg».proof.Proof.RefAt1
import proofs.«143260_j32478542693202_2_alg».proof.Proof.RefAt2
import proofs.«143260_j32478542693202_2_alg».proof.Proof.RefAt3
import proofs.«143260_j32478542693202_2_alg».proof.Proof.RefAt4
import proofs.«143260_j32478542693202_2_alg».proof.Proof.RefPure

noncomputable section

namespace Cert.RefStages

open Cert.ReferenceIdeal Cert.ReferenceIdeal.Gen Idealize.ShloMosaic Idealize.ShloMosaic.ValueIdx Idealize.ShloMosaic.StableHlo
open Cert.RefRun Cert.RefPure

variable (V : Valuation τ sig (Elt Ideal))

/-- Row (b, s) of the activations. -/
abbrev xrow (b : Fin 4) (s : Fin 2048) : Fin 2048 → Ideal .f32 :=
  fun k => (V (Proc.devRef .tc main_arg0) : FVec Ideal S4x2048x2048 .f32) (ix3 b s k)
/-- The rows of the first weight matrix. -/
abbrev w13 : Fin 11264 → Fin 2048 → Ideal .f32 := fun f k => (V (Proc.devRef .tc main_arg1) : FVec Ideal S11264x2048 .f32) (ix2 f k)
/-- The rows of the second weight matrix. -/
abbrev w2 : Fin 2048 → Fin 5632 → Ideal .f32 := fun e h => (V (Proc.devRef .tc main_arg2) : FVec Ideal S2048x5632 .f32) (ix2 e h)
/-- The normalization weights. -/
abbrev nw : Fin 5632 → Ideal .f32 := fun h => (V (Proc.devRef .tc main_arg3) : FVec Ideal S5632 .f32) (ix1 h)

/-- The scale of the activations' row (b, s). -/
theorem scale1 (b : Fin 4) (s : Fin 2048) (z : Fin 1) :
    (fin V (Proc.devRef .tc main_v5) : FVec Ideal S4x2048x1 .f32) (ix3 b s z) = RowSpec.scale (xrow V b s) := by
  rw [at_main_v5, at_main_v4, at_main_cst_1, at_main_v3, at_main_call0_v1, at_main_call0_v0, at_main_cst_0, at_main_v2,
    at_main_v1, at_main_v0, at_main_cst, at_main_arg0]
  exact scale_apply (n := 2048) (V (Proc.devRef .tc main_arg0)) reducesTo_S4x2048x2048_S4x2048_d2 h_S_ bcast_S4x2048_S4x2048x1_0_1
    bcast_S_S4x2048x1 b s z

/-- The quantized activations at (b, s, k). -/
theorem quant1 (b : Fin 4) (s : Fin 2048) (k : Fin 2048) :
    (fin V (Proc.devRef .tc main_v11) : FVec Ideal S4x2048x2048 .f32) (ix3 b s k) = RowSpec.quant (xrow V b s) k := by
  rw [at_main_v11, at_main_v9, at_main_call2_v4, at_main_call2_v3, at_main_cst_3, at_main_call2_v2, at_main_call2_v1,
    at_main_call2_v0, at_main_cst_2, at_main_v8, at_main_v7, at_main_v6, at_main_v10, at_main_arg0]
  refine (quant_apply (n := 2048) (V (Proc.devRef .tc main_arg0)) (fin V (Proc.devRef .tc main_v5)) bcast_S4x2048x1_S4x2048x2048_0_1_2
    bcast_S_S4x2048x2048 b s k).trans ?_
  rw [scale1 V b s 0]
  rfl

/-- The products with the first weight matrix at (b, s, f). -/
theorem dot13 (b : Fin 4) (s : Fin 2048) (f : Fin 11264) :
    (fin V (Proc.devRef .tc main_v12) : FVec Ideal S4x2048x11264 .f32) (ix3 b s f)
      = RowSpec.dot (RowSpec.quant (xrow V b s)) (w13 V f) := by
  rw [at_main_v12, at_main_arg1]
  refine (dot13_apply (fin V (Proc.devRef .tc main_v11)) (V (Proc.devRef .tc main_arg1)) b s f).trans ?_
  exact Finset.sum_congr rfl fun k _ => by rw [quant1 V b s k]

/-- The gated row at (b, s, h). -/
theorem gated (b : Fin 4) (s : Fin 2048) (h : Fin 5632) :
    (fin V (Proc.devRef .tc main_v17) : FVec Ideal S4x2048x5632 .f32) (ix3 b s h)
      = RowSpec.gated (RowSpec.quant (xrow V b s)) (w13 V) h := by
  rw [at_main_v17, at_main_v16, at_main_v15, at_main_call3_v0, at_main_call3_cst, at_main_v13, at_main_v14]
  refine (gated_apply (fin V (Proc.devRef .tc main_v12)) bcast_S_S4x2048x5632 slices_S4x2048x11264_S4x2048x5632_0_0_0
    slices_S4x2048x11264_S4x2048x5632_0_0_5632 b s h).trans ?_
  rw [dot13 V b s, dot13 V b s]
  rfl

/-- The reciprocal root-mean-square of the gated row (b, s). -/
theorem rstd (b : Fin 4) (s : Fin 2048) (z : Fin 1) :
    (fin V (Proc.devRef .tc main_v25) : FVec Ideal S4x2048x1 .f32) (ix3 b s z)
      = Ideal.rsqrt (Ideal.div (∑ j : Fin 5632, RowSpec.gated (RowSpec.quant (xrow V b s)) (w13 V) j
            * RowSpec.gated (RowSpec.quant (xrow V b s)) (w13 V) j) (Ideal.ofBits .f32 0x45B00000#32)
          + Ideal.ofBits .f32 0x3727C5AC#32) := by
  rw [at_main_v25, at_main_v24, at_main_v23, at_main_cst_6, at_main_v22, at_main_v21, at_main_cst_5, at_main_v20, at_main_v19,
    at_main_cst_4, at_main_v18]
  refine (rstd_apply (n := 5632) (fin V (Proc.devRef .tc main_v17)) reducesTo_S4x2048x5632_S4x2048_d2 h_S_ bcast_S4x2048_S4x2048x1_0_1
    bcast_S_S4x2048x1 b s z).trans ?_
  refine congrArg (fun t => Ideal.rsqrt (Ideal.div t (Ideal.ofBits .f32 0x45B00000#32) + Ideal.ofBits .f32 0x3727C5AC#32)) ?_
  exact Finset.sum_congr rfl fun j _ => by rw [gated V b s j]

/-- The normalized, weighted row at (b, s, k). -/
theorem rms (b : Fin 4) (s : Fin 2048) (k : Fin 5632) :
    (fin V (Proc.devRef .tc main_v30) : FVec Ideal S4x2048x5632 .f32) (ix3 b s k)
      = RowSpec.rms (RowSpec.gated (RowSpec.quant (xrow V b s)) (w13 V)) (nw V) k := by
  rw [at_main_v30, at_main_v29, at_main_v28, at_main_arg3, at_main_v27, at_main_v26]
  refine (rms_apply (fin V (Proc.devRef .tc main_v17)) (fin V (Proc.devRef .tc main_v25)) (V (Proc.devRef .tc main_arg3))
    bcast_S4x2048x1_S4x2048x5632_0_1_2 bcast_S5632_S1x1x5632_2 bcast_S1x1x5632_S4x2048x5632_0_1_2 b s k).trans ?_
  rw [gated V b s k, rstd V b s 0]
  rfl

/-- The scale of the normalized row (b, s). -/
theorem scale2 (b : Fin 4) (s : Fin 2048) (z : Fin 1) :
    (fin V (Proc.devRef .tc main_v36) : FVec Ideal S4x2048x1 .f32) (ix3 b s z)
      = RowSpec.scale (RowSpec.rms (RowSpec.gated (RowSpec.quant (xrow V b s)) (w13 V)) (nw V)) := by
  rw [at_main_v36, at_main_v35, at_main_cst_9, at_main_v34, at_main_call4_v1, at_main_call4_v0, at_main_cst_8, at_main_v33,
    at_main_v32, at_main_v31, at_main_cst_7]
  refine (scale_apply (n := 5632) (fin V (Proc.devRef .tc main_v30)) reducesTo_S4x2048x5632_S4x2048_d2 h_S_ bcast_S4x2048_S4x2048x1_0_1
    bcast_S_S4x2048x1 b s z).trans ?_
  exact congrArg RowSpec.scale (funext fun k => rms V b s k)

/-- The re-quantized row at (b, s, h). -/
theorem iq (b : Fin 4) (s : Fin 2048) (h : Fin 5632) :
    (fin V (Proc.devRef .tc main_v42) : FVec Ideal S4x2048x5632 .f32) (ix3 b s h)
      = RowSpec.iq (RowSpec.gated (RowSpec.quant (xrow V b s)) (w13 V)) (nw V) h := by
  rw [at_main_v42, at_main_v40, at_main_call6_v4, at_main_call6_v3, at_main_cst_11, at_main_call6_v2, at_main_call6_v1,
    at_main_call6_v0, at_main_cst_10, at_main_v39, at_main_v38, at_main_v37, at_main_v41]
  refine (quant_apply (n := 5632) (fin V (Proc.devRef .tc main_v30)) (fin V (Proc.devRef .tc main_v36)) bcast_S4x2048x1_S4x2048x5632_0_1_2
    bcast_S_S4x2048x5632 b s h).trans ?_
  rw [scale2 V b s 0, rms V b s h]
  rfl

/-- The result at (b, s, d): the whole map on row (b, s) of the activations. -/
theorem out (b : Fin 4) (s : Fin 2048) (d : Fin 2048) :
    (fin V (Proc.devRef .tc main_v43) : FVec Ideal S4x2048x2048 .f32) (ix3 b s d)
      = RowSpec.rowOut (xrow V b s) (w13 V) (w2 V) (nw V) d := by
  rw [at_main_v43, at_main_arg2]
  refine (dot2_apply (fin V (Proc.devRef .tc main_v42)) (V (Proc.devRef .tc main_arg2)) b s d).trans ?_
  unfold RowSpec.rowOut RowSpec.dot
  exact Finset.sum_congr rfl fun h _ => by rw [iq V b s h]

end Cert.RefStages

end
-- ==== Proof.RefRows.lean ====
/-
  The reference program, whole: every entry (b, s, d) of its result is the row map (Cert.RowSpec.rowOut) of row (b, s) of
  the activations against the weights, and its arguments end unchanged.
-/
import proofs.«143260_j32478542693202_2_alg».proof.Proof.RefStages
import proofs.«143260_j32478542693202_2_alg».proof.Proof.OutSpec

noncomputable section

namespace Cert.RefRows

open Cert.ReferenceIdeal Cert.ReferenceIdeal.Gen Idealize.ShloMosaic Idealize.ShloMosaic.TcCoe Idealize.SL.Sem Idealize.ShloMosaic.ValueIdx
open Idealize.ShloMosaic.StableHlo

/-- What the result buffer holds after the whole program is `Cert.RowSpec.wholeOut` of what the argument buffers held. -/
theorem result_eq (V : Valuation τ sig (Elt Ideal)) :
    Cert.RefRun.fin V (Proc.devRef .tc main_v43)
      = Cert.RowSpec.wholeOut (V (Proc.devRef .tc main_arg0)) (V (Proc.devRef .tc main_arg1)) (V (Proc.devRef .tc main_arg2))
          (V (Proc.devRef .tc main_arg3)) := by
  funext i
  exact (congrArg (Cert.RefRun.fin V (Proc.devRef .tc main_v43)) (eq_ix3 i)).trans (Cert.RefStages.out V (i 0) (i 1) (i 2))

/-- From any memory with zero counters every weakly fair execution of the reference terminates with the result at
    `Cert.RowSpec.wholeOut` of the arguments' launch contents and the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v43)
          = Cert.RowSpec.wholeOut (m ((c.tc : Thread nD τ).loc main_arg0)) (m ((c.tc : Thread nD τ).loc main_arg1))
              (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run Cert.ReferenceIdeal.defs _ _).mono
    (fun _ h c => ⟨(h c main_v43).trans (result_eq (launchContents m c)),
      (h c main_arg0).trans (Cert.RefRun.at_main_arg0 (launchContents m c)),
      (h c main_arg1).trans (Cert.RefRun.at_main_arg1 (launchContents m c)),
      (h c main_arg2).trans (Cert.RefRun.at_main_arg2 (launchContents m c)),
      (h c main_arg3).trans (Cert.RefRun.at_main_arg3 (launchContents m c))⟩)
    (Cert.RefRun.run (F := Ideal) m ρ)

/-- The same run with only the arguments' part of the post: the reference terminates with its arguments unchanged. -/
theorem frame (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run Cert.ReferenceIdeal.defs _ _).mono (fun _ h c => (h c).2) (run m ρ)

end Cert.RefRows

end
-- ==== Proof.lean ====
/-
  The two programs compute, for every token (row of the activations), the same function of that row and the
  weights on the extended reals (Proof/RowSpec.lean): per-token 8-bit fake quantization, a product against both halves
  of the first weight matrix with squared-ReLU gating, RMS normalization with a weight vector, a second fake
  quantization and a product against the second weight matrix. The kernel program tiles this over three calls — rows
  in blocks of 512, then 2048 × 256 tiles of the gated matrix, then 256 × 256 tiles of the result with the normalized
  block kept in a scratch across the eight column tiles of a row tile — and the reference program runs it as one
  line of whole-array operations. No step needs a law beyond commutativity and associativity of the sums, so the
  precondition is never opened.

  Frames: each kernel program's run (Proof/BitsRun, Proof/IdealRun: one development, read at words and at the
  extended reals) ends with every unscoped buffer at known contents, and those contents at an argument array are the
  launch contents; the reference's run likewise. The value claim reads the result array off both runs
  (IdealRun/KernelValue.lean, RefRows.lean) as ONE term, Cert.RowSpec.wholeOut of the argument arrays.
-/
import proofs.«143260_j32478542693202_2_alg».proof.Defs
import proofs.«143260_j32478542693202_2_alg».proof.Proof.Gen.Kernel
import proofs.«143260_j32478542693202_2_alg».proof.Proof.Gen.KernelIdeal
import proofs.«143260_j32478542693202_2_alg».proof.Proof.Gen.ReferenceIdeal
import proofs.«143260_j32478542693202_2_alg».proof.Proof.Gen.Pre_finite_inputs
import proofs.«143260_j32478542693202_2_alg».proof.Proof.BitsRun.ArgsKept
import proofs.«143260_j32478542693202_2_alg».proof.Proof.BitsRun.RunMain
import proofs.«143260_j32478542693202_2_alg».proof.Proof.IdealRun.RunMain
import proofs.«143260_j32478542693202_2_alg».proof.Proof.IdealRun.KernelValue
import proofs.«143260_j32478542693202_2_alg».proof.Proof.RefRows
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.B5_arg0 m ρ c),
     (h c _ (Cert.Kernel.Hand.mem_uc Cert.Kernel.main_arg1 (by decide))).trans (Cert.Kernel.Hand.B5_arg1 m ρ c),
     (h c _ (Cert.Kernel.Hand.mem_uc Cert.Kernel.main_arg2 (by decide))).trans (Cert.Kernel.Hand.B5_arg2 m ρ c),
     (h c _ (Cert.Kernel.Hand.mem_uc Cert.Kernel.main_arg3 (by decide))).trans (Cert.Kernel.Hand.B5_arg3 m ρ c)⟩)
    (Cert.Kernel.Hand.run_main (F := Bits) m ρ)

/-- The kernel program at the extended reals: its run with the result array and the arguments read off the last
    boundary's contents. -/
theorem run_ki (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v6)
          = Cert.RowSpec.wholeOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run (Cert.KernelIdeal.defs (F := Ideal)) _ _).mono (fun r h c =>
    ⟨(h c _ (Cert.KernelIdeal.Hand.mem_uc Cert.KernelIdeal.main_v6 (by decide))).trans (Cert.KernelIdeal.Hand.B5_result m ρ c),
     (h c _ (Cert.KernelIdeal.Hand.mem_uc Cert.KernelIdeal.main_arg0 (by decide))).trans (Cert.KernelIdeal.Hand.B5_arg0 m ρ c),
     (h c _ (Cert.KernelIdeal.Hand.mem_uc Cert.KernelIdeal.main_arg1 (by decide))).trans (Cert.KernelIdeal.Hand.B5_arg1 m ρ c),
     (h c _ (Cert.KernelIdeal.Hand.mem_uc Cert.KernelIdeal.main_arg2 (by decide))).trans (Cert.KernelIdeal.Hand.B5_arg2 m ρ c),
     (h c _ (Cert.KernelIdeal.Hand.mem_uc Cert.KernelIdeal.main_arg3 (by decide))).trans (Cert.KernelIdeal.Hand.B5_arg3 m ρ c)⟩)
    (Cert.KernelIdeal.Hand.run_main (F := Ideal) m ρ)

/-- The idealized kernel program runs and leaves its arguments as launched. -/
theorem frame_ki : Cert.frame_KernelIdeal := fun m ρ _ =>
  (θ_run (Cert.KernelIdeal.defs (F := Ideal)) _ _).mono (fun _ h c => (h c).2) (run_ki m ρ)

/-- The reference program runs and leaves its arguments as launched. -/
theorem frame_ri : Cert.frame_ReferenceIdeal := fun m ρ _ =>
  (θ_run (Cert.ReferenceIdeal.defs (F := Ideal)) _ _).mono (fun _ h c => (h c).2) (Cert.RefRows.run m ρ)

/-- The idealization rewrote no operation. -/
theorem preserves : Cert.preserves_Kernel_KernelIdeal := trivial

/-- Both programs end with the same result array: the row function applied to every row of the activations. -/
theorem algebraic : Cert.algebraic_KernelIdeal_ReferenceIdeal := by
  intro m ρ m' ρ' _ hagree
  refine ⟨_, run_ki m ρ, ?_⟩
  refine (θ_run (Cert.ReferenceIdeal.defs (F := Ideal)) _ _).mono (fun r h c => ?_) (Cert.RefRows.run m' ρ')
  obtain ⟨h0, h1, h2, h3, h4⟩ := h c
  refine ⟨?_, h1, h2, h3, h4⟩
  rw [h0, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
